-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69_2)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_2) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_v205) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x4096x1024 : Shape := ⟨3, ![4, 4096, 1024]⟩
abbrev S4x1024x4096 : Shape := ⟨3, ![4, 1024, 4096]⟩
abbrev S4x4096 : Shape := ⟨2, ![4, 4096]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x1024x4096 : S_.BroadcastsInDim S4x1024x4096 (![] : Fin 0 → Fin S4x1024x4096.rank)
  reducesTo_S4x1024x4096_S_d0_1_2 : S4x1024x4096.ReducesTo [0, 1, 2] S_
  bcast_S_S4x4096 : S_.BroadcastsInDim S4x4096 (![] : Fin 0 → Fin S4x4096.rank)
  reducesTo_S4x4096_S_d0_1 : S4x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4x1024x4096 .f32) (main_arg5 : FVec F S4x4096 .f32) (main_arg6 : FVec F S4x4096 .f32) (main_arg7 : FVec F S1024x1024 .f32) (main_arg8 : FVec F S1024 .f32) (main_v13 : IVec S_ 1) (main_v16 : IVec S4x1024x4096 1) : IVec S_ 1 :=
  let main_c_5 : IVec S_ 1 := constantI S_ 1 1#1
  let main_v17 : IVec S_ 1 := (fun x v => Host.reduce IntOp.andi x v reducesTo_S4x1024x4096_S_d0_1_2 h_S_) main_v16 main_c_5
  let main_v18 : IVec S_ 1 := andi main_v13 main_v17
  let main_v19 : FVec F S4x1024x4096 .f32 := Host.absf main_arg4
  let main_cst_6 : FVec F S_ .f32 := constant S_ .f32 0x7F800000#32
  let main_v20 : FVec F S4x1024x4096 .f32 := broadcastInDim S4x1024x4096 ![] bcast_S_S4x1024x4096 main_cst_6
  let main_v21 : IVec S4x1024x4096 1 := cmpf .olt main_v19 main_v20
  let main_c_7 : IVec S_ 1 := constantI S_ 1 1#1
  let main_v22 : IVec S_ 1 := (fun x v => Host.reduce IntOp.andi x v reducesTo_S4x1024x4096_S_d0_1_2 h_S_) main_v21 main_c_7
  let main_v23 : IVec S_ 1 := andi main_v18 main_v22
  let main_v24 : FVec F S4x4096 .f32 := Host.absf main_arg5
  let main_cst_8 : FVec F S_ .f32 := constant S_ .f32 0x7F800000#32
  let main_v25 : FVec F S4x4096 .f32 := broadcastInDim S4x4096 ![] bcast_S_S4x4096 main_cst_8
  let main_v26 : IVec S4x4096 1 := cmpf .olt main_v24 main_v25
  let main_c_9 : IVec S_ 1 := constantI S_ 1 1#1
  let main_v27 : IVec S_ 1 := (fun x v => Host.reduce IntOp.andi x v reducesTo_S4x4096_S_d0_1 h_S_) main_v26 main_c_9
  let main_v28 : IVec S_ 1 := andi main_v23 main_v27
  let main_v29 : FVec F S4x4096 .f32 := Host.absf main_arg6
  let main_cst_10 : FVec F S_ .f32 := constant S_ .f32 0x7F800000#32
  let main_v30 : FVec F S4x4096 .f32 := broadcastInDim S4x4096 ![] bcast_S_S4x4096 main_cst_10
  let main_v31 : IVec S4x4096 1 := cmpf .olt main_v29 main_v30
  let main_c_11 : IVec S_ 1 := constantI S_ 1 1#1
  let main_v32 : IVec S_ 1 := (fun x v => Host.reduce IntOp.andi x v reducesTo_S4x4096_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4x4096x1024 .f32) (main_arg2 : FVec F S4x4096x1024 .f32) (main_arg3 : FVec F S4x1024x4096 .f32) (main_arg4 : FVec F S4x1024x4096 .f32) (main_arg5 : FVec F S4x4096 .f32) (main_arg6 : FVec F S4x4096 .f32) (main_arg7 : FVec F S1024x1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S4x1024x4096 .f32 := Host.absf main_arg3
  let main_cst_4 : FVec F S_ .f32 := constant S_ .f32 0x7F800000#32
  let main_v15 : FVec F S4x1024x4096 .f32 := broadcastInDim S4x1024x4096 ![] bcast_S_S4x1024x4096 main_cst_4
  let main_v16 : IVec S4x1024x4096 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4x4096x1024 : Shape := ⟨3, ![4, 4096, 1024]⟩
abbrev S4x1024x4096 : Shape := ⟨3, ![4, 1024, 4096]⟩
abbrev S4x4096 : Shape := ⟨2, ![4, 4096]⟩
abbrev S1024x1024 : Shape := ⟨2, ![1024, 1024]⟩
abbrev S1024 : Shape := ⟨1, ![1024]⟩
abbrev S1x4096x1024 : Shape := ⟨3, ![1, 4096, 1024]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S256x1024 : Shape := ⟨2, ![256, 1024]⟩
abbrev S256x4096 : Shape := ⟨2, ![256, 4096]⟩
abbrev S1x1024 : Shape := ⟨2, ![1, 1024]⟩
abbrev S128x1024 : Shape := ⟨2, ![128, 1024]⟩
abbrev S128x4096 : Shape := ⟨2, ![128, 4096]⟩

abbrev nBuf : Space → Nat
  | .hbm => 97
  | .vmem => 62
  | .smem => 0
  | _ => 0

abbrev bufTy : (tb : Table) → Fin (tcTables nBuf tb) → BufTy
  | .hbm, ⟨0, _⟩ => ⟨S4096x1024, .f32⟩
  | .hbm, ⟨1, _⟩ => ⟨S4x4096x1024, .f32⟩
  | .hbm, ⟨2, _⟩ => ⟨S4x4096x1024, .f32⟩
  | .hbm, ⟨3, _⟩ => ⟨S4x1024x4096, .f32⟩
  | .hbm, ⟨4, _⟩ => ⟨S4x1024x4096, .f32⟩
  | .hbm, ⟨5, _⟩ => ⟨S4x4096, .f32⟩
  | .hbm, ⟨6, _⟩ => ⟨S4x4096, .f32⟩
  | .hbm, ⟨7, _⟩ => ⟨S1024x1024, .f32⟩
  | .hbm, ⟨8, _⟩ => ⟨S1024, .f32⟩
  | .hbm, ⟨9, _⟩ => ⟨S1x4096x1024, .f32⟩
  | .hbm, ⟨10, _⟩ => ⟨S4096x1024, .f32⟩
  | .hbm, ⟨11, _⟩ => ⟨S1x4096x1024, .f32⟩
  | .hbm, ⟨12, _⟩ => ⟨S4096x1024, .f32⟩
  | .hbm, ⟨13, _⟩ => ⟨S1x1024x4096, .f32⟩
  | .hbm, ⟨14, _⟩ => ⟨S1024x4096, .f32⟩
  | .hbm, ⟨15, _⟩ => ⟨S1024x4096, .bf16⟩
  | .hbm, ⟨16, _⟩ => ⟨S1x1024x4096, .f32⟩
  | .hbm, ⟨17, _⟩ => ⟨S1024x4096, .f32⟩
  | .hbm, ⟨18, _⟩ => ⟨S1024x4096, .bf16⟩
  | .hbm, ⟨19, _⟩ => ⟨S1x4096, .f32⟩
  | .hbm, ⟨20, _⟩ => ⟨S4096, .f32⟩
  | .hbm, ⟨21, _⟩ => ⟨S1x4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1x4096x1024, .f32⟩
  | .hbm, ⟨29, _⟩ => ⟨S4096x1024, .f32⟩
  | .hbm, ⟨30, _⟩ => ⟨S1x4096x1024, .f32⟩
  | .hbm, ⟨31, _⟩ => ⟨S4096x1024, .f32⟩
  | .hbm, ⟨32, _⟩ => ⟨S1x1024x4096, .f32⟩
  | .hbm, ⟨33, _⟩ => ⟨S1024x4096, .f32⟩
  | .hbm, ⟨34, _⟩ => ⟨S1024x4096, .bf16⟩
  | .hbm, ⟨35, _⟩ => ⟨S1x1024x4096, .f32⟩
  | .hbm, ⟨36, _⟩ => ⟨S1024x4096, .f32⟩
  | .hbm, ⟨37, _⟩ => ⟨S1024x4096, .bf16⟩
  | .hbm, ⟨38, _⟩ => ⟨S1x4096, .f32⟩
  | .hbm, ⟨39, _⟩ => ⟨S4096, .f32⟩
  | .hbm, ⟨40, _⟩ => ⟨S1x4096, .f32⟩
  | .hbm, ⟨41, _⟩ => ⟨S4096, .f32⟩
  | .hbm, ⟨42, _⟩ => ⟨S4096, .f32⟩
  | .hbm, ⟨43, _⟩ => ⟨S1x4096, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S1x4096x1024, .f32⟩
  | .hbm, ⟨48, _⟩ => ⟨S4096x1024, .f32⟩
  | .hbm, ⟨49, _⟩ => ⟨S1x4096x1024, .f32⟩
  | .hbm, ⟨50, _⟩ => ⟨S4096x1024, .f32⟩
  | .hbm, ⟨51, _⟩ => ⟨S1x1024x4096, .f32⟩
  | .hbm, ⟨52, _⟩ => ⟨S1024x4096, .f32⟩
  | .hbm, ⟨53, _⟩ => ⟨S1024x4096, .bf16⟩
  | .hbm, ⟨54, _⟩ => ⟨S1x1024x4096, .f32⟩
  | .hbm, ⟨55, _⟩ => ⟨S1024x4096, .f32⟩
  | .hbm, ⟨56, _⟩ => ⟨S1024x4096, .bf16⟩
  | .hbm, ⟨57, _⟩ => ⟨S1x4096, .f32⟩
  | .hbm, ⟨58, _⟩ => ⟨S4096, .f32⟩
  | .hbm, ⟨59, _⟩ => ⟨S1x4096, .f32⟩
  | .hbm, ⟨60, _⟩ => ⟨S4096, .f32⟩
  | .hbm, ⟨61, _⟩ => ⟨S4096, .f32⟩
  | .hbm, ⟨62, _⟩ => ⟨S1x4096, .f32⟩
  | .hbm, ⟨63, _⟩ => ⟨S4096x1024, .f32⟩
  | .hbm, ⟨64, _⟩ => ⟨S4096x1024, .f32⟩
  | .hbm, ⟨65, _⟩ => ⟨S4096x1024, .bf16⟩
  | .hbm, ⟨66, _⟩ => ⟨S1x4096x1024, .f32⟩
  | .hbm, ⟨67, _⟩ => ⟨S4096x1024, .f32⟩
  | .hbm, ⟨68, _⟩ => ⟨S1x4096x1024, .f32⟩
  | .hbm, ⟨69, _⟩ => ⟨S4096x1024, .f32⟩
  | .hbm, ⟨70, _⟩ => ⟨S1x1024x4096, .f32⟩
  | .hbm, ⟨71, _⟩ => ⟨S1024x4096, .f32⟩
  | .hbm, ⟨72, _⟩ => ⟨S1024x4096, .bf16⟩
  | .hbm, ⟨73, _⟩ => ⟨S1x1024x4096, .f32⟩
  | .hbm, ⟨74, _⟩ => ⟨S1024x4096, .f32⟩
  | .hbm, ⟨75, _⟩ => ⟨S1024x4096, .bf16⟩
  | .hbm, ⟨76, _⟩ => ⟨S1x4096, .f32⟩
  | .hbm, ⟨77, _⟩ => ⟨S4096, .f32⟩
  | .hbm, ⟨78, _⟩ => ⟨S1x4096, .f32⟩
  | .hbm, ⟨79, _⟩ => ⟨S4096, .f32⟩
  | .hbm, ⟨80, _⟩ => ⟨S4096, .f32⟩
  | .hbm, ⟨81, _⟩ => ⟨S1x4096, .f32⟩
  | .hbm, ⟨82, _⟩ => ⟨S1024x1024, .bf16⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1x4096x1024, .f32⟩
  | .hbm, ⟨88, _⟩ => ⟨S1x4096x1024, .f32⟩
  | .hbm, ⟨89, _⟩ => ⟨S1x4096x1024, .f32⟩
  | .hbm, ⟨90, _⟩ => ⟨S1x4096x1024, .f32⟩
  | .hbm, ⟨91, _⟩ => ⟨S4x4096x1024, .f32⟩
  | .hbm, ⟨92, _⟩ => ⟨S1x4096x1024, .f32⟩
  | .hbm, ⟨93, _⟩ => ⟨S1x4096x1024, .f32⟩
  | .hbm, ⟨94, _⟩ => ⟨S1x4096x1024, .f32⟩
  | .hbm, ⟨95, _⟩ => ⟨S1x4096x1024, .f32⟩
  | .hbm, ⟨96, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1024x4096, .bf16⟩
  | .local _ .vmem, ⟨22, _⟩ => ⟨S1024x4096, .bf16⟩
  | .local _ .vmem, ⟨23, _⟩ => ⟨S1x4096, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S1024x4096, .bf16⟩
  | .local _ .vmem, ⟨37, _⟩ => ⟨S1024x4096, .bf16⟩
  | .local _ .vmem, ⟨38, _⟩ => ⟨S1x4096, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .bf16⟩
  | .local _ .vmem, ⟨44, _⟩ => ⟨S256x1024, .bf16⟩
  | .local _ .vmem, ⟨45, _⟩ => ⟨S128x1024, .bf16⟩
  | .local _ .vmem, ⟨46, _⟩ => ⟨S128x1024, .bf16⟩
  | .local _ .vmem, ⟨47, _⟩ => ⟨S128x1024, .f32⟩
  | .local _ .vmem, ⟨48, _⟩ => ⟨S128x1024, .f32⟩
  | .local _ .vmem, ⟨49, _⟩ => ⟨S128x1024, .f32⟩
  | .local _ .vmem, ⟨50, _⟩ => ⟨S128x1024, .f32⟩
  | .local _ .vmem, ⟨51, _⟩ => ⟨S1024x4096, .bf16⟩
  | .local _ .vmem, ⟨52, _⟩ => ⟨S1024x4096, .bf16⟩
  | .local _ .vmem, ⟨53, _⟩ => ⟨S1x4096, .f32⟩
  | .local _ .vmem, ⟨54, _⟩ => ⟨S1024x1024, .bf16⟩
  | .local _ .vmem, ⟨55, _⟩ => ⟨S1x1024, .f32⟩
  | .local _ .vmem, ⟨56, _⟩ => ⟨S128x1024, .f32⟩
  | .local _ .vmem, ⟨57, _⟩ => ⟨S128x1024, .f32⟩
  | .local _ .vmem, ⟨58, _⟩ => ⟨S128x1024, .f32⟩
  | .local _ .vmem, ⟨59, _⟩ => ⟨S128x1024, .f32⟩
  | .local _ .vmem, ⟨60, _⟩ => ⟨S128x1024, .f32⟩
  | .local _ .vmem, ⟨61, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50_0 : Ref sig .tc := ⟨.hbm, 63, rfl⟩
abbrev main_v50_1 : Ref sig .tc := ⟨.hbm, 64, rfl⟩
abbrev main_v50_2 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69_0 : Ref sig .tc := ⟨.hbm, 84, rfl⟩
abbrev main_v69_1 : Ref sig .tc := ⟨.hbm, 85, rfl⟩
abbrev main_v69_2 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg6_1 : Ref sig .tc := ⟨.vmem, 40, rfl⟩
abbrev cc2_stg7_0 : Ref sig .tc := ⟨.vmem, 41, rfl⟩
abbrev cc2_stg7_1 : Ref sig .tc := ⟨.vmem, 42, rfl⟩
abbrev cc2_stg8_0 : Ref sig .tc := ⟨.vmem, 43, rfl⟩
abbrev cc2_stg8_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc3_stg8_0 : Ref sig .tc := ⟨.vmem, 56, rfl⟩
abbrev cc3_stg8_1 : Ref sig .tc := ⟨.vmem, 57, rfl⟩
abbrev cc3_stg9_0 : Ref sig .tc := ⟨.vmem, 58, rfl⟩
abbrev cc3_stg9_1 : Ref sig .tc := ⟨.vmem, 59, rfl⟩
abbrev cc3_stg10_0 : Ref sig .tc := ⟨.vmem, 60, rfl⟩
abbrev cc3_stg10_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40
abbrev cc2_sem7_0 : DmaSem sig := 41
abbrev cc2_sem7_1 : DmaSem sig := 42
abbrev cc2_sem8_0 : DmaSem sig := 43
abbrev cc2_sem8_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc3_sem8_0 : DmaSem sig := 56
abbrev cc3_sem8_1 : DmaSem sig := 57
abbrev cc3_sem9_0 : DmaSem sig := 58
abbrev cc3_sem9_1 : DmaSem sig := 59
abbrev cc3_sem10_0 : DmaSem sig := 60
abbrev cc3_sem10_1 : DmaSem sig := 61

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x4096 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x4096 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x4096 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x4096 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S128x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S128x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S128x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S4x4096x1024_S1x4096x1024_0_0_0 : S4x4096x1024.Slices ![0, 0, 0] S1x4096x1024
  shapeCasts_S1x4096x1024_S4096x1024 : S1x4096x1024.ShapeCasts S4096x1024
  slices_S4x1024x4096_S1x1024x4096_0_0_0 : S4x1024x4096.Slices ![0, 0, 0] S1x1024x4096
  shapeCasts_S1x1024x4096_S1024x4096 : S1x1024x4096.ShapeCasts S1024x4096
  bitsLt_bf16_f32 : FTy.bits .bf16 < FTy.bits .f32
  slices_S4x4096_S1x4096_0_0 : S4x4096.Slices ![0, 0] S1x4096
  shapeCasts_S1x4096_S4096 : S1x4096.ShapeCasts S4096
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  packedbf16_S256x1024_S256x1024_0_0 : (Rect.unit (s := S256x1024) ![0, 0] S256x1024.size inb_S256x1024_S256x1024_0_0).PackedRows (EltTy.packing .bf16)
  slices_S4x4096x1024_S1x4096x1024_1_0_0 : S4x4096x1024.Slices ![1, 0, 0] S1x4096x1024
  slices_S4x1024x4096_S1x1024x4096_1_0_0 : S4x1024x4096.Slices ![1, 0, 0] S1x1024x4096
  slices_S4x4096_S1x4096_1_0 : S4x4096.Slices ![1, 0] S1x4096
  slices_S4x4096x1024_S1x4096x1024_2_0_0 : S4x4096x1024.Slices ![2, 0, 0] S1x4096x1024
  slices_S4x1024x4096_S1x1024x4096_2_0_0 : S4x1024x4096.Slices ![2, 0, 0] S1x1024x4096
  slices_S4x4096_S1x4096_2_0 : S4x4096.Slices ![2, 0] S1x4096
  slices_S4x4096x1024_S1x4096x1024_3_0_0 : S4x4096x1024.Slices ![3, 0, 0] S1x4096x1024
  slices_S4x1024x4096_S1x1024x4096_3_0_0 : S4x1024x4096.Slices ![3, 0, 0] S1x1024x4096
  slices_S4x4096_S1x4096_3_0 : S4x4096.Slices ![3, 0] S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  bcast_S4096x1024_S1x4096x1024_1_2 : S4096x1024.BroadcastsInDim S1x4096x1024 (![1, 2] : Fin 2 → Fin S1x4096x1024.rank)
  concatenates_S1x4096x1024_S1x4096x1024_S1x4096x1024_S1x4096x1024_S4x4096x1024_d0 : Shape.Concatenates [S1x4096x1024, S1x4096x1024, S1x4096x1024, S1x4096x1024] S4x4096x1024 0
  dot_S256x1024_S1024x4096_S256x4096_1_0_0_1_n_n_wf : DotDims.WF S256x1024 S1024x4096 S256x4096 [1] [0] [0] [1] [] []
  dot_S128x1024_S1024x4096_S128x4096_1_0_0_1_n_n_wf : DotDims.WF S128x1024 S1024x4096 S128x4096 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .bf16 = 32 ∨ (Rect.block (s := S4096x1024) S256x1024.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .bf16 = 32 ∨ (Rect.block (s := S4096x1024) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x1024.size a
  hwx1_1 : ∀ i : grid1.Coords, EltTy.bits .f32 = 32 ∨ (Rect.block (s := S4096x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S4096x1024.size a
  hwx1_2 : ∀ i : grid1.Coords, EltTy.bits .f32 = 32 ∨ (Rect.block (s := S4096x1024) S256x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S4096x1024.size a
  hwx1_6 : ∀ i : grid1.Coords, EltTy.bits .f32 = 32 ∨ (Rect.block (s := S4096x1024) S256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S4096x1024.size a
  hwx1_7 : ∀ i : grid1.Coords, EltTy.bits .f32 = 32 ∨ (Rect.block (s := S4096x1024) S256x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x1024.size a ≤ S4096x1024.size a
  hwx1_8 : ∀ i : grid1.Coords, EltTy.bits .bf16 = 32 ∨ (Rect.block (s := S4096x1024) S256x1024.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .bf16 = 32 ∨ (Rect.block (s := S4096x1024) S256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S4096x1024.size a
  hwx2_1 : ∀ i : grid2.Coords, EltTy.bits .f32 = 32 ∨ (Rect.block (s := S4096x1024) S256x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S4096x1024.size a
  hwx2_2 : ∀ i : grid2.Coords, EltTy.bits .f32 = 32 ∨ (Rect.block (s := S4096x1024) S256x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x4096.size a ≤ S1024x4096.size a
  hwx2_3 : ∀ i : grid2.Coords, EltTy.bits .bf16 = 32 ∨ (Rect.block (s := S1024x4096) S1024x4096.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x4096.size a ≤ S1024x4096.size a
  hwx2_4 : ∀ i : grid2.Coords, EltTy.bits .bf16 = 32 ∨ (Rect.block (s := S1024x4096) S1024x4096.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x4096.size a ≤ S1x4096.size a
  hwx2_5 : ∀ i : grid2.Coords, EltTy.bits .f32 = 32 ∨ (Rect.block (s := S1x4096) S1x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1024.size a ≤ S4096x1024.size a
  hwx2_6 : ∀ i : grid2.Coords, EltTy.bits .f32 = 32 ∨ (Rect.block (s := S4096x1024) S256x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x1024.size a ≤ S4096x1024.size a
  hwx2_7 : ∀ i : grid2.Coords, EltTy.bits .f32 = 32 ∨ (Rect.block (s := S4096x1024) S256x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x1024.size a ≤ S4096x1024.size a
  hwx2_8 : ∀ i : grid2.Coords, EltTy.bits .bf16 = 32 ∨ (Rect.block (s := S4096x1024) S256x1024.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x1024.size a ≤ S4096x1024.size a
  hwx3_0 : ∀ i : grid3.Coords, EltTy.bits .bf16 = 32 ∨ (Rect.block (s := S4096x1024) S128x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x1024.size a ≤ S4096x1024.size a
  hwx3_1 : ∀ i : grid3.Coords, EltTy.bits .f32 = 32 ∨ (Rect.block (s := S4096x1024) S128x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x1024.size a ≤ S4096x1024.size a
  hwx3_2 : ∀ i : grid3.Coords, EltTy.bits .f32 = 32 ∨ (Rect.block (s := S4096x1024) S128x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x4096.size a ≤ S1024x4096.size a
  hwx3_3 : ∀ i : grid3.Coords, EltTy.bits .bf16 = 32 ∨ (Rect.block (s := S1024x4096) S1024x4096.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x4096.size a ≤ S1024x4096.size a
  hwx3_4 : ∀ i : grid3.Coords, EltTy.bits .bf16 = 32 ∨ (Rect.block (s := S1024x4096) S1024x4096.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x4096.size a ≤ S1x4096.size a
  hwx3_5 : ∀ i : grid3.Coords, EltTy.bits .f32 = 32 ∨ (Rect.block (s := S1x4096) S1x4096.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x1024.size a ≤ S1024x1024.size a
  hwx3_6 : ∀ i : grid3.Coords, EltTy.bits .bf16 = 32 ∨ (Rect.block (s := S1024x1024) S1024x1024.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1024.size a ≤ S1x1024.size a
  hwx3_7 : ∀ i : grid3.Coords, EltTy.bits .f32 = 32 ∨ (Rect.block (s := S1x1024) S1x1024.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S128x1024.size a ≤ S4096x1024.size a
  hwx3_8 : ∀ i : grid3.Coords, EltTy.bits .f32 = 32 ∨ (Rect.block (s := S4096x1024) S128x1024.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S128x1024.size a ≤ S4096x1024.size a
  hwx3_9 : ∀ i : grid3.Coords, EltTy.bits .f32 = 32 ∨ (Rect.block (s := S4096x1024) S128x1024.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S128x1024.size a ≤ S4096x1024.size a
  hwx3_10 : ∀ i : grid3.Coords, EltTy.bits .f32 = 32 ∨ (Rect.block (s := S4096x1024) S128x1024.size (cc3_transform_10 i) (hinb3_10 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_2) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33_0) S256x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v33_1) S256x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v33_2) S256x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v33_2) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1024x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1024x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50_0) S256x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v50_1) S256x1024.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v50_2) S256x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v50_2) S128x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S128x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S128x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1024x4096.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1024x4096.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S1x4096.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S1024x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v68) S1x1024.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v69_0) S128x1024.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v69_1) S128x1024.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v69_2) S128x1024.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S4096x1024 : Shape := ⟨2, ![4096, 1024]⟩
abbrev S4x4096x1024 : Shape := ⟨3, ![4, 4096, 1024]⟩
abbrev S4x1024x4096 : Shape := ⟨3, ![4, 1024, 4096]⟩
abbrev S4x4096 : Shape := ⟨2, ![4, 4096]⟩
abbrev S1024x1024 : Shape := ⟨2, ![1024, 1024]⟩
abbrev S1024 : Shape := ⟨1, ![1024]⟩
abbrev S1x4096x1024 : Shape := ⟨3, ![1, 4096, 1024]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S4096x4096 : Shape := ⟨2, ![4096, 4096]⟩
abbrev S_ : Shape := ⟨0, ![]⟩
abbrev S1x1024 : Shape := ⟨2, ![1, 1024]⟩

abbrev nBuf : Space → Nat
  | .hbm => 245
  | .vmem => 0
  | .smem => 0
  | _ => 0

abbrev hbmTy0_0 (i : Nat) : BufTy := match i % 128 with
  | 0 => ⟨S4096x1024, .f32⟩
  | 1 => ⟨S4x4096x1024, .f32⟩
  | 2 => ⟨S4x4096x1024, .f32⟩
  | 3 => ⟨S4x1024x4096, .f32⟩
  | 4 => ⟨S4x1024x4096, .f32⟩
  | 5 => ⟨S4x4096, .f32⟩
  | 6 => ⟨S4x4096, .f32⟩
  | 7 => ⟨S1024x1024, .f32⟩
  | 8 => ⟨S1024, .f32⟩
  | 9 => ⟨S1x4096x1024, .f32⟩
  | 10 => ⟨S4096x1024, .f32⟩
  | 11 => ⟨S1x4096x1024, .f32⟩
  | 12 => ⟨S4096x1024, .f32⟩
  | 13 => ⟨S1x1024x4096, .f32⟩
  | 14 => ⟨S1024x4096, .f32⟩
  | 15 => ⟨S1x1024x4096, .f32⟩
  | 16 => ⟨S1024x4096, .f32⟩
  | 17 => ⟨S1x4096, .f32⟩
  | 18 => ⟨S4096, .f32⟩
  | 19 => ⟨S1x4096, .f32⟩
  | 20 => ⟨S4096, .f32⟩
  | 21 => ⟨S4096x4096, .f32⟩
  | 22 => ⟨S1x4096, .f32⟩
  | 23 => ⟨S4096x4096, .f32⟩
  | 24 => ⟨S4096x4096, .f32⟩
  | 25 => ⟨S4096x4096, .f32⟩
  | 26 => ⟨S4096x4096, .f32⟩
  | 27 => ⟨S1x4096, .f32⟩
  | 28 => ⟨S4096x4096, .f32⟩
  | 29 => ⟨S4096x4096, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S1x4096x1024, .f32⟩
  | 65 => ⟨S4096x1024, .f32⟩
  | 66 => ⟨S1x4096x1024, .f32⟩
  | 67 => ⟨S4096x1024, .f32⟩
  | 68 => ⟨S1x1024x4096, .f32⟩
  | 69 => ⟨S1024x4096, .f32⟩
  | 70 => ⟨S1x1024x4096, .f32⟩
  | 71 => ⟨S1024x4096, .f32⟩
  | 72 => ⟨S1x4096, .f32⟩
  | 73 => ⟨S4096, .f32⟩
  | 74 => ⟨S1x4096, .f32⟩
  | 75 => ⟨S4096, .f32⟩
  | 76 => ⟨S4096x4096, .f32⟩
  | 77 => ⟨S1x4096, .f32⟩
  | 78 => ⟨S4096x4096, .f32⟩
  | 79 => ⟨S4096x4096, .f32⟩
  | 80 => ⟨S4096x4096, .f32⟩
  | 81 => ⟨S4096x4096, .f32⟩
  | 82 => ⟨S1x4096, .f32⟩
  | 83 => ⟨S4096x4096, .f32⟩
  | 84 => ⟨S4096x4096, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S4096x1024, .f32⟩
  | 106 => ⟨S4096x1024, .f32⟩
  | 107 => ⟨S_, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S1x4096x1024, .f32⟩
  | 120 => ⟨S4096x1024, .f32⟩
  | 121 => ⟨S1x4096x1024, .f32⟩
  | 122 => ⟨S4096x1024, .f32⟩
  | 123 => ⟨S1x1024x4096, .f32⟩
  | 124 => ⟨S1024x4096, .f32⟩
  | 125 => ⟨S1x1024x4096, .f32⟩
  | 126 => ⟨S1024x4096, .f32⟩
  | 127 => ⟨S1x4096, .f32⟩
  | _ => ⟨S4096x1024, .f32⟩

abbrev hbmTy0_1 (i : Nat) : BufTy := match i % 128 with
  | 0 => ⟨S4096, .f32⟩
  | 1 => ⟨S1x4096, .f32⟩
  | 2 => ⟨S4096, .f32⟩
  | 3 => ⟨S4096x4096, .f32⟩
  | 4 => ⟨S1x4096, .f32⟩
  | 5 => ⟨S4096x4096, .f32⟩
  | 6 => ⟨S4096x4096, .f32⟩
  | 7 => ⟨S4096x4096, .f32⟩
  | 8 => ⟨S4096x4096, .f32⟩
  | 9 => ⟨S1x4096, .f32⟩
  | 10 => ⟨S4096x4096, .f32⟩
  | 11 => ⟨S4096x4096, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S1x4096x1024, .f32⟩
  | 47 => ⟨S4096x1024, .f32⟩
  | 48 => ⟨S1x4096x1024, .f32⟩
  | 49 => ⟨S4096x1024, .f32⟩
  | 50 => ⟨S1x1024x4096, .f32⟩
  | 51 => ⟨S1024x4096, .f32⟩
  | 52 => ⟨S1x1024x4096, .f32⟩
  | 53 => ⟨S1024x4096, .f32⟩
  | 54 => ⟨S1x4096, .f32⟩
  | 55 => ⟨S4096, .f32⟩
  | 56 => ⟨S1x4096, .f32⟩
  | 57 => ⟨S4096, .f32⟩
  | 58 => ⟨S4096x4096, .f32⟩
  | 59 => ⟨S1x4096, .f32⟩
  | 60 => ⟨S4096x4096, .f32⟩
  | 61 => ⟨S4096x4096, .f32⟩
  | 62 => ⟨S4096x4096, .f32⟩
  | 63 => ⟨S4096x4096, .f32⟩
  | 64 => ⟨S1x4096, .f32⟩
  | 65 => ⟨S4096x4096, .f32⟩
  | 66 => ⟨S4096x4096, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S1x4096x1024, .f32⟩
  | 102 => ⟨S1x4096x1024, .f32⟩
  | 103 => ⟨S1x4096x1024, .f32⟩
  | 104 => ⟨S1x4096x1024, .f32⟩
  | 105 => ⟨S4x4096x1024, .f32⟩
  | 106 => ⟨S1x4096x1024, .f32⟩
  | 107 => ⟨S1x4096x1024, .f32⟩
  | 108 => ⟨S1x4096x1024, .f32⟩
  | 109 => ⟨S1x4096x1024, .f32⟩
  | 110 => ⟨S4x4096x1024, .f32⟩
  | 111 => ⟨S1x4096x1024, .f32⟩
  | 112 => ⟨S4096x1024, .f32⟩
  | 113 => ⟨S4096x1024, .f32⟩
  | 114 => ⟨S1x1024, .f32⟩
  | 115 => ⟨S4096x1024, .f32⟩
  | 116 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_5 : Ref sig .tc := ⟨.hbm, 91, rfl⟩
abbrev main_v76 : Ref sig .tc := ⟨.hbm, 92, rfl⟩
abbrev main_v77 : Ref sig .tc := ⟨.hbm, 93, rfl⟩
abbrev main_cst_6 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_7 : Ref sig .tc := ⟨.hbm, 99, rfl⟩
abbrev main_v82 : Ref sig .tc := ⟨.hbm, 100, rfl⟩
abbrev main_v83 : Ref sig .tc := ⟨.hbm, 101, rfl⟩
abbrev main_cst_8 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_9 : Ref sig .tc := ⟨.hbm, 107, rfl⟩
abbrev main_v88 : Ref sig .tc := ⟨.hbm, 108, rfl⟩
abbrev main_v89 : Ref sig .tc := ⟨.hbm, 109, rfl⟩
abbrev main_cst_10 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_11 : Ref sig .tc := ⟨.hbm, 146, rfl⟩
abbrev main_v125 : Ref sig .tc := ⟨.hbm, 147, rfl⟩
abbrev main_v126 : Ref sig .tc := ⟨.hbm, 148, rfl⟩
abbrev main_cst_12 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_cst_13 : Ref sig .tc := ⟨.hbm, 154, rfl⟩
abbrev main_v131 : Ref sig .tc := ⟨.hbm, 155, rfl⟩
abbrev main_v132 : Ref sig .tc := ⟨.hbm, 156, rfl⟩
abbrev main_cst_14 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_15 : Ref sig .tc := ⟨.hbm, 162, rfl⟩
abbrev main_v137 : Ref sig .tc := ⟨.hbm, 163, rfl⟩
abbrev main_v138 : Ref sig .tc := ⟨.hbm, 164, rfl⟩
abbrev main_cst_16 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_cst_17 : Ref sig .tc := ⟨.hbm, 201, rfl⟩
abbrev main_v174 : Ref sig .tc := ⟨.hbm, 202, rfl⟩
abbrev main_v175 : Ref sig .tc := ⟨.hbm, 203, rfl⟩
abbrev main_cst_18 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_cst_19 : Ref sig .tc := ⟨.hbm, 209, rfl⟩
abbrev main_v180 : Ref sig .tc := ⟨.hbm, 210, rfl⟩
abbrev main_v181 : Ref sig .tc := ⟨.hbm, 211, rfl⟩
abbrev main_cst_20 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_cst_21 : Ref sig .tc := ⟨.hbm, 217, rfl⟩
abbrev main_v186 : Ref sig .tc := ⟨.hbm, 218, rfl⟩
abbrev main_v187 : Ref sig .tc := ⟨.hbm, 219, rfl⟩
abbrev main_cst_22 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩

abbrev nD : Nat := 1
abbrev τ : Topo := Topo.v7x

variable {F : FTy → Type} [FloatOps F]

class Facts₀ : Prop where
  slices_S4x4096x1024_S1x4096x1024_0_0_0 : S4x4096x1024.Slices ![0, 0, 0] S1x4096x1024
  shapeCasts_S1x4096x1024_S4096x1024 : S1x4096x1024.ShapeCasts S4096x1024
  slices_S4x1024x4096_S1x1024x4096_0_0_0 : S4x1024x4096.Slices ![0, 0, 0] S1x1024x4096
  shapeCasts_S1x1024x4096_S1024x4096 : S1x1024x4096.ShapeCasts S1024x4096
  slices_S4x4096_S1x4096_0_0 : S4x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  slices_S4x4096x1024_S1x4096x1024_1_0_0 : S4x4096x1024.Slices ![1, 0, 0] S1x4096x1024
  slices_S4x1024x4096_S1x1024x4096_1_0_0 : S4x1024x4096.Slices ![1, 0, 0] S1x1024x4096
  slices_S4x4096_S1x4096_1_0 : S4x4096.Slices ![1, 0] S1x4096
  slices_S4x4096x1024_S1x4096x1024_2_0_0 : S4x4096x1024.Slices ![2, 0, 0] S1x4096x1024
  slices_S4x1024x4096_S1x1024x4096_2_0_0 : S4x1024x4096.Slices ![2, 0, 0] S1x1024x4096
  slices_S4x4096_S1x4096_2_0 : S4x4096.Slices ![2, 0] S1x4096
  slices_S4x4096x1024_S1x4096x1024_3_0_0 : S4x4096x1024.Slices ![3, 0, 0] S1x4096x1024
  slices_S4x1024x4096_S1x1024x4096_3_0_0 : S4x1024x4096.Slices ![3, 0, 0] S1x1024x4096
  slices_S4x4096_S1x4096_3_0 : S4x4096.Slices ![3, 0] S1x4096
  bcast_S4096x1024_S1x4096x1024_1_2 : S4096x1024.BroadcastsInDim S1x4096x1024 (![1, 2] : Fin 2 → Fin S1x4096x1024.rank)
  concatenates_S1x4096x1024_S1x4096x1024_S1x4096x1024_S1x4096x1024_S4x4096x1024_d0 : Shape.Concatenates [S1x4096x1024, S1x4096x1024, S1x4096x1024, S1x4096x1024] S4x4096x1024 0
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []
  dot_S4096x1024_S1024x1024_S4096x1024_1_0_0_1_n_n_wf : DotDims.WF S4096x1024 S1024x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.KRegion0.lean ====
import proofs.«125291_j75917841924156_2_alg».proof.Proof.Gen.Kernel.Launch
import proofs.«125291_j75917841924156_2_alg».proof.Proof.Gen.Kernel.Skeleton
import proofs.«125291_j75917841924156_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 0's pallas_call, one grid point at a time

The call tiles the batch axis: at point `t` the body sees rows `t·b … t·b + b − 1` of the layer input, of the previous
hidden and cell state, and the whole of both weight matrices and of the summed bias. It forms the four gate
pre-activations `x·Wi + h·Wh + bias`, applies the logistic function to three of them and the hyperbolic tangent to
the fourth, and stores the new cell state `f·c + i·g`, the new hidden state `o·tanh(c')` and a second copy of it that the next layer reads.
Here: the block every window shows at a point, the value each output block is left with (one store covering it),
the body's run on whole staging buffers, and the per-point obligation the launch asks for.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of a core when the call is entered
variable (V : (c : Dev nD) → (b : Ref sig .tc) → Buf (Elt F) ((c : Thread nD τ).loc b))

/-- The block window `w` shows at point `t`: the rows of its array the point's index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not the point fetched it: a point
    that does not fetch has the same block index as the one before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether or not the point fetched it: a point
    that does not fetch has the same block index as the one before, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether or not the point fetched it: a point
    that does not fetch has the same block index as the one before, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether or not the point fetched it: a point
    that does not fetch has the same block index as the one before, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether or not the point fetched it: a point
    that does not fetch has the same block index as the one before, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether or not the point fetched it: a point
    that does not fetch has the same block index as the one before, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- What output window 6's block holds after the body, as a function of the input blocks: its one store, over the whole block. -/
def out0_6 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k0_pay3 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover0_6 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 7's block holds after the body, as a function of the input blocks: its one store, over the whole block. -/
def out0_7 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k0_pay2 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover0_7 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 8's block holds after the body, as a function of the input blocks: its one store, over the whole block. -/
def out0_8 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .bf16 :=
  View.canon [⟨(Rect.unit (s := S256x1024) ![0, 0] S256x1024.size inb_S256x1024_S256x1024_0_0), k0_pay4 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover0_8 (p0 : Vec F S256x1024 .bf16) (y : S256x1024.Idx) :
    ∃ pc ∈ ([⟨(Rect.unit (s := S256x1024) ![0, 0] S256x1024.size inb_S256x1024_S256x1024_0_0), p0⟩] : List (View.Piece (Elt F) S256x1024 .bf16)), y ∈ pc.1.set :=
  View.cover_of_tiled [⟨(Rect.unit (s := S256x1024) ![0, 0] S256x1024.size inb_S256x1024_S256x1024_0_0), p0⟩] S256x1024.size (by rfl) y

set_option maxHeartbeats 4000000 in
/-- The body on whole staging buffers: the inputs holding blocks `x·`, the outputs anything. It ends with the inputs
    as they were and each output at its function of the inputs; nothing else is touched. -/
theorem sound_kernel0 (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8 arg9 harg9) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-- The call's bookkeeping on core `c`: the arrays as the call finds them; after the body at point `t` each input's buffer
    still at its block and each output's at its function of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the input buffers hold their blocks, so the run above applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The per-point obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
import proofs.«125291_j75917841924156_2_alg».proof.Proof.Gen.Kernel.Launch
import proofs.«125291_j75917841924156_2_alg».proof.Proof.Gen.Kernel.Skeleton
import proofs.«125291_j75917841924156_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 1's pallas_call, one grid point at a time

The call tiles the batch axis: at point `t` the body sees rows `t·b … t·b + b − 1` of the layer input, of the previous
hidden and cell state, and the whole of both weight matrices and of the summed bias. It forms the four gate
pre-activations `x·Wi + h·Wh + bias`, applies the logistic function to three of them and the hyperbolic tangent to
the fourth, and stores the new cell state `f·c + i·g`, the new hidden state `o·tanh(c')` and a second copy of it that the next layer reads.
Here: the block every window shows at a point, the value each output block is left with (one store covering it),
the body's run on whole staging buffers, and the per-point obligation the launch asks for.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of a core when the call is entered
variable (V : (c : Dev nD) → (b : Ref sig .tc) → Buf (Elt F) ((c : Thread nD τ).loc b))

/-- The block window `w` shows at point `t`: the rows of its array the point's index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not the point fetched it: a point
    that does not fetch has the same block index as the one before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether or not the point fetched it: a point
    that does not fetch has the same block index as the one before, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether or not the point fetched it: a point
    that does not fetch has the same block index as the one before, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether or not the point fetched it: a point
    that does not fetch has the same block index as the one before, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether or not the point fetched it: a point
    that does not fetch has the same block index as the one before, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether or not the point fetched it: a point
    that does not fetch has the same block index as the one before, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- What output window 6's block holds after the body, as a function of the input blocks: its one store, over the whole block. -/
def out1_6 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k1_pay3 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover1_6 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 7's block holds after the body, as a function of the input blocks: its one store, over the whole block. -/
def out1_7 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k1_pay2 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover1_7 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 8's block holds after the body, as a function of the input blocks: its one store, over the whole block. -/
def out1_8 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .bf16 :=
  View.canon [⟨(Rect.unit (s := S256x1024) ![0, 0] S256x1024.size inb_S256x1024_S256x1024_0_0), k1_pay4 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover1_8 (p0 : Vec F S256x1024 .bf16) (y : S256x1024.Idx) :
    ∃ pc ∈ ([⟨(Rect.unit (s := S256x1024) ![0, 0] S256x1024.size inb_S256x1024_S256x1024_0_0), p0⟩] : List (View.Piece (Elt F) S256x1024 .bf16)), y ∈ pc.1.set :=
  View.cover_of_tiled [⟨(Rect.unit (s := S256x1024) ![0, 0] S256x1024.size inb_S256x1024_S256x1024_0_0), p0⟩] S256x1024.size (by rfl) y

set_option maxHeartbeats 4000000 in
/-- The body on whole staging buffers: the inputs holding blocks `x·`, the outputs anything. It ends with the inputs
    as they were and each output at its function of the inputs; nothing else is touched. -/
theorem sound_kernel1 (c : Dev nD) (E : Set ℕ) (i : grid1.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole)
    (x0 : Vec F S256x1024 .bf16) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8 arg9 harg9) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-- The call's bookkeeping on core `c`: the arrays as the call finds them; after the body at point `t` each input's buffer
    still at its block and each output's at its function of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the input buffers hold their blocks, so the run above applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The per-point obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
import proofs.«125291_j75917841924156_2_alg».proof.Proof.Gen.Kernel.Launch
import proofs.«125291_j75917841924156_2_alg».proof.Proof.Gen.Kernel.Skeleton
import proofs.«125291_j75917841924156_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 2's pallas_call, one grid point at a time

The call tiles the batch axis: at point `t` the body sees rows `t·b … t·b + b − 1` of the layer input, of the previous
hidden and cell state, and the whole of both weight matrices and of the summed bias. It forms the four gate
pre-activations `x·Wi + h·Wh + bias`, applies the logistic function to three of them and the hyperbolic tangent to
the fourth, and stores the new cell state `f·c + i·g`, the new hidden state `o·tanh(c')` and a second copy of it that the next layer reads.
Here: the block every window shows at a point, the value each output block is left with (one store covering it),
the body's run on whole staging buffers, and the per-point obligation the launch asks for.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of a core when the call is entered
variable (V : (c : Dev nD) → (b : Ref sig .tc) → Buf (Elt F) ((c : Thread nD τ).loc b))

/-- The block window `w` shows at point `t`: the rows of its array the point's index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not the point fetched it: a point
    that does not fetch has the same block index as the one before, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, whether or not the point fetched it: a point
    that does not fetch has the same block index as the one before, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, whether or not the point fetched it: a point
    that does not fetch has the same block index as the one before, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, whether or not the point fetched it: a point
    that does not fetch has the same block index as the one before, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, whether or not the point fetched it: a point
    that does not fetch has the same block index as the one before, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, whether or not the point fetched it: a point
    that does not fetch has the same block index as the one before, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- What output window 6's block holds after the body, as a function of the input blocks: its one store, over the whole block. -/
def out2_6 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k2_pay3 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover2_6 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 7's block holds after the body, as a function of the input blocks: its one store, over the whole block. -/
def out2_7 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k2_pay2 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover2_7 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 8's block holds after the body, as a function of the input blocks: its one store, over the whole block. -/
def out2_8 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .bf16 :=
  View.canon [⟨(Rect.unit (s := S256x1024) ![0, 0] S256x1024.size inb_S256x1024_S256x1024_0_0), k2_pay4 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover2_8 (p0 : Vec F S256x1024 .bf16) (y : S256x1024.Idx) :
    ∃ pc ∈ ([⟨(Rect.unit (s := S256x1024) ![0, 0] S256x1024.size inb_S256x1024_S256x1024_0_0), p0⟩] : List (View.Piece (Elt F) S256x1024 .bf16)), y ∈ pc.1.set :=
  View.cover_of_tiled [⟨(Rect.unit (s := S256x1024) ![0, 0] S256x1024.size inb_S256x1024_S256x1024_0_0), p0⟩] S256x1024.size (by rfl) y

set_option maxHeartbeats 4000000 in
/-- The body on whole staging buffers: the inputs holding blocks `x·`, the outputs anything. It ends with the inputs
    as they were and each output at its function of the inputs; nothing else is touched. -/
theorem sound_kernel2 (c : Dev nD) (E : Set ℕ) (i : grid2.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole)
    (x0 : Vec F S256x1024 .bf16) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5) ∗ owns (c : Thread nD τ) arg9 fullShare (out2_8 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8 arg9 harg9) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-- The call's bookkeeping on core `c`: the arrays as the call finds them; after the body at point `t` each input's buffer
    still at its block and each output's at its function of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the input buffers hold their blocks, so the run above applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The per-point obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
import proofs.«125291_j75917841924156_2_alg».proof.Proof.Gen.Kernel.Launch
import proofs.«125291_j75917841924156_2_alg».proof.Proof.Gen.Kernel.Skeleton
import proofs.«125291_j75917841924156_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 3's pallas_call, one grid point at a time

The call tiles the batch axis: at point `t` the body sees rows `t·b … t·b + b − 1` of the layer input, of the previous
hidden and cell state, and the whole of both weight matrices and of the summed bias. It forms the four gate
pre-activations `x·Wi + h·Wh + bias`, applies the logistic function to three of them and the hyperbolic tangent to
the fourth, and stores the new cell state `f·c + i·g`, the new hidden state `o·tanh(c')` and the output projection `h'·fc_W + fc_b`.
Here: the block every window shows at a point, the value each output block is left with (one store covering it),
the body's run on whole staging buffers, and the per-point obligation the launch asks for.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of a core when the call is entered
variable (V : (c : Dev nD) → (b : Ref sig .tc) → Buf (Elt F) ((c : Thread nD τ).loc b))

/-- The block window `w` shows at point `t`: the rows of its array the point's index selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether or not the point fetched it: a point
    that does not fetch has the same block index as the one before, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, whether or not the point fetched it: a point
    that does not fetch has the same block index as the one before, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, whether or not the point fetched it: a point
    that does not fetch has the same block index as the one before, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, whether or not the point fetched it: a point
    that does not fetch has the same block index as the one before, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point, whether or not the point fetched it: a point
    that does not fetch has the same block index as the one before, and the body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's staging buffer holds its block at every point, whether or not the point fetched it: a point
    that does not fetch has the same block index as the one before, and the body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's staging buffer holds its block at every point, whether or not the point fetched it: a point
    that does not fetch has the same block index as the one before, and the body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's staging buffer holds its block at every point, whether or not the point fetched it: a point
    that does not fetch has the same block index as the one before, and the body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- What output window 8's block holds after the body, as a function of the input blocks: its one store, over the whole block. -/
def out3_8 (x0 : Vec F S128x1024 .bf16) (x1 : Vec F S128x1024 .f32) (x2 : Vec F S128x1024 .f32) (x3 : Vec F S1024x4096 .bf16) (x4 : Vec F S1024x4096 .bf16) (x5 : Vec F S1x4096 .f32) (x6 : Vec F S1024x1024 .bf16) (x7 : Vec F S1x1024 .f32) : Vec F S128x1024 .f32 :=
  View.canon [⟨(Rect.unit (s := S128x1024) ![0, 0] S128x1024.size inb_S128x1024_S128x1024_0_0), k3_pay4 (View.ld x0 (Rect.unit (s := S128x1024) ![0, 0] S128x1024.size inb_S128x1024_S128x1024_0_0)) (View.ld x1 (Rect.unit (s := S128x1024) ![0, 0] S128x1024.size inb_S128x1024_S128x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S128x1024) ![0, 0] S128x1024.size inb_S128x1024_S128x1024_0_0))⟩]

/-- That store covers the block. -/
theorem cover3_8 (p0 : Vec F S128x1024 .f32) (y : S128x1024.Idx) :
    ∃ pc ∈ ([⟨(Rect.unit (s := S128x1024) ![0, 0] S128x1024.size inb_S128x1024_S128x1024_0_0), p0⟩] : List (View.Piece (Elt F) S128x1024 .f32)), y ∈ pc.1.set :=
  View.cover_of_tiled [⟨(Rect.unit (s := S128x1024) ![0, 0] S128x1024.size inb_S128x1024_S128x1024_0_0), p0⟩] S128x1024.size (by rfl) y

/-- What output window 9's block holds after the body, as a function of the input blocks: its one store, over the whole block. -/
def out3_9 (x0 : Vec F S128x1024 .bf16) (x1 : Vec F S128x1024 .f32) (x2 : Vec F S128x1024 .f32) (x3 : Vec F S1024x4096 .bf16) (x4 : Vec F S1024x4096 .bf16) (x5 : Vec F S1x4096 .f32) (x6 : Vec F S1024x1024 .bf16) (x7 : Vec F S1x1024 .f32) : Vec F S128x1024 .f32 :=
  View.canon [⟨(Rect.unit (s := S128x1024) ![0, 0] S128x1024.size inb_S128x1024_S128x1024_0_0), k3_pay3 (View.ld x0 (Rect.unit (s := S128x1024) ![0, 0] S128x1024.size inb_S128x1024_S128x1024_0_0)) (View.ld x1 (Rect.unit (s := S128x1024) ![0, 0] S128x1024.size inb_S128x1024_S128x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S128x1024) ![0, 0] S128x1024.size inb_S128x1024_S128x1024_0_0))⟩]

/-- That store covers the block. -/
theorem cover3_9 (p0 : Vec F S128x1024 .f32) (y : S128x1024.Idx) :
    ∃ pc ∈ ([⟨(Rect.unit (s := S128x1024) ![0, 0] S128x1024.size inb_S128x1024_S128x1024_0_0), p0⟩] : List (View.Piece (Elt F) S128x1024 .f32)), y ∈ pc.1.set :=
  View.cover_of_tiled [⟨(Rect.unit (s := S128x1024) ![0, 0] S128x1024.size inb_S128x1024_S128x1024_0_0), p0⟩] S128x1024.size (by rfl) y

/-- What output window 10's block holds after the body, as a function of the input blocks: its one store, over the whole block. -/
def out3_10 (x0 : Vec F S128x1024 .bf16) (x1 : Vec F S128x1024 .f32) (x2 : Vec F S128x1024 .f32) (x3 : Vec F S1024x4096 .bf16) (x4 : Vec F S1024x4096 .bf16) (x5 : Vec F S1x4096 .f32) (x6 : Vec F S1024x1024 .bf16) (x7 : Vec F S1x1024 .f32) : Vec F S128x1024 .f32 :=
  View.canon [⟨(Rect.unit (s := S128x1024) ![0, 0] S128x1024.size inb_S128x1024_S128x1024_0_0), k3_pay1 (k3_pay5 (View.ld x0 (Rect.unit (s := S128x1024) ![0, 0] S128x1024.size inb_S128x1024_S128x1024_0_0)) (View.ld x1 (Rect.unit (s := S128x1024) ![0, 0] S128x1024.size inb_S128x1024_S128x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S128x1024) ![0, 0] S128x1024.size inb_S128x1024_S128x1024_0_0))) (k3_pay6 (View.ld x6 (Rect.unit (s := S1024x1024) ![0, 0] S1024x1024.size inb_S1024x1024_S1024x1024_0_0))) (constant S128x1024 .f32 0x00000000#32) (View.ld x7 (Rect.unit (s := S1x1024) ![0, 0] S1x1024.size inb_S1x1024_S1x1024_0_0))⟩]

/-- That store covers the block. -/
theorem cover3_10 (p0 : Vec F S128x1024 .f32) (y : S128x1024.Idx) :
    ∃ pc ∈ ([⟨(Rect.unit (s := S128x1024) ![0, 0] S128x1024.size inb_S128x1024_S128x1024_0_0), p0⟩] : List (View.Piece (Elt F) S128x1024 .f32)), y ∈ pc.1.set :=
  View.cover_of_tiled [⟨(Rect.unit (s := S128x1024) ![0, 0] S128x1024.size inb_S128x1024_S128x1024_0_0), p0⟩] S128x1024.size (by rfl) y

set_option maxHeartbeats 4000000 in
/-- The body on whole staging buffers: the inputs holding blocks `x·`, the outputs anything. It ends with the inputs
    as they were and each output at its function of the inputs; nothing else is touched. -/
theorem sound_kernel3 (c : Dev nD) (E : Set ℕ) (i : grid3.Coords) (arg1 : Memref sig .tc .vmem S128x1024 .bf16) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole)
    (x0 : Vec F S128x1024 .bf16) (x1 : Vec F S128x1024 .f32) (x2 : Vec F S128x1024 .f32) (x3 : Vec F S1024x4096 .bf16) (x4 : Vec F S1024x4096 .bf16) (x5 : Vec F S1x4096 .f32) (x6 : Vec F S1024x1024 .bf16) (x7 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7) ∗ owns (c : Thread nD τ) arg10 fullShare (out3_9 x0 x1 x2 x3 x4 x5 x6 x7) ∗ owns (c : Thread nD τ) arg11 fullShare (out3_10 x0 x1 x2 x3 x4 x5 x6 x7)) -∗ K ⟨⟩))
      ⊢ wp frame (wpE (defs₀ (F := F)) Variants.none c none) E (cc3__layer_fc_kernel i arg1 harg1 arg2 harg2 arg3 harg3 arg4 harg4 arg5 harg5 arg6 harg6 arg7 harg7 arg8 harg8 arg9 harg9 arg10 harg10 arg11 harg11) K := by
  simp only [cc3__layer_fc_kernel_eq_skeleton]; unfold cc3__layer_fc_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover3_8 _)
  isplitl [H9]
  · iexists _; isplitr
    swap; · iexact H9
    ipureintro
    exact View.read_writes_eq_canon _ _ _ (cover3_9 _)
  iexists _; isplitr
  swap; · iexact H10
  ipureintro
  exact View.read_writes_eq_canon _ _ _ (cover3_10 _)

/-- The call's bookkeeping on core `c`: the arrays as the call finds them; after the body at point `t` each input's buffer
    still at its block and each output's at its function of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
    | ⟨10, _⟩ => out3_10 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- What the body is handed at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at any point: the input buffers hold their blocks, so the run above applies; the rest passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The per-point obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
import proofs.«125291_j75917841924156_2_alg».proof.Proof.KRegion0
import proofs.«125291_j75917841924156_2_alg».proof.Proof.KRegion1
import proofs.«125291_j75917841924156_2_alg».proof.Proof.KRegion2
import proofs.«125291_j75917841924156_2_alg».proof.Proof.KRegion3
import proofs.«125291_j75917841924156_2_alg».proof.Proof.Gen.Kernel.Regions

/-!
# The whole program, from launch to return

The program is five stretches of host operations with the four layers' pallas_calls between them. A stretch slices
a layer's state and weights out of the stacked arguments, adds the two bias vectors, and (the last one) stacks the
four layers' hidden and cell states. Here the contents of every buffer are followed from one boundary to the next:
a stretch changes the buffers its operations write, a call changes its three outputs and nothing else. Every
execution terminates with every buffer at the last boundary's contents; in particular no argument has changed.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- At launch. -/
abbrev B0 : Dev nD → Valuation τ sig (Elt F) := fun c b => (s₀ m ρ).mem ((c : Dev nD), b)
/-- After stretch 0 of host operations: layer 0's call is entered from here. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After layer 0's call: its arrays at what the write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- A stretch leaves alone every buffer its operations do not write. -/
theorem B1_of (c : Dev nD) (r : Ref sig .tc) (h : r ∉ (hostOps0_W : List (Ref sig .tc))) : B1 m ρ c r = B0 m ρ c r :=
  StableHlo.after_of_writes_sub hostOps0 _ hostOps0_writes h

/-- After stretch 1 of host operations: layer 1's call is entered from here. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After layer 1's call: its arrays at what the write-backs leave, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- A stretch leaves alone every buffer its operations do not write. -/
theorem B3_of (c : Dev nD) (r : Ref sig .tc) (h : r ∉ (hostOps1_W : List (Ref sig .tc))) : B3 m ρ c r = B2 m ρ c r :=
  StableHlo.after_of_writes_sub hostOps1 _ hostOps1_writes h

/-- After stretch 2 of host operations: layer 2's call is entered from here. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After layer 2's call: its arrays at what the write-backs leave, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- A stretch leaves alone every buffer its operations do not write. -/
theorem B5_of (c : Dev nD) (r : Ref sig .tc) (h : r ∉ (hostOps2_W : List (Ref sig .tc))) : B5 m ρ c r = B4 m ρ c r :=
  StableHlo.after_of_writes_sub hostOps2 _ hostOps2_writes h

/-- After stretch 3 of host operations: layer 3's call is entered from here. -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b
/-- After layer 3's call: its arrays at what the write-backs leave, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)
/-- A stretch leaves alone every buffer its operations do not write. -/
theorem B7_of (c : Dev nD) (r : Ref sig .tc) (h : r ∉ (hostOps3_W : List (Ref sig .tc))) : B7 m ρ c r = B6 m ρ c r :=
  StableHlo.after_of_writes_sub hostOps3 _ hostOps3_writes h

/-- After the last stretch: the program returns from here. -/
abbrev B9 : Dev nD → Valuation τ sig (Elt F) := fun c => StableHlo.after hostOps4 (B8 m ρ c)
theorem B9_of (c : Dev nD) (r : Ref sig .tc) (h : r ∉ (hostOps4_W : List (Ref sig .tc))) : B9 m ρ c r = B8 m ρ c r :=
  StableHlo.after_of_writes_sub hostOps4 _ hostOps4_writes h

/-! ## No argument changes: no stretch writes one, and a call changes only its outputs -/

/-- The layer input is read by layer 0's call through an input window, which is written back unchanged. -/
theorem B9_main_arg0 (c : Dev nD) : B9 m ρ c (Proc.devRef .tc main_arg0) = m ((c : Thread nD τ).loc main_arg0) :=
  (B9_of m ρ c main_arg0 (by decide)).trans <| (B8_of_ne m ρ c main_arg0 (by decide)).trans <| (B7_of m ρ c main_arg0 (by decide)).trans <|
  (B6_of_ne m ρ c main_arg0 (by decide)).trans <| (B5_of m ρ c main_arg0 (by decide)).trans <| (B4_of_ne m ρ c main_arg0 (by decide)).trans <|
  (B3_of m ρ c main_arg0 (by decide)).trans <| ((B2_arr m ρ c 0).trans (((dat0 (E1 m ρ) c).arrAt_in 0 rfl _).trans (A_eq0 (E1 m ρ) c 0))).trans <|
  (B1_of m ρ c main_arg0 (by decide)).trans rfl
theorem B9_main_arg1 (c : Dev nD) : B9 m ρ c (Proc.devRef .tc main_arg1) = m ((c : Thread nD τ).loc main_arg1) :=
  (B9_of m ρ c main_arg1 (by decide)).trans <| (B8_of_ne m ρ c main_arg1 (by decide)).trans <| (B7_of m ρ c main_arg1 (by decide)).trans <|
  (B6_of_ne m ρ c main_arg1 (by decide)).trans <| (B5_of m ρ c main_arg1 (by decide)).trans <| (B4_of_ne m ρ c main_arg1 (by decide)).trans <|
  (B3_of m ρ c main_arg1 (by decide)).trans <| (B2_of_ne m ρ c main_arg1 (by decide)).trans <| (B1_of m ρ c main_arg1 (by decide)).trans rfl
theorem B9_main_arg2 (c : Dev nD) : B9 m ρ c (Proc.devRef .tc main_arg2) = m ((c : Thread nD τ).loc main_arg2) :=
  (B9_of m ρ c main_arg2 (by decide)).trans <| (B8_of_ne m ρ c main_arg2 (by decide)).trans <| (B7_of m ρ c main_arg2 (by decide)).trans <|
  (B6_of_ne m ρ c main_arg2 (by decide)).trans <| (B5_of m ρ c main_arg2 (by decide)).trans <| (B4_of_ne m ρ c main_arg2 (by decide)).trans <|
  (B3_of m ρ c main_arg2 (by decide)).trans <| (B2_of_ne m ρ c main_arg2 (by decide)).trans <| (B1_of m ρ c main_arg2 (by decide)).trans rfl
theorem B9_main_arg3 (c : Dev nD) : B9 m ρ c (Proc.devRef .tc main_arg3) = m ((c : Thread nD τ).loc main_arg3) :=
  (B9_of m ρ c main_arg3 (by decide)).trans <| (B8_of_ne m ρ c main_arg3 (by decide)).trans <| (B7_of m ρ c main_arg3 (by decide)).trans <|
  (B6_of_ne m ρ c main_arg3 (by decide)).trans <| (B5_of m ρ c main_arg3 (by decide)).trans <| (B4_of_ne m ρ c main_arg3 (by decide)).trans <|
  (B3_of m ρ c main_arg3 (by decide)).trans <| (B2_of_ne m ρ c main_arg3 (by decide)).trans <| (B1_of m ρ c main_arg3 (by decide)).trans rfl
theorem B9_main_arg4 (c : Dev nD) : B9 m ρ c (Proc.devRef .tc main_arg4) = m ((c : Thread nD τ).loc main_arg4) :=
  (B9_of m ρ c main_arg4 (by decide)).trans <| (B8_of_ne m ρ c main_arg4 (by decide)).trans <| (B7_of m ρ c main_arg4 (by decide)).trans <|
  (B6_of_ne m ρ c main_arg4 (by decide)).trans <| (B5_of m ρ c main_arg4 (by decide)).trans <| (B4_of_ne m ρ c main_arg4 (by decide)).trans <|
  (B3_of m ρ c main_arg4 (by decide)).trans <| (B2_of_ne m ρ c main_arg4 (by decide)).trans <| (B1_of m ρ c main_arg4 (by decide)).trans rfl
theorem B9_main_arg5 (c : Dev nD) : B9 m ρ c (Proc.devRef .tc main_arg5) = m ((c : Thread nD τ).loc main_arg5) :=
  (B9_of m ρ c main_arg5 (by decide)).trans <| (B8_of_ne m ρ c main_arg5 (by decide)).trans <| (B7_of m ρ c main_arg5 (by decide)).trans <|
  (B6_of_ne m ρ c main_arg5 (by decide)).trans <| (B5_of m ρ c main_arg5 (by decide)).trans <| (B4_of_ne m ρ c main_arg5 (by decide)).trans <|
  (B3_of m ρ c main_arg5 (by decide)).trans <| (B2_of_ne m ρ c main_arg5 (by decide)).trans <| (B1_of m ρ c main_arg5 (by decide)).trans rfl
theorem B9_main_arg6 (c : Dev nD) : B9 m ρ c (Proc.devRef .tc main_arg6) = m ((c : Thread nD τ).loc main_arg6) :=
  (B9_of m ρ c main_arg6 (by decide)).trans <| (B8_of_ne m ρ c main_arg6 (by decide)).trans <| (B7_of m ρ c main_arg6 (by decide)).trans <|
  (B6_of_ne m ρ c main_arg6 (by decide)).trans <| (B5_of m ρ c main_arg6 (by decide)).trans <| (B4_of_ne m ρ c main_arg6 (by decide)).trans <|
  (B3_of m ρ c main_arg6 (by decide)).trans <| (B2_of_ne m ρ c main_arg6 (by decide)).trans <| (B1_of m ρ c main_arg6 (by decide)).trans rfl
theorem B9_main_arg7 (c : Dev nD) : B9 m ρ c (Proc.devRef .tc main_arg7) = m ((c : Thread nD τ).loc main_arg7) :=
  (B9_of m ρ c main_arg7 (by decide)).trans <| (B8_of_ne m ρ c main_arg7 (by decide)).trans <| (B7_of m ρ c main_arg7 (by decide)).trans <|
  (B6_of_ne m ρ c main_arg7 (by decide)).trans <| (B5_of m ρ c main_arg7 (by decide)).trans <| (B4_of_ne m ρ c main_arg7 (by decide)).trans <|
  (B3_of m ρ c main_arg7 (by decide)).trans <| (B2_of_ne m ρ c main_arg7 (by decide)).trans <| (B1_of m ρ c main_arg7 (by decide)).trans rfl
theorem B9_main_arg8 (c : Dev nD) : B9 m ρ c (Proc.devRef .tc main_arg8) = m ((c : Thread nD τ).loc main_arg8) :=
  (B9_of m ρ c main_arg8 (by decide)).trans <| (B8_of_ne m ρ c main_arg8 (by decide)).trans <| (B7_of m ρ c main_arg8 (by decide)).trans <|
  (B6_of_ne m ρ c main_arg8 (by decide)).trans <| (B5_of m ρ c main_arg8 (by decide)).trans <| (B4_of_ne m ρ c main_arg8 (by decide)).trans <|
  (B3_of m ρ c main_arg8 (by decide)).trans <| (B2_of_ne m ρ c main_arg8 (by decide)).trans <| (B1_of m ρ c main_arg8 (by decide)).trans rfl

/-! ## The calls' bookkeeping together, and what rides beside the buffers -/

abbrev admH : (p : Fin 4) → (pcfgs (F := F) p).Adm := fun p => (cfgs p).toPCfg_adm
def pdatsH : (p : Fin 4) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱H : Variants := Variants.none
abbrev LH : GSem nD τ sig → Finset Unit := fun _ => ∅
abbrev lvH : GSem nD τ sig → Unit → ℕ := fun _ _ => 0
/-- Beside the buffers: the core's generator register at some state, and the core owing nothing. -/
abbrev RH (c : Dev nD) : sProp 𝕄 := iprop((∃ r, prngReg c r) ∗ ∃ W, owes (c : Thread nD τ) (0 : CellTallies nD τ sig Unit) W)
/-- A stretch of host operations as a segment of the run, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (B9 m ρ c) ∗ ∃ r, prngReg c r)

/-! ## The calls as segments -/

set_option backward.isDefEq.respectTransparency.types false in
/-- Layer 0's call: entered with every buffer at boundary 1's contents, left at boundary 2's. Its arrays are split
    out of the buffers at entry and put back at exit; the generator register goes in and comes out; nothing is owed. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E1 m ρ c) (E2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's call: entered with every buffer at boundary 3's contents, left at boundary 4's. Its arrays are split
    out of the buffers at entry and put back at exit; the generator register goes in and comes out; nothing is owed. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ LH lvH 1 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E3 m ρ c) (E4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's call: entered with every buffer at boundary 5's contents, left at boundary 6's. Its arrays are split
    out of the buffers at entry and put back at exit; the generator register goes in and comes out; nothing is owed. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ LH lvH 2 fun _ _ => rfl
  pre c := iprop(StableHlo.held (c : Thread nD τ) (Pipeline.ucRefs τ sig) (B5 m ρ c) ∗ RH c)
  post c := iprop(StableHlo.held (c : Thread nD τ) (Pipeline.ucRefs τ sig) (B6 m ρ c) ∗ RH c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (E5 m ρ c) (E6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's call: entered with every buffer at boundary 7's contents, left at boundary 8's. Its arrays are split
    out of the buffers at entry and put back at exit; the generator register goes in and comes out; nothing is owed. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ LH lvH 3 fun _ _ => rfl
  pre c := iprop(StableHlo.held (c : Thread nD τ) (Pipeline.ucRefs τ sig) (B7 m ρ c) ∗ RH c)
  post c := iprop(StableHlo.held (c : Thread nD τ) (Pipeline.ucRefs τ sig) (B8 m ρ c) ∗ RH c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (E7 m ρ c) (E8 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segsH : List (Pipeline.Seg (pcfgs (F := F)) admH (pdatsH m ρ) () defs₀ 𝒱H LH lvH) :=
  [ .host (hsegH hostOps0 hostOps0_sub hostOps0_fresh (B0 m ρ)),
    .region (reg0 m ρ),
    .host (hsegH hostOps1 hostOps1_sub hostOps1_fresh (B2 m ρ)),
    .region (reg1 m ρ),
    .host (hsegH hostOps2 hostOps2_sub hostOps2_fresh (B4 m ρ)),
    .region (reg2 m ρ),
    .host (hsegH hostOps3 hostOps3_sub hostOps3_fresh (B6 m ρ)),
    .region (reg3 m ρ),
    .host (hsegH hostOps4 hostOps4_sub hostOps4_fresh (B8 m ρ)) ]

set_option backward.isDefEq.respectTransparency.types false in
/-- Every weakly fair execution of the program from memory `m` terminates, without a fault, with every buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m ρ c b) :=
  Pipeline.θ_run_regions_kit (pcfgs (F := F)) admH (pdatsH m ρ) () cellOf_inj emb₁ defs₀ 𝒱H LH lvH m ρ main (segsH m ρ)
    (fun c Q => by
      rewrite [main_chain c, Pipeline.Seg.run_eq_chain,
        show (segsH m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B9 m ρ c) ∗ RH c)
        ⊢ (iprop(TH m ρ c ∗ ∃ W, owes (c.tc : Thread nD τ) (0 : CellTallies nD τ sig Unit) W) : sProp 𝕄)
      unfold TH
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m ρ c b)
    (hfin := fun c s' => by
      iintro ⟨⟨Hh, -⟩, HSI⟩
      unfold StableHlo.held
      imodintro
      iapply (pointsTo_read_all (Pipeline.ucRefs τ sig) (fun b => (((c : Thread nD τ)).1, b)) (B9 m ρ c) s')
      isplitl [Hh] <;> iassumption)
    (hQ := fun s h c => h c)

/-- No argument array has changed when the program returns. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_ucH main_arg0 (by decide))).trans (B9_main_arg0 m ρ c),
    (h c _ (mem_ucH main_arg1 (by decide))).trans (B9_main_arg1 m ρ c),
    (h c _ (mem_ucH main_arg2 (by decide))).trans (B9_main_arg2 m ρ c),
    (h c _ (mem_ucH main_arg3 (by decide))).trans (B9_main_arg3 m ρ c),
    (h c _ (mem_ucH main_arg4 (by decide))).trans (B9_main_arg4 m ρ c),
    (h c _ (mem_ucH main_arg5 (by decide))).trans (B9_main_arg5 m ρ c),
    (h c _ (mem_ucH main_arg6 (by decide))).trans (B9_main_arg6 m ρ c),
    (h c _ (mem_ucH main_arg7 (by decide))).trans (B9_main_arg7 m ρ c),
    (h c _ (mem_ucH main_arg8 (by decide))).trans (B9_main_arg8 m ρ c)⟩) (run_all m ρ)

end Cert.Kernel.Hand

end
-- ==== Proof.KIRegion0.lean ====
import proofs.«125291_j75917841924156_2_alg».proof.Proof.Gen.KernelIdeal.Launch
import proofs.«125291_j75917841924156_2_alg».proof.Proof.Gen.KernelIdeal.Skeleton
import proofs.«125291_j75917841924156_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 0's pallas_call, one grid point at a time

The call tiles the batch axis: at point `t` the body sees rows `t·b … t·b + b − 1` of the layer input, of the previous
hidden and cell state, and the whole of both weight matrices and of the summed bias. It forms the four gate
pre-activations `x·Wi + h·Wh + bias`, applies the logistic function to three of them and the hyperbolic tangent to
the fourth, and stores the new cell state `f·c + i·g`, the new hidden state `o·tanh(c')` and a second copy of it that the next layer reads.
Here: the block every window shows at a point, the value each output block is left with (one store covering it),
the body's run on whole staging buffers, and the per-point obligation the launch asks for.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of a core when the call is entered
variable (V : (c : Dev nD) → (b : Ref sig .tc) → Buf (Elt F) ((c : Thread nD τ).loc b))

/-- The block window `w` shows at point `t`: the rows of its array the point's index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not the point fetched it: a point
    that does not fetch has the same block index as the one before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether or not the point fetched it: a point
    that does not fetch has the same block index as the one before, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether or not the point fetched it: a point
    that does not fetch has the same block index as the one before, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether or not the point fetched it: a point
    that does not fetch has the same block index as the one before, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether or not the point fetched it: a point
    that does not fetch has the same block index as the one before, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether or not the point fetched it: a point
    that does not fetch has the same block index as the one before, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- What output window 6's block holds after the body, as a function of the input blocks: its one store, over the whole block. -/
def out0_6 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k0_pay3 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover0_6 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 7's block holds after the body, as a function of the input blocks: its one store, over the whole block. -/
def out0_7 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k0_pay2 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover0_7 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 8's block holds after the body, as a function of the input blocks: its one store, over the whole block. -/
def out0_8 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .bf16 :=
  View.canon [⟨(Rect.unit (s := S256x1024) ![0, 0] S256x1024.size inb_S256x1024_S256x1024_0_0), k0_pay4 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover0_8 (p0 : Vec F S256x1024 .bf16) (y : S256x1024.Idx) :
    ∃ pc ∈ ([⟨(Rect.unit (s := S256x1024) ![0, 0] S256x1024.size inb_S256x1024_S256x1024_0_0), p0⟩] : List (View.Piece (Elt F) S256x1024 .bf16)), y ∈ pc.1.set :=
  View.cover_of_tiled [⟨(Rect.unit (s := S256x1024) ![0, 0] S256x1024.size inb_S256x1024_S256x1024_0_0), p0⟩] S256x1024.size (by rfl) y

set_option maxHeartbeats 4000000 in
/-- The body on whole staging buffers: the inputs holding blocks `x·`, the outputs anything. It ends with the inputs
    as they were and each output at its function of the inputs; nothing else is touched. -/
theorem sound_kernel0 (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8 arg9 harg9) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-- The call's bookkeeping on core `c`: the arrays as the call finds them; after the body at point `t` each input's buffer
    still at its block and each output's at its function of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the input buffers hold their blocks, so the run above applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The per-point obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
import proofs.«125291_j75917841924156_2_alg».proof.Proof.Gen.KernelIdeal.Launch
import proofs.«125291_j75917841924156_2_alg».proof.Proof.Gen.KernelIdeal.Skeleton
import proofs.«125291_j75917841924156_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 1's pallas_call, one grid point at a time

The call tiles the batch axis: at point `t` the body sees rows `t·b … t·b + b − 1` of the layer input, of the previous
hidden and cell state, and the whole of both weight matrices and of the summed bias. It forms the four gate
pre-activations `x·Wi + h·Wh + bias`, applies the logistic function to three of them and the hyperbolic tangent to
the fourth, and stores the new cell state `f·c + i·g`, the new hidden state `o·tanh(c')` and a second copy of it that the next layer reads.
Here: the block every window shows at a point, the value each output block is left with (one store covering it),
the body's run on whole staging buffers, and the per-point obligation the launch asks for.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of a core when the call is entered
variable (V : (c : Dev nD) → (b : Ref sig .tc) → Buf (Elt F) ((c : Thread nD τ).loc b))

/-- The block window `w` shows at point `t`: the rows of its array the point's index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not the point fetched it: a point
    that does not fetch has the same block index as the one before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether or not the point fetched it: a point
    that does not fetch has the same block index as the one before, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether or not the point fetched it: a point
    that does not fetch has the same block index as the one before, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether or not the point fetched it: a point
    that does not fetch has the same block index as the one before, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether or not the point fetched it: a point
    that does not fetch has the same block index as the one before, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether or not the point fetched it: a point
    that does not fetch has the same block index as the one before, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- What output window 6's block holds after the body, as a function of the input blocks: its one store, over the whole block. -/
def out1_6 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k1_pay3 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover1_6 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 7's block holds after the body, as a function of the input blocks: its one store, over the whole block. -/
def out1_7 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k1_pay2 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover1_7 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 8's block holds after the body, as a function of the input blocks: its one store, over the whole block. -/
def out1_8 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .bf16 :=
  View.canon [⟨(Rect.unit (s := S256x1024) ![0, 0] S256x1024.size inb_S256x1024_S256x1024_0_0), k1_pay4 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover1_8 (p0 : Vec F S256x1024 .bf16) (y : S256x1024.Idx) :
    ∃ pc ∈ ([⟨(Rect.unit (s := S256x1024) ![0, 0] S256x1024.size inb_S256x1024_S256x1024_0_0), p0⟩] : List (View.Piece (Elt F) S256x1024 .bf16)), y ∈ pc.1.set :=
  View.cover_of_tiled [⟨(Rect.unit (s := S256x1024) ![0, 0] S256x1024.size inb_S256x1024_S256x1024_0_0), p0⟩] S256x1024.size (by rfl) y

set_option maxHeartbeats 4000000 in
/-- The body on whole staging buffers: the inputs holding blocks `x·`, the outputs anything. It ends with the inputs
    as they were and each output at its function of the inputs; nothing else is touched. -/
theorem sound_kernel1 (c : Dev nD) (E : Set ℕ) (i : grid1.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole)
    (x0 : Vec F S256x1024 .bf16) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8 arg9 harg9) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-- The call's bookkeeping on core `c`: the arrays as the call finds them; after the body at point `t` each input's buffer
    still at its block and each output's at its function of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the input buffers hold their blocks, so the run above applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The per-point obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
import proofs.«125291_j75917841924156_2_alg».proof.Proof.Gen.KernelIdeal.Launch
import proofs.«125291_j75917841924156_2_alg».proof.Proof.Gen.KernelIdeal.Skeleton
import proofs.«125291_j75917841924156_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 2's pallas_call, one grid point at a time

The call tiles the batch axis: at point `t` the body sees rows `t·b … t·b + b − 1` of the layer input, of the previous
hidden and cell state, and the whole of both weight matrices and of the summed bias. It forms the four gate
pre-activations `x·Wi + h·Wh + bias`, applies the logistic function to three of them and the hyperbolic tangent to
the fourth, and stores the new cell state `f·c + i·g`, the new hidden state `o·tanh(c')` and a second copy of it that the next layer reads.
Here: the block every window shows at a point, the value each output block is left with (one store covering it),
the body's run on whole staging buffers, and the per-point obligation the launch asks for.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of a core when the call is entered
variable (V : (c : Dev nD) → (b : Ref sig .tc) → Buf (Elt F) ((c : Thread nD τ).loc b))

/-- The block window `w` shows at point `t`: the rows of its array the point's index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not the point fetched it: a point
    that does not fetch has the same block index as the one before, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, whether or not the point fetched it: a point
    that does not fetch has the same block index as the one before, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, whether or not the point fetched it: a point
    that does not fetch has the same block index as the one before, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, whether or not the point fetched it: a point
    that does not fetch has the same block index as the one before, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, whether or not the point fetched it: a point
    that does not fetch has the same block index as the one before, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, whether or not the point fetched it: a point
    that does not fetch has the same block index as the one before, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- What output window 6's block holds after the body, as a function of the input blocks: its one store, over the whole block. -/
def out2_6 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k2_pay3 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover2_6 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 7's block holds after the body, as a function of the input blocks: its one store, over the whole block. -/
def out2_7 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨(Rect.unit (s := S256x1024) ![0, 0] S256x1024.size inb_S256x1024_S256x1024_0_0), k2_pay2 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover2_7 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-- What output window 8's block holds after the body, as a function of the input blocks: its one store, over the whole block. -/
def out2_8 (x0 : Vec F S256x1024 .bf16) (x1 : Vec F S256x1024 .f32) (x2 : Vec F S256x1024 .f32) (x3 : Vec F S1024x4096 .bf16) (x4 : Vec F S1024x4096 .bf16) (x5 : Vec F S1x4096 .f32) : Vec F S256x1024 .bf16 :=
  View.canon [⟨(Rect.unit (s := S256x1024) ![0, 0] S256x1024.size inb_S256x1024_S256x1024_0_0), k2_pay4 (View.ld x0 (Rect.unit (s := S256x1024) ![0, 0] S256x1024.size inb_S256x1024_S256x1024_0_0)) (View.ld x1 (Rect.unit (s := S256x1024) ![0, 0] S256x1024.size inb_S256x1024_S256x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S256x1024) ![0, 0] S256x1024.size inb_S256x1024_S256x1024_0_0))⟩]

/-- That store covers the block. -/
theorem cover2_8 (p0 : Vec F S256x1024 .bf16) (y : S256x1024.Idx) :
    ∃ pc ∈ ([⟨(Rect.unit (s := S256x1024) ![0, 0] S256x1024.size inb_S256x1024_S256x1024_0_0), p0⟩] : List (View.Piece (Elt F) S256x1024 .bf16)), y ∈ pc.1.set :=
  View.cover_of_tiled [⟨(Rect.unit (s := S256x1024) ![0, 0] S256x1024.size inb_S256x1024_S256x1024_0_0), p0⟩] S256x1024.size (by rfl) y

set_option maxHeartbeats 4000000 in
/-- The body on whole staging buffers: the inputs holding blocks `x·`, the outputs anything. It ends with the inputs
    as they were and each output at its function of the inputs; nothing else is touched. -/
theorem sound_kernel2 (c : Dev nD) (E : Set ℕ) (i : grid2.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole)
    (x0 : Vec F S256x1024 .bf16) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5) ∗ owns (c : Thread nD τ) arg9 fullShare (out2_8 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8 arg9 harg9) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-- The call's bookkeeping on core `c`: the arrays as the call finds them; after the body at point `t` each input's buffer
    still at its block and each output's at its function of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the input buffers hold their blocks, so the run above applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The per-point obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRegion3.lean ====
import proofs.«125291_j75917841924156_2_alg».proof.Proof.Gen.KernelIdeal.Launch
import proofs.«125291_j75917841924156_2_alg».proof.Proof.Gen.KernelIdeal.Skeleton
import proofs.«125291_j75917841924156_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 3's pallas_call, one grid point at a time

The call tiles the batch axis: at point `t` the body sees rows `t·b … t·b + b − 1` of the layer input, of the previous
hidden and cell state, and the whole of both weight matrices and of the summed bias. It forms the four gate
pre-activations `x·Wi + h·Wh + bias`, applies the logistic function to three of them and the hyperbolic tangent to
the fourth, and stores the new cell state `f·c + i·g`, the new hidden state `o·tanh(c')` and the output projection `h'·fc_W + fc_b`.
Here: the block every window shows at a point, the value each output block is left with (one store covering it),
the body's run on whole staging buffers, and the per-point obligation the launch asks for.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of a core when the call is entered
variable (V : (c : Dev nD) → (b : Ref sig .tc) → Buf (Elt F) ((c : Thread nD τ).loc b))

/-- The block window `w` shows at point `t`: the rows of its array the point's index selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether or not the point fetched it: a point
    that does not fetch has the same block index as the one before, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, whether or not the point fetched it: a point
    that does not fetch has the same block index as the one before, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, whether or not the point fetched it: a point
    that does not fetch has the same block index as the one before, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, whether or not the point fetched it: a point
    that does not fetch has the same block index as the one before, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point, whether or not the point fetched it: a point
    that does not fetch has the same block index as the one before, and the body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's staging buffer holds its block at every point, whether or not the point fetched it: a point
    that does not fetch has the same block index as the one before, and the body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's staging buffer holds its block at every point, whether or not the point fetched it: a point
    that does not fetch has the same block index as the one before, and the body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's staging buffer holds its block at every point, whether or not the point fetched it: a point
    that does not fetch has the same block index as the one before, and the body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- What output window 8's block holds after the body, as a function of the input blocks: its one store, over the whole block. -/
def out3_8 (x0 : Vec F S128x1024 .bf16) (x1 : Vec F S128x1024 .f32) (x2 : Vec F S128x1024 .f32) (x3 : Vec F S1024x4096 .bf16) (x4 : Vec F S1024x4096 .bf16) (x5 : Vec F S1x4096 .f32) (x6 : Vec F S1024x1024 .bf16) (x7 : Vec F S1x1024 .f32) : Vec F S128x1024 .f32 :=
  View.canon [⟨(Rect.unit (s := S128x1024) ![0, 0] S128x1024.size inb_S128x1024_S128x1024_0_0), k3_pay4 (View.ld x0 (Rect.unit (s := S128x1024) ![0, 0] S128x1024.size inb_S128x1024_S128x1024_0_0)) (View.ld x1 (Rect.unit (s := S128x1024) ![0, 0] S128x1024.size inb_S128x1024_S128x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S128x1024) ![0, 0] S128x1024.size inb_S128x1024_S128x1024_0_0))⟩]

/-- That store covers the block. -/
theorem cover3_8 (p0 : Vec F S128x1024 .f32) (y : S128x1024.Idx) :
    ∃ pc ∈ ([⟨(Rect.unit (s := S128x1024) ![0, 0] S128x1024.size inb_S128x1024_S128x1024_0_0), p0⟩] : List (View.Piece (Elt F) S128x1024 .f32)), y ∈ pc.1.set :=
  View.cover_of_tiled [⟨(Rect.unit (s := S128x1024) ![0, 0] S128x1024.size inb_S128x1024_S128x1024_0_0), p0⟩] S128x1024.size (by rfl) y

/-- What output window 9's block holds after the body, as a function of the input blocks: its one store, over the whole block. -/
def out3_9 (x0 : Vec F S128x1024 .bf16) (x1 : Vec F S128x1024 .f32) (x2 : Vec F S128x1024 .f32) (x3 : Vec F S1024x4096 .bf16) (x4 : Vec F S1024x4096 .bf16) (x5 : Vec F S1x4096 .f32) (x6 : Vec F S1024x1024 .bf16) (x7 : Vec F S1x1024 .f32) : Vec F S128x1024 .f32 :=
  View.canon [⟨(Rect.unit (s := S128x1024) ![0, 0] S128x1024.size inb_S128x1024_S128x1024_0_0), k3_pay3 (View.ld x0 (Rect.unit (s := S128x1024) ![0, 0] S128x1024.size inb_S128x1024_S128x1024_0_0)) (View.ld x1 (Rect.unit (s := S128x1024) ![0, 0] S128x1024.size inb_S128x1024_S128x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S128x1024) ![0, 0] S128x1024.size inb_S128x1024_S128x1024_0_0))⟩]

/-- That store covers the block. -/
theorem cover3_9 (p0 : Vec F S128x1024 .f32) (y : S128x1024.Idx) :
    ∃ pc ∈ ([⟨(Rect.unit (s := S128x1024) ![0, 0] S128x1024.size inb_S128x1024_S128x1024_0_0), p0⟩] : List (View.Piece (Elt F) S128x1024 .f32)), y ∈ pc.1.set :=
  View.cover_of_tiled [⟨(Rect.unit (s := S128x1024) ![0, 0] S128x1024.size inb_S128x1024_S128x1024_0_0), p0⟩] S128x1024.size (by rfl) y

/-- What output window 10's block holds after the body, as a function of the input blocks: its one store, over the whole block. -/
def out3_10 (x0 : Vec F S128x1024 .bf16) (x1 : Vec F S128x1024 .f32) (x2 : Vec F S128x1024 .f32) (x3 : Vec F S1024x4096 .bf16) (x4 : Vec F S1024x4096 .bf16) (x5 : Vec F S1x4096 .f32) (x6 : Vec F S1024x1024 .bf16) (x7 : Vec F S1x1024 .f32) : Vec F S128x1024 .f32 :=
  View.canon [⟨(Rect.unit (s := S128x1024) ![0, 0] S128x1024.size inb_S128x1024_S128x1024_0_0), k3_pay1 (k3_pay5 (View.ld x0 (Rect.unit (s := S128x1024) ![0, 0] S128x1024.size inb_S128x1024_S128x1024_0_0)) (View.ld x1 (Rect.unit (s := S128x1024) ![0, 0] S128x1024.size inb_S128x1024_S128x1024_0_0)) (View.ld x3 (Rect.unit (s := S1024x4096) ![0, 0] S1024x4096.size inb_S1024x4096_S1024x4096_0_0)) (View.ld x4 (Rect.unit (s := S1024x4096) ![0, 0] S1024x4096.size inb_S1024x4096_S1024x4096_0_0)) (View.ld x5 (Rect.unit (s := S1x4096) ![0, 0] S1x4096.size inb_S1x4096_S1x4096_0_0)) (View.ld x2 (Rect.unit (s := S128x1024) ![0, 0] S128x1024.size inb_S128x1024_S128x1024_0_0))) (k3_pay6 (View.ld x6 (Rect.unit (s := S1024x1024) ![0, 0] S1024x1024.size inb_S1024x1024_S1024x1024_0_0))) (constant S128x1024 .f32 0x00000000#32) (View.ld x7 (Rect.unit (s := S1x1024) ![0, 0] S1x1024.size inb_S1x1024_S1x1024_0_0))⟩]

/-- That store covers the block. -/
theorem cover3_10 (p0 : Vec F S128x1024 .f32) (y : S128x1024.Idx) :
    ∃ pc ∈ ([⟨(Rect.unit (s := S128x1024) ![0, 0] S128x1024.size inb_S128x1024_S128x1024_0_0), p0⟩] : List (View.Piece (Elt F) S128x1024 .f32)), y ∈ pc.1.set :=
  View.cover_of_tiled [⟨(Rect.unit (s := S128x1024) ![0, 0] S128x1024.size inb_S128x1024_S128x1024_0_0), p0⟩] S128x1024.size (by rfl) y

set_option maxHeartbeats 4000000 in
/-- The body on whole staging buffers: the inputs holding blocks `x·`, the outputs anything. It ends with the inputs
    as they were and each output at its function of the inputs; nothing else is touched. -/
theorem sound_kernel3 (c : Dev nD) (E : Set ℕ) (i : grid3.Coords) (arg1 : Memref sig .tc .vmem S128x1024 .bf16) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole)
    (x0 : Vec F S128x1024 .bf16) (x1 : Vec F S128x1024 .f32) (x2 : Vec F S128x1024 .f32) (x3 : Vec F S1024x4096 .bf16) (x4 : Vec F S1024x4096 .bf16) (x5 : Vec F S1x4096 .f32) (x6 : Vec F S1024x1024 .bf16) (x7 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7) ∗ owns (c : Thread nD τ) arg10 fullShare (out3_9 x0 x1 x2 x3 x4 x5 x6 x7) ∗ owns (c : Thread nD τ) arg11 fullShare (out3_10 x0 x1 x2 x3 x4 x5 x6 x7)) -∗ K ⟨⟩))
      ⊢ wp frame (wpE (defs₀ (F := F)) Variants.none c none) E (cc3__layer_fc_kernel i arg1 harg1 arg2 harg2 arg3 harg3 arg4 harg4 arg5 harg5 arg6 harg6 arg7 harg7 arg8 harg8 arg9 harg9 arg10 harg10 arg11 harg11) K := by
  simp only [cc3__layer_fc_kernel_eq_skeleton]; unfold cc3__layer_fc_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover3_8 _)
  isplitl [H9]
  · iexists _; isplitr
    swap; · iexact H9
    ipureintro
    exact View.read_writes_eq_canon _ _ _ (cover3_9 _)
  iexists _; isplitr
  swap; · iexact H10
  ipureintro
  exact View.read_writes_eq_canon _ _ _ (cover3_10 _)

/-- The call's bookkeeping on core `c`: the arrays as the call finds them; after the body at point `t` each input's buffer
    still at its block and each output's at its function of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
    | ⟨10, _⟩ => out3_10 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- What the body is handed at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at any point: the input buffers hold their blocks, so the run above applies; the rest passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The per-point obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
import proofs.«125291_j75917841924156_2_alg».proof.Proof.KIRegion0
import proofs.«125291_j75917841924156_2_alg».proof.Proof.KIRegion1
import proofs.«125291_j75917841924156_2_alg».proof.Proof.KIRegion2
import proofs.«125291_j75917841924156_2_alg».proof.Proof.KIRegion3
import proofs.«125291_j75917841924156_2_alg».proof.Proof.Gen.KernelIdeal.Regions

/-!
# The whole program, from launch to return

The program is five stretches of host operations with the four layers' pallas_calls between them. A stretch slices
a layer's state and weights out of the stacked arguments, adds the two bias vectors, and (the last one) stacks the
four layers' hidden and cell states. Here the contents of every buffer are followed from one boundary to the next:
a stretch changes the buffers its operations write, a call changes its three outputs and nothing else. Every
execution terminates with every buffer at the last boundary's contents; in particular no argument has changed.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- At launch. -/
abbrev B0 : Dev nD → Valuation τ sig (Elt F) := fun c b => (s₀ m ρ).mem ((c : Dev nD), b)
/-- After stretch 0 of host operations: layer 0's call is entered from here. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After layer 0's call: its arrays at what the write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- A stretch leaves alone every buffer its operations do not write. -/
theorem B1_of (c : Dev nD) (r : Ref sig .tc) (h : r ∉ (hostOps0_W : List (Ref sig .tc))) : B1 m ρ c r = B0 m ρ c r :=
  StableHlo.after_of_writes_sub hostOps0 _ hostOps0_writes h

/-- After stretch 1 of host operations: layer 1's call is entered from here. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After layer 1's call: its arrays at what the write-backs leave, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- A stretch leaves alone every buffer its operations do not write. -/
theorem B3_of (c : Dev nD) (r : Ref sig .tc) (h : r ∉ (hostOps1_W : List (Ref sig .tc))) : B3 m ρ c r = B2 m ρ c r :=
  StableHlo.after_of_writes_sub hostOps1 _ hostOps1_writes h

/-- After stretch 2 of host operations: layer 2's call is entered from here. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After layer 2's call: its arrays at what the write-backs leave, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- A stretch leaves alone every buffer its operations do not write. -/
theorem B5_of (c : Dev nD) (r : Ref sig .tc) (h : r ∉ (hostOps2_W : List (Ref sig .tc))) : B5 m ρ c r = B4 m ρ c r :=
  StableHlo.after_of_writes_sub hostOps2 _ hostOps2_writes h

/-- After stretch 3 of host operations: layer 3's call is entered from here. -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b
/-- After layer 3's call: its arrays at what the write-backs leave, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)
/-- A stretch leaves alone every buffer its operations do not write. -/
theorem B7_of (c : Dev nD) (r : Ref sig .tc) (h : r ∉ (hostOps3_W : List (Ref sig .tc))) : B7 m ρ c r = B6 m ρ c r :=
  StableHlo.after_of_writes_sub hostOps3 _ hostOps3_writes h

/-- After the last stretch: the program returns from here. -/
abbrev B9 : Dev nD → Valuation τ sig (Elt F) := fun c => StableHlo.after hostOps4 (B8 m ρ c)
theorem B9_of (c : Dev nD) (r : Ref sig .tc) (h : r ∉ (hostOps4_W : List (Ref sig .tc))) : B9 m ρ c r = B8 m ρ c r :=
  StableHlo.after_of_writes_sub hostOps4 _ hostOps4_writes h

/-! ## No argument changes: no stretch writes one, and a call changes only its outputs -/

/-- The layer input is read by layer 0's call through an input window, which is written back unchanged. -/
theorem B9_main_arg0 (c : Dev nD) : B9 m ρ c (Proc.devRef .tc main_arg0) = m ((c : Thread nD τ).loc main_arg0) :=
  (B9_of m ρ c main_arg0 (by decide)).trans <| (B8_of_ne m ρ c main_arg0 (by decide)).trans <| (B7_of m ρ c main_arg0 (by decide)).trans <|
  (B6_of_ne m ρ c main_arg0 (by decide)).trans <| (B5_of m ρ c main_arg0 (by decide)).trans <| (B4_of_ne m ρ c main_arg0 (by decide)).trans <|
  (B3_of m ρ c main_arg0 (by decide)).trans <| ((B2_arr m ρ c 0).trans (((dat0 (E1 m ρ) c).arrAt_in 0 rfl _).trans (A_eq0 (E1 m ρ) c 0))).trans <|
  (B1_of m ρ c main_arg0 (by decide)).trans rfl
theorem B9_main_arg1 (c : Dev nD) : B9 m ρ c (Proc.devRef .tc main_arg1) = m ((c : Thread nD τ).loc main_arg1) :=
  (B9_of m ρ c main_arg1 (by decide)).trans <| (B8_of_ne m ρ c main_arg1 (by decide)).trans <| (B7_of m ρ c main_arg1 (by decide)).trans <|
  (B6_of_ne m ρ c main_arg1 (by decide)).trans <| (B5_of m ρ c main_arg1 (by decide)).trans <| (B4_of_ne m ρ c main_arg1 (by decide)).trans <|
  (B3_of m ρ c main_arg1 (by decide)).trans <| (B2_of_ne m ρ c main_arg1 (by decide)).trans <| (B1_of m ρ c main_arg1 (by decide)).trans rfl
theorem B9_main_arg2 (c : Dev nD) : B9 m ρ c (Proc.devRef .tc main_arg2) = m ((c : Thread nD τ).loc main_arg2) :=
  (B9_of m ρ c main_arg2 (by decide)).trans <| (B8_of_ne m ρ c main_arg2 (by decide)).trans <| (B7_of m ρ c main_arg2 (by decide)).trans <|
  (B6_of_ne m ρ c main_arg2 (by decide)).trans <| (B5_of m ρ c main_arg2 (by decide)).trans <| (B4_of_ne m ρ c main_arg2 (by decide)).trans <|
  (B3_of m ρ c main_arg2 (by decide)).trans <| (B2_of_ne m ρ c main_arg2 (by decide)).trans <| (B1_of m ρ c main_arg2 (by decide)).trans rfl
theorem B9_main_arg3 (c : Dev nD) : B9 m ρ c (Proc.devRef .tc main_arg3) = m ((c : Thread nD τ).loc main_arg3) :=
  (B9_of m ρ c main_arg3 (by decide)).trans <| (B8_of_ne m ρ c main_arg3 (by decide)).trans <| (B7_of m ρ c main_arg3 (by decide)).trans <|
  (B6_of_ne m ρ c main_arg3 (by decide)).trans <| (B5_of m ρ c main_arg3 (by decide)).trans <| (B4_of_ne m ρ c main_arg3 (by decide)).trans <|
  (B3_of m ρ c main_arg3 (by decide)).trans <| (B2_of_ne m ρ c main_arg3 (by decide)).trans <| (B1_of m ρ c main_arg3 (by decide)).trans rfl
theorem B9_main_arg4 (c : Dev nD) : B9 m ρ c (Proc.devRef .tc main_arg4) = m ((c : Thread nD τ).loc main_arg4) :=
  (B9_of m ρ c main_arg4 (by decide)).trans <| (B8_of_ne m ρ c main_arg4 (by decide)).trans <| (B7_of m ρ c main_arg4 (by decide)).trans <|
  (B6_of_ne m ρ c main_arg4 (by decide)).trans <| (B5_of m ρ c main_arg4 (by decide)).trans <| (B4_of_ne m ρ c main_arg4 (by decide)).trans <|
  (B3_of m ρ c main_arg4 (by decide)).trans <| (B2_of_ne m ρ c main_arg4 (by decide)).trans <| (B1_of m ρ c main_arg4 (by decide)).trans rfl
theorem B9_main_arg5 (c : Dev nD) : B9 m ρ c (Proc.devRef .tc main_arg5) = m ((c : Thread nD τ).loc main_arg5) :=
  (B9_of m ρ c main_arg5 (by decide)).trans <| (B8_of_ne m ρ c main_arg5 (by decide)).trans <| (B7_of m ρ c main_arg5 (by decide)).trans <|
  (B6_of_ne m ρ c main_arg5 (by decide)).trans <| (B5_of m ρ c main_arg5 (by decide)).trans <| (B4_of_ne m ρ c main_arg5 (by decide)).trans <|
  (B3_of m ρ c main_arg5 (by decide)).trans <| (B2_of_ne m ρ c main_arg5 (by decide)).trans <| (B1_of m ρ c main_arg5 (by decide)).trans rfl
theorem B9_main_arg6 (c : Dev nD) : B9 m ρ c (Proc.devRef .tc main_arg6) = m ((c : Thread nD τ).loc main_arg6) :=
  (B9_of m ρ c main_arg6 (by decide)).trans <| (B8_of_ne m ρ c main_arg6 (by decide)).trans <| (B7_of m ρ c main_arg6 (by decide)).trans <|
  (B6_of_ne m ρ c main_arg6 (by decide)).trans <| (B5_of m ρ c main_arg6 (by decide)).trans <| (B4_of_ne m ρ c main_arg6 (by decide)).trans <|
  (B3_of m ρ c main_arg6 (by decide)).trans <| (B2_of_ne m ρ c main_arg6 (by decide)).trans <| (B1_of m ρ c main_arg6 (by decide)).trans rfl
theorem B9_main_arg7 (c : Dev nD) : B9 m ρ c (Proc.devRef .tc main_arg7) = m ((c : Thread nD τ).loc main_arg7) :=
  (B9_of m ρ c main_arg7 (by decide)).trans <| (B8_of_ne m ρ c main_arg7 (by decide)).trans <| (B7_of m ρ c main_arg7 (by decide)).trans <|
  (B6_of_ne m ρ c main_arg7 (by decide)).trans <| (B5_of m ρ c main_arg7 (by decide)).trans <| (B4_of_ne m ρ c main_arg7 (by decide)).trans <|
  (B3_of m ρ c main_arg7 (by decide)).trans <| (B2_of_ne m ρ c main_arg7 (by decide)).trans <| (B1_of m ρ c main_arg7 (by decide)).trans rfl
theorem B9_main_arg8 (c : Dev nD) : B9 m ρ c (Proc.devRef .tc main_arg8) = m ((c : Thread nD τ).loc main_arg8) :=
  (B9_of m ρ c main_arg8 (by decide)).trans <| (B8_of_ne m ρ c main_arg8 (by decide)).trans <| (B7_of m ρ c main_arg8 (by decide)).trans <|
  (B6_of_ne m ρ c main_arg8 (by decide)).trans <| (B5_of m ρ c main_arg8 (by decide)).trans <| (B4_of_ne m ρ c main_arg8 (by decide)).trans <|
  (B3_of m ρ c main_arg8 (by decide)).trans <| (B2_of_ne m ρ c main_arg8 (by decide)).trans <| (B1_of m ρ c main_arg8 (by decide)).trans rfl

/-! ## The calls' bookkeeping together, and what rides beside the buffers -/

abbrev admH : (p : Fin 4) → (pcfgs (F := F) p).Adm := fun p => (cfgs p).toPCfg_adm
def pdatsH : (p : Fin 4) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱H : Variants := Variants.none
abbrev LH : GSem nD τ sig → Finset Unit := fun _ => ∅
abbrev lvH : GSem nD τ sig → Unit → ℕ := fun _ _ => 0
/-- Beside the buffers: the core's generator register at some state, and the core owing nothing. -/
abbrev RH (c : Dev nD) : sProp 𝕄 := iprop((∃ r, prngReg c r) ∗ ∃ W, owes (c : Thread nD τ) (0 : CellTallies nD τ sig Unit) W)
/-- A stretch of host operations as a segment of the run, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (B9 m ρ c) ∗ ∃ r, prngReg c r)

/-! ## The calls as segments -/

set_option backward.isDefEq.respectTransparency.types false in
/-- Layer 0's call: entered with every buffer at boundary 1's contents, left at boundary 2's. Its arrays are split
    out of the buffers at entry and put back at exit; the generator register goes in and comes out; nothing is owed. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E1 m ρ c) (E2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's call: entered with every buffer at boundary 3's contents, left at boundary 4's. Its arrays are split
    out of the buffers at entry and put back at exit; the generator register goes in and comes out; nothing is owed. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ LH lvH 1 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E3 m ρ c) (E4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's call: entered with every buffer at boundary 5's contents, left at boundary 6's. Its arrays are split
    out of the buffers at entry and put back at exit; the generator register goes in and comes out; nothing is owed. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ LH lvH 2 fun _ _ => rfl
  pre c := iprop(StableHlo.held (c : Thread nD τ) (Pipeline.ucRefs τ sig) (B5 m ρ c) ∗ RH c)
  post c := iprop(StableHlo.held (c : Thread nD τ) (Pipeline.ucRefs τ sig) (B6 m ρ c) ∗ RH c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (E5 m ρ c) (E6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's call: entered with every buffer at boundary 7's contents, left at boundary 8's. Its arrays are split
    out of the buffers at entry and put back at exit; the generator register goes in and comes out; nothing is owed. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ LH lvH 3 fun _ _ => rfl
  pre c := iprop(StableHlo.held (c : Thread nD τ) (Pipeline.ucRefs τ sig) (B7 m ρ c) ∗ RH c)
  post c := iprop(StableHlo.held (c : Thread nD τ) (Pipeline.ucRefs τ sig) (B8 m ρ c) ∗ RH c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (E7 m ρ c) (E8 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segsH : List (Pipeline.Seg (pcfgs (F := F)) admH (pdatsH m ρ) () defs₀ 𝒱H LH lvH) :=
  [ .host (hsegH hostOps0 hostOps0_sub hostOps0_fresh (B0 m ρ)),
    .region (reg0 m ρ),
    .host (hsegH hostOps1 hostOps1_sub hostOps1_fresh (B2 m ρ)),
    .region (reg1 m ρ),
    .host (hsegH hostOps2 hostOps2_sub hostOps2_fresh (B4 m ρ)),
    .region (reg2 m ρ),
    .host (hsegH hostOps3 hostOps3_sub hostOps3_fresh (B6 m ρ)),
    .region (reg3 m ρ),
    .host (hsegH hostOps4 hostOps4_sub hostOps4_fresh (B8 m ρ)) ]

set_option backward.isDefEq.respectTransparency.types false in
/-- Every weakly fair execution of the program from memory `m` terminates, without a fault, with every buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m ρ c b) :=
  Pipeline.θ_run_regions_kit (pcfgs (F := F)) admH (pdatsH m ρ) () cellOf_inj emb₁ defs₀ 𝒱H LH lvH m ρ main (segsH m ρ)
    (fun c Q => by
      rewrite [main_chain c, Pipeline.Seg.run_eq_chain,
        show (segsH m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B9 m ρ c) ∗ RH c)
        ⊢ (iprop(TH m ρ c ∗ ∃ W, owes (c.tc : Thread nD τ) (0 : CellTallies nD τ sig Unit) W) : sProp 𝕄)
      unfold TH
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m ρ c b)
    (hfin := fun c s' => by
      iintro ⟨⟨Hh, -⟩, HSI⟩
      unfold StableHlo.held
      imodintro
      iapply (pointsTo_read_all (Pipeline.ucRefs τ sig) (fun b => (((c : Thread nD τ)).1, b)) (B9 m ρ c) s')
      isplitl [Hh] <;> iassumption)
    (hQ := fun s h c => h c)

/-- No argument array has changed when the program returns. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_ucH main_arg0 (by decide))).trans (B9_main_arg0 m ρ c),
    (h c _ (mem_ucH main_arg1 (by decide))).trans (B9_main_arg1 m ρ c),
    (h c _ (mem_ucH main_arg2 (by decide))).trans (B9_main_arg2 m ρ c),
    (h c _ (mem_ucH main_arg3 (by decide))).trans (B9_main_arg3 m ρ c),
    (h c _ (mem_ucH main_arg4 (by decide))).trans (B9_main_arg4 m ρ c),
    (h c _ (mem_ucH main_arg5 (by decide))).trans (B9_main_arg5 m ρ c),
    (h c _ (mem_ucH main_arg6 (by decide))).trans (B9_main_arg6 m ρ c),
    (h c _ (mem_ucH main_arg7 (by decide))).trans (B9_main_arg7 m ρ c),
    (h c _ (mem_ucH main_arg8 (by decide))).trans (B9_main_arg8 m ρ c)⟩) (run_all m ρ)

end Cert.KernelIdeal.Hand

end
-- ==== Proof.LayerSpec.lean ====
import Idealize.ShloMosaic.PureOps.Ideal
import Idealize.ShloMosaic.PureOps.Ideal.Laws
import Idealize.ShloMosaic.Lib.ValueIdx
import Idealize.ShloMosaic.Lib.Pipeline.Value

/-!
# One LSTM layer, one batch row at a time, on the extended reals

A layer maps a batch row of the input `x`, of the previous hidden state `h` and of the previous cell state `c` to a row
of the new cell and hidden states. With `g j = Σ_k x k · Wi k j + Σ_k h k · Wh k j + b j` for the 4096 gate columns,
split in four groups of 1024 (input, forget, cell, output), and `σ u = 1 / (1 + e^(−u))`:

* the new cell state is `c' q = σ(g (1024 + q)) · c q + σ(g q) · tanh (g (2048 + q))`,
* the new hidden state is `h' q = σ(g (3072 + q)) · tanh (c' q)`.

A row depends on nothing outside its own row of `x`, `h`, `c`: this is why a tiling of the batch axis computes the same
thing. The last layer's hidden state also goes through `y o = Σ_k h' k · fc_W k o + fc_b o`.

The two programs group the gate sum differently — `((xWi + bi) + hWh) + bh` against `(xWi + hWh) + (bi + bh)` — which
is the same extended real, addition there being commutative and associative.
-/

noncomputable section

open scoped BigOperators

namespace Cert.LayerSpec

open Idealize.ShloMosaic Idealize.ShloMosaic.ValueIdx

/-- Column `o + q` of the 4096 gate columns: column `q` of the group that starts at `o`. -/
def col (o : Nat) (ho : o + 1024 ≤ 4096) (q : Fin 1024) : Fin 4096 := ⟨o + q.val, by have := q.isLt; omega⟩

/-- The gate pre-activations of one row. -/
def gateRow (xr hr : Fin 1024 → EReal) (wi wh : Fin 1024 → Fin 4096 → EReal) (b : Fin 4096 → EReal) (j : Fin 4096) : EReal :=
  (∑ k : Fin 1024, xr k * wi k j) + (∑ k : Fin 1024, hr k * wh k j) + b j

/-- The new cell state of one row. -/
def cellRow (xr hr cr : Fin 1024 → EReal) (wi wh : Fin 1024 → Fin 4096 → EReal) (b : Fin 4096 → EReal) (q : Fin 1024) : EReal :=
  Ideal.logistic (gateRow xr hr wi wh b (col 1024 (by norm_num) q)) * cr q
    + Ideal.logistic (gateRow xr hr wi wh b (col 0 (by norm_num) q)) * Ideal.tanh (gateRow xr hr wi wh b (col 2048 (by norm_num) q))

/-- The new hidden state of one row. -/
def hidRow (xr hr cr : Fin 1024 → EReal) (wi wh : Fin 1024 → Fin 4096 → EReal) (b : Fin 4096 → EReal) (q : Fin 1024) : EReal :=
  Ideal.logistic (gateRow xr hr wi wh b (col 3072 (by norm_num) q)) * Ideal.tanh (cellRow xr hr cr wi wh b q)

/-- The output projection of one row of the last hidden state. -/
def outRow (hr : Fin 1024 → EReal) (fw : Fin 1024 → Fin 1024 → EReal) (fb : Fin 1024 → EReal) (o : Fin 1024) : EReal :=
  (∑ k : Fin 1024, hr k * fw k o) + fb o

/-- The two groupings of the gate sum agree. -/
theorem gate_regroup (A Hh bi bh : EReal) : A + bi + Hh + bh = A + Hh + (bi + bh) := by
  rw [add_assoc (A + bi), add_add_add_comm]

/-! ## Arrays

The same functions over arrays indexed by a row and a column: `row A r` is row `r` of `A`; a weight matrix and a
one-row bias are read by their coordinates. -/

/-- Row `r` of an array of `B` rows. -/
def row {B : Nat} (A : (⟨2, ![B, 1024]⟩ : Shape).Idx → EReal) (r : Fin B) : Fin 1024 → EReal := fun k => A (ix2 r k)
/-- A weight matrix by its coordinates. -/
def mat {N : Nat} (W : (⟨2, ![1024, N]⟩ : Shape).Idx → EReal) : Fin 1024 → Fin N → EReal := fun k j => W (ix2 k j)
/-- A one-row array by its column. -/
def vec {N : Nat} (b : (⟨2, ![1, N]⟩ : Shape).Idx → EReal) : Fin N → EReal := fun j => b (ix2 (0 : Fin 1) j)

/-- The new cell state of every row. -/
def cellArr {B : Nat} (X H C : (⟨2, ![B, 1024]⟩ : Shape).Idx → EReal) (Wi Wh : (⟨2, ![1024, 4096]⟩ : Shape).Idx → EReal)
    (Bv : (⟨2, ![1, 4096]⟩ : Shape).Idx → EReal) : (⟨2, ![B, 1024]⟩ : Shape).Idx → EReal :=
  fun i => cellRow (row X ⟨(i 0).val, idx2_lt0 i⟩) (row H ⟨(i 0).val, idx2_lt0 i⟩) (row C ⟨(i 0).val, idx2_lt0 i⟩) (mat Wi) (mat Wh) (vec Bv) ⟨(i 1).val, idx2_lt1 i⟩

/-- The new hidden state of every row. -/
def hidArr {B : Nat} (X H C : (⟨2, ![B, 1024]⟩ : Shape).Idx → EReal) (Wi Wh : (⟨2, ![1024, 4096]⟩ : Shape).Idx → EReal)
    (Bv : (⟨2, ![1, 4096]⟩ : Shape).Idx → EReal) : (⟨2, ![B, 1024]⟩ : Shape).Idx → EReal :=
  fun i => hidRow (row X ⟨(i 0).val, idx2_lt0 i⟩) (row H ⟨(i 0).val, idx2_lt0 i⟩) (row C ⟨(i 0).val, idx2_lt0 i⟩) (mat Wi) (mat Wh) (vec Bv) ⟨(i 1).val, idx2_lt1 i⟩

/-- The output projection of every row of the new hidden state. -/
def outArr {B : Nat} (X H C : (⟨2, ![B, 1024]⟩ : Shape).Idx → EReal) (Wi Wh : (⟨2, ![1024, 4096]⟩ : Shape).Idx → EReal)
    (Bv : (⟨2, ![1, 4096]⟩ : Shape).Idx → EReal) (Fw : (⟨2, ![1024, 1024]⟩ : Shape).Idx → EReal) (Fb : (⟨2, ![1, 1024]⟩ : Shape).Idx → EReal) :
    (⟨2, ![B, 1024]⟩ : Shape).Idx → EReal :=
  fun i => outRow (hidRow (row X ⟨(i 0).val, idx2_lt0 i⟩) (row H ⟨(i 0).val, idx2_lt0 i⟩) (row C ⟨(i 0).val, idx2_lt0 i⟩) (mat Wi) (mat Wh) (vec Bv)) (mat Fw) (vec Fb) ⟨(i 1).val, idx2_lt1 i⟩

theorem cellArr_apply {B : Nat} (X H C : (⟨2, ![B, 1024]⟩ : Shape).Idx → EReal) (Wi Wh : (⟨2, ![1024, 4096]⟩ : Shape).Idx → EReal)
    (Bv : (⟨2, ![1, 4096]⟩ : Shape).Idx → EReal) (r : Fin B) (q : Fin 1024) :
    cellArr X H C Wi Wh Bv (ix2 r q) = cellRow (row X r) (row H r) (row C r) (mat Wi) (mat Wh) (vec Bv) q := rfl

theorem hidArr_apply {B : Nat} (X H C : (⟨2, ![B, 1024]⟩ : Shape).Idx → EReal) (Wi Wh : (⟨2, ![1024, 4096]⟩ : Shape).Idx → EReal)
    (Bv : (⟨2, ![1, 4096]⟩ : Shape).Idx → EReal) (r : Fin B) (q : Fin 1024) :
    hidArr X H C Wi Wh Bv (ix2 r q) = hidRow (row X r) (row H r) (row C r) (mat Wi) (mat Wh) (vec Bv) q := rfl

theorem outArr_apply {B : Nat} (X H C : (⟨2, ![B, 1024]⟩ : Shape).Idx → EReal) (Wi Wh : (⟨2, ![1024, 4096]⟩ : Shape).Idx → EReal)
    (Bv : (⟨2, ![1, 4096]⟩ : Shape).Idx → EReal) (Fw : (⟨2, ![1024, 1024]⟩ : Shape).Idx → EReal) (Fb : (⟨2, ![1, 1024]⟩ : Shape).Idx → EReal) (r : Fin B) (o : Fin 1024) :
    outArr X H C Wi Wh Bv Fw Fb (ix2 r o) = outRow (hidRow (row X r) (row H r) (row C r) (mat Wi) (mat Wh) (vec Bv)) (mat Fw) (vec Fb) o := rfl

/-! ## The stacked arguments, one layer at a time

Each layer's previous states, weights and biases are slices of arguments stacked along a leading axis of extent 4. -/

/-- Layer `l` of a stacked [4, 4096, 1024] array, at row `r` and column `k`. -/
theorem layer_state (l : Fin 4) (A : (⟨3, ![4, 4096, 1024]⟩ : Shape).Idx → EReal)
    (h : (⟨3, ![4, 4096, 1024]⟩ : Shape).Slices ![l.val, 0, 0] ⟨3, ![1, 4096, 1024]⟩)
    (h' : (⟨3, ![1, 4096, 1024]⟩ : Shape).ShapeCasts ⟨2, ![4096, 1024]⟩) (r : Fin 4096) (k : Fin 1024) :
    shapeCast ⟨2, ![4096, 1024]⟩ (extractStridedSlice ⟨3, ![1, 4096, 1024]⟩ ![l.val, 0, 0] A h) h' (ix2 r k) = A (ix3 l r k) :=
  (shapeCast_apply _ h' (ix2 r k) (ix3 (0 : Fin 1) r k) (by
      rw [Shape.rowMajor_val_three, Shape.rowMajor_val_two]
      show ((0 : ℕ) * 4096 + r.val) * 1024 + k.val = r.val * 1024 + k.val
      omega)).trans
    (extractStridedSlice_apply _ A h (ix3 (0 : Fin 1) r k) (ix3 l r k) (fun a => by
      match a with | ⟨0, _⟩ => rfl | ⟨1, _⟩ => exact (Nat.zero_add _).symm | ⟨2, _⟩ => exact (Nat.zero_add _).symm))

/-- Layer `l` of a stacked [4, 1024, 4096] array, at row `k` and column `j`. -/
theorem layer_weight (l : Fin 4) (A : (⟨3, ![4, 1024, 4096]⟩ : Shape).Idx → EReal)
    (h : (⟨3, ![4, 1024, 4096]⟩ : Shape).Slices ![l.val, 0, 0] ⟨3, ![1, 1024, 4096]⟩)
    (h' : (⟨3, ![1, 1024, 4096]⟩ : Shape).ShapeCasts ⟨2, ![1024, 4096]⟩) (k : Fin 1024) (j : Fin 4096) :
    shapeCast ⟨2, ![1024, 4096]⟩ (extractStridedSlice ⟨3, ![1, 1024, 4096]⟩ ![l.val, 0, 0] A h) h' (ix2 k j) = A (ix3 l k j) :=
  (shapeCast_apply _ h' (ix2 k j) (ix3 (0 : Fin 1) k j) (by
      rw [Shape.rowMajor_val_three, Shape.rowMajor_val_two]
      show ((0 : ℕ) * 1024 + k.val) * 4096 + j.val = k.val * 4096 + j.val
      omega)).trans
    (extractStridedSlice_apply _ A h (ix3 (0 : Fin 1) k j) (ix3 l k j) (fun a => by
      match a with | ⟨0, _⟩ => rfl | ⟨1, _⟩ => exact (Nat.zero_add _).symm | ⟨2, _⟩ => exact (Nat.zero_add _).symm))

/-- Layer `l` of a stacked [4, 4096] array, at column `j`. -/
theorem layer_bias (l : Fin 4) (A : (⟨2, ![4, 4096]⟩ : Shape).Idx → EReal)
    (h : (⟨2, ![4, 4096]⟩ : Shape).Slices ![l.val, 0] ⟨2, ![1, 4096]⟩)
    (h' : (⟨2, ![1, 4096]⟩ : Shape).ShapeCasts ⟨1, ![4096]⟩) (j : Fin 4096) :
    shapeCast ⟨1, ![4096]⟩ (extractStridedSlice ⟨2, ![1, 4096]⟩ ![l.val, 0] A h) h' (ix1 j) = A (ix2 l j) :=
  (shapeCast_apply _ h' (ix1 j) (ix2 (0 : Fin 1) j) (by
      rw [Shape.rowMajor_val_two, Shape.rowMajor_val_one]
      show (0 : ℕ) * 4096 + j.val = j.val
      omega)).trans
    (extractStridedSlice_apply _ A h (ix2 (0 : Fin 1) j) (ix2 l j) (fun a => by
      match a with | ⟨0, _⟩ => rfl | ⟨1, _⟩ => exact (Nat.zero_add _).symm))

/-- A vector laid out as one row, at column `j`. -/
theorem one_row {N : Nat} (v : (⟨1, ![N]⟩ : Shape).Idx → EReal) (h : (⟨1, ![N]⟩ : Shape).ShapeCasts ⟨2, ![1, N]⟩) (j : Fin N) :
    shapeCast ⟨2, ![1, N]⟩ v h (ix2 (0 : Fin 1) j) = v (ix1 j) :=
  shapeCast_apply _ h (ix2 (0 : Fin 1) j) (ix1 j) (by
    rw [Shape.rowMajor_val_two, Shape.rowMajor_val_one]
    show j.val = (0 : ℕ) * N + j.val
    omega)

/-- The four layers' states stacked along a new leading axis: at layer 3, row `r`, column `k` it is the fourth piece. -/
theorem stack4_last (a0 a1 a2 a3 : (⟨2, ![4096, 1024]⟩ : Shape).Idx → EReal)
    (hb : (⟨2, ![4096, 1024]⟩ : Shape).BroadcastsInDim ⟨3, ![1, 4096, 1024]⟩ ![1, 2])
    (hc : Shape.Concatenates (([⟨⟨3, ![1, 4096, 1024]⟩, broadcastInDim ⟨3, ![1, 4096, 1024]⟩ ![1, 2] hb a0⟩, ⟨⟨3, ![1, 4096, 1024]⟩, broadcastInDim ⟨3, ![1, 4096, 1024]⟩ ![1, 2] hb a1⟩,
        ⟨⟨3, ![1, 4096, 1024]⟩, broadcastInDim ⟨3, ![1, 4096, 1024]⟩ ![1, 2] hb a2⟩, ⟨⟨3, ![1, 4096, 1024]⟩, broadcastInDim ⟨3, ![1, 4096, 1024]⟩ ![1, 2] hb a3⟩] :
          List ((s : Shape) × (s.Idx → EReal))).map (·.1)) ⟨3, ![4, 4096, 1024]⟩ 0)
    (r : Fin 4096) (k : Fin 1024) :
    concatenate ⟨3, ![4, 4096, 1024]⟩ 0 [⟨⟨3, ![1, 4096, 1024]⟩, broadcastInDim ⟨3, ![1, 4096, 1024]⟩ ![1, 2] hb a0⟩, ⟨⟨3, ![1, 4096, 1024]⟩, broadcastInDim ⟨3, ![1, 4096, 1024]⟩ ![1, 2] hb a1⟩,
        ⟨⟨3, ![1, 4096, 1024]⟩, broadcastInDim ⟨3, ![1, 4096, 1024]⟩ ![1, 2] hb a2⟩, ⟨⟨3, ![1, 4096, 1024]⟩, broadcastInDim ⟨3, ![1, 4096, 1024]⟩ ![1, 2] hb a3⟩] hc (ix3 (3 : Fin 4) r k)
      = a3 (ix2 r k) := by
  refine (concatenate_apply_piece (0 : Fin 3) _ hc (ix3 (3 : Fin 4) r k) 3 ?_ ⟨3, ![1, 4096, 1024]⟩ (broadcastInDim ⟨3, ![1, 4096, 1024]⟩ ![1, 2] hb a3) rfl rfl 3 rfl
      (ix3 (0 : Fin 1) r k) ?_ rfl).trans ?_
  · exact (by decide : (3 : ℕ) < 4)
  · intro b hb'
    match b with
    | ⟨0, _⟩ => exact absurd rfl hb'
    | ⟨1, _⟩ => rfl
    | ⟨2, _⟩ => rfl
  · exact broadcastInDim_apply _ hb a3 (ix3 (0 : Fin 1) r k) (ix2 r k) (fun a => by match a with | ⟨0, _⟩ => rfl | ⟨1, _⟩ => rfl)

/-- The four layers' states stacked along a new leading axis. -/
def cat4 (hb : (⟨2, ![4096, 1024]⟩ : Shape).BroadcastsInDim ⟨3, ![1, 4096, 1024]⟩ ![1, 2])
    (hc : Shape.Concatenates [⟨3, ![1, 4096, 1024]⟩, ⟨3, ![1, 4096, 1024]⟩, ⟨3, ![1, 4096, 1024]⟩, ⟨3, ![1, 4096, 1024]⟩] ⟨3, ![4, 4096, 1024]⟩ 0)
    (a0 a1 a2 a3 : (⟨2, ![4096, 1024]⟩ : Shape).Idx → EReal) : (⟨3, ![4, 4096, 1024]⟩ : Shape).Idx → EReal :=
  concatenate ⟨3, ![4, 4096, 1024]⟩ 0 [⟨⟨3, ![1, 4096, 1024]⟩, broadcastInDim ⟨3, ![1, 4096, 1024]⟩ ![1, 2] hb a0⟩, ⟨⟨3, ![1, 4096, 1024]⟩, broadcastInDim ⟨3, ![1, 4096, 1024]⟩ ![1, 2] hb a1⟩,
      ⟨⟨3, ![1, 4096, 1024]⟩, broadcastInDim ⟨3, ![1, 4096, 1024]⟩ ![1, 2] hb a2⟩, ⟨⟨3, ![1, 4096, 1024]⟩, broadcastInDim ⟨3, ![1, 4096, 1024]⟩ ![1, 2] hb a3⟩] hc

/-! ## The four layers and the output projection

Layer 0 reads the input `x`; each later layer reads the hidden state the one before produced. -/

section Stack

variable (x : (⟨2, ![4096, 1024]⟩ : Shape).Idx → EReal) (hp cp : (⟨3, ![4, 4096, 1024]⟩ : Shape).Idx → EReal)
  (Wi Wh : (⟨3, ![4, 1024, 4096]⟩ : Shape).Idx → EReal) (bi bh : (⟨2, ![4, 4096]⟩ : Shape).Idx → EReal)

/-- Row `r` of layer `l` of a stacked state. -/
def stRow (A : (⟨3, ![4, 4096, 1024]⟩ : Shape).Idx → EReal) (l : Fin 4) (r : Fin 4096) : Fin 1024 → EReal := fun k => A (ix3 l r k)
/-- Layer `l` of the stacked weights. -/
def wMat (A : (⟨3, ![4, 1024, 4096]⟩ : Shape).Idx → EReal) (l : Fin 4) : Fin 1024 → Fin 4096 → EReal := fun k j => A (ix3 l k j)
/-- Layer `l`'s two biases, added. -/
def bVec (l : Fin 4) : Fin 4096 → EReal := fun j => bi (ix2 l j) + bh (ix2 l j)

/-- Layer `l`'s new cell state from the layer input `inp`. -/
def cellL (inp : (⟨2, ![4096, 1024]⟩ : Shape).Idx → EReal) (l : Fin 4) : (⟨2, ![4096, 1024]⟩ : Shape).Idx → EReal :=
  fun i => cellRow (row inp ⟨(i 0).val, idx2_lt0 i⟩) (stRow hp l ⟨(i 0).val, idx2_lt0 i⟩) (stRow cp l ⟨(i 0).val, idx2_lt0 i⟩) (wMat Wi l) (wMat Wh l) (bVec bi bh l) ⟨(i 1).val, idx2_lt1 i⟩

/-- Layer `l`'s new hidden state from the layer input `inp`. -/
def hidL (inp : (⟨2, ![4096, 1024]⟩ : Shape).Idx → EReal) (l : Fin 4) : (⟨2, ![4096, 1024]⟩ : Shape).Idx → EReal :=
  fun i => hidRow (row inp ⟨(i 0).val, idx2_lt0 i⟩) (stRow hp l ⟨(i 0).val, idx2_lt0 i⟩) (stRow cp l ⟨(i 0).val, idx2_lt0 i⟩) (wMat Wi l) (wMat Wh l) (bVec bi bh l) ⟨(i 1).val, idx2_lt1 i⟩

theorem cellL_apply (inp : (⟨2, ![4096, 1024]⟩ : Shape).Idx → EReal) (l : Fin 4) (r : Fin 4096) (q : Fin 1024) :
    cellL hp cp Wi Wh bi bh inp l (ix2 r q) = cellRow (row inp r) (stRow hp l r) (stRow cp l r) (wMat Wi l) (wMat Wh l) (bVec bi bh l) q := rfl

theorem hidL_apply (inp : (⟨2, ![4096, 1024]⟩ : Shape).Idx → EReal) (l : Fin 4) (r : Fin 4096) (q : Fin 1024) :
    hidL hp cp Wi Wh bi bh inp l (ix2 r q) = hidRow (row inp r) (stRow hp l r) (stRow cp l r) (wMat Wi l) (wMat Wh l) (bVec bi bh l) q := rfl

/-- The hidden states of the four layers. -/
def H0 := hidL hp cp Wi Wh bi bh x 0
def H1 := hidL hp cp Wi Wh bi bh (H0 x hp cp Wi Wh bi bh) 1
def H2 := hidL hp cp Wi Wh bi bh (H1 x hp cp Wi Wh bi bh) 2
def H3 := hidL hp cp Wi Wh bi bh (H2 x hp cp Wi Wh bi bh) 3
/-- The cell states of the four layers. -/
def C0 := cellL hp cp Wi Wh bi bh x 0
def C1 := cellL hp cp Wi Wh bi bh (H0 x hp cp Wi Wh bi bh) 1
def C2 := cellL hp cp Wi Wh bi bh (H1 x hp cp Wi Wh bi bh) 2
def C3 := cellL hp cp Wi Wh bi bh (H2 x hp cp Wi Wh bi bh) 3

/-- The output projection of the last hidden state. -/
def Y (fw : (⟨2, ![1024, 1024]⟩ : Shape).Idx → EReal) (fb : (⟨1, ![1024]⟩ : Shape).Idx → EReal) : (⟨2, ![4096, 1024]⟩ : Shape).Idx → EReal :=
  fun i => outRow (row (H3 x hp cp Wi Wh bi bh) ⟨(i 0).val, idx2_lt0 i⟩) (mat fw) (fun o => fb (ix1 o)) ⟨(i 1).val, idx2_lt1 i⟩

end Stack

/-- The float `1.0` is the real number one. -/
theorem ofBits_one : Ideal.ofBits .f32 0x3F800000#32 = 1 := by
  simp [Ideal.ofBits, Ideal.ieee, -EReal.coe_mul]; norm_num

end Cert.LayerSpec

end
-- ==== Proof.KIPay0.lean ====
import proofs.«125291_j75917841924156_2_alg».proof.Proof.Gen.KernelIdeal.Skeleton
import proofs.«125291_j75917841924156_2_alg».proof.Proof.LayerSpec
import Idealize.ShloMosaic.Lib.ValueIdx
import Idealize.ShloMosaic.Lib.Pipeline.Value
import Idealize.ShloMosaic.PureOps.Ideal.Laws

/-!
# Layer 0's body arithmetic at a block index

The body's values are pure functions of the blocks it loads. At row `p` of the block and a column, the gate
pre-activations are two sums over the contracted axis plus the bias entry; the cell and hidden values are the
specification's row functions of row `p` of the loaded blocks. The changes of float format are the identity on
the extended reals.
-/

noncomputable section

open scoped BigOperators

namespace Cert.KernelIdeal.Pay0

open Cert.KernelIdeal Cert.KernelIdeal.Gen Cert.LayerSpec
open Idealize.ShloMosaic Idealize.ShloMosaic.ValueIdx Idealize.ShloMosaic.TcCoe

/-- A block product with the weights into a zero accumulator, at row `p` and column `j`. -/
theorem dot_apply {φ : FTy} (x : FVec Ideal S256x1024 φ) (w : FVec Ideal S1024x4096 .bf16) (p : Fin 256) (j : Fin 4096) :
    matmul dot_S256x1024_S1024x4096_S256x4096_1_0_0_1_n_n none x w (constant (F := Ideal) S256x4096 .f32 0x00000000#32) (ix2 p j) = ∑ k : Fin 1024, x (ix2 p k) * w (ix2 k j) := by
  refine (Ideal.matmul_constant_zero_apply dot_S256x1024_S1024x4096_S256x4096_1_0_0_1_n_n none x w (ix2 p j)).trans ?_
  rw [← Equiv.sum_comp (contrEquiv1 dot_S256x1024_S1024x4096_S256x4096_1_0_0_1_n_n 1024 rfl rfl).symm]
  refine Finset.sum_congr rfl fun k _ => ?_
  have hl : (dot_S256x1024_S1024x4096_S256x4096_1_0_0_1_n_n).lhsIdx (ix2 p j) ((contrEquiv1 dot_S256x1024_S1024x4096_S256x4096_1_0_0_1_n_n 1024 rfl rfl).symm k) = ix2 p k := by
    funext a; apply Fin.ext
    match a with
    | ⟨0, _⟩ => rfl
    | ⟨1, _⟩ => exact ((dot_S256x1024_S1024x4096_S256x4096_1_0_0_1_n_n).lhsIdx_val_of_single (cl := (1 : Fin 2)) rfl (ix2 p j) _).trans (contrEquiv1_symm_val dot_S256x1024_S1024x4096_S256x4096_1_0_0_1_n_n 1024 rfl rfl k)
  have hr : (dot_S256x1024_S1024x4096_S256x4096_1_0_0_1_n_n).rhsIdx (ix2 p j) ((contrEquiv1 dot_S256x1024_S1024x4096_S256x4096_1_0_0_1_n_n 1024 rfl rfl).symm k) = ix2 k j := by
    funext a; apply Fin.ext
    match a with
    | ⟨0, _⟩ => exact ((dot_S256x1024_S1024x4096_S256x4096_1_0_0_1_n_n).rhsIdx_val_of_single (cr := (0 : Fin 2)) rfl (ix2 p j) _).trans (contrEquiv1_symm_val dot_S256x1024_S1024x4096_S256x4096_1_0_0_1_n_n 1024 rfl rfl k)
    | ⟨1, _⟩ => rfl
  rw [hl, hr]

/-- The bias row broadcast down the block, at row `p` and column `j`. -/
theorem bias_apply (v : FVec Ideal S1x4096 .f32) (p : Fin 256) (j : Fin 4096) :
    broadcastTo S256x4096 v broadcasts_S1x4096_S256x4096 (ix2 p j) = v (ix2 (0 : Fin 1) j) :=
  broadcastTo_apply v _ (ix2 p j) (ix2 (0 : Fin 1) j) (fun a => by match a with | ⟨0, _⟩ => rfl | ⟨1, _⟩ => rfl)

/-- A column group of the block's gates, at row `p` and column `q` of the group. -/
theorem group_apply (o : Nat) (ho : o + 1024 ≤ 4096) (g : FVec Ideal S256x4096 .f32) (h : (S256x4096).Slices ![0, o] S256x1024) (p : Fin 256) (q : Fin 1024) :
    extractStridedSlice S256x1024 ![0, o] g h (ix2 p q) = g (ix2 p (col o ho q)) :=
  extractStridedSlice_apply _ g h (ix2 p q) (ix2 p (col o ho q)) (fun a => by
    match a with | ⟨0, _⟩ => exact (Nat.zero_add _).symm | ⟨1, _⟩ => rfl)

/-- The gate pre-activations of the block. -/
theorem gate_block (x0 : Vec Ideal S256x1024 .f32) (x1 : Vec Ideal S256x1024 .f32) (x3 x4 : Vec Ideal S1024x4096 .bf16) (x5 : Vec Ideal S1x4096 .f32) (p : Fin 256) (j : Fin 4096) :
    k0_pay1 x0 x1 x3 x4 x5 (ix2 p j) = gateRow (fun k => x0 (ix2 p k)) (fun k => x1 (ix2 p k)) (fun k j => x3 (ix2 k j)) (fun k j => x4 (ix2 k j)) (fun j => x5 (ix2 (0 : Fin 1) j)) j := by
  unfold k0_pay1 gateRow
  simp only [shapeCast_self]
  refine (addf_apply _ _ _).trans ?_
  refine congrArg₂ (· + ·) ((addf_apply _ _ _).trans (congrArg₂ (· + ·) (dot_apply _ _ p j) (dot_apply _ _ p j))) (bias_apply _ p j)

/-- The new cell state of the block. -/
theorem cell_block (x0 : Vec Ideal S256x1024 .f32) (x1 x2 : Vec Ideal S256x1024 .f32) (x3 x4 : Vec Ideal S1024x4096 .bf16) (x5 : Vec Ideal S1x4096 .f32) (p : Fin 256) (q : Fin 1024) :
    k0_pay2 x0 x1 x3 x4 x5 x2 (ix2 p q) = cellRow (fun k => x0 (ix2 p k)) (fun k => x1 (ix2 p k)) (fun k => x2 (ix2 p k)) (fun k j => x3 (ix2 k j)) (fun k j => x4 (ix2 k j)) (fun j => x5 (ix2 (0 : Fin 1) j)) q := by
  unfold k0_pay2 cellRow
  simp only [shapeCast_self]
  show Ideal.logistic (extractStridedSlice S256x1024 ![0, 1024] (k0_pay1 x0 x1 x3 x4 x5) _ (ix2 p q)) * x2 (ix2 p q)
      + Ideal.logistic (extractStridedSlice S256x1024 ![0, 0] (k0_pay1 x0 x1 x3 x4 x5) _ (ix2 p q)) * Ideal.tanh (extractStridedSlice S256x1024 ![0, 2048] (k0_pay1 x0 x1 x3 x4 x5) _ (ix2 p q)) = _
  rw [group_apply 1024 (by norm_num), group_apply 0 (by norm_num), group_apply 2048 (by norm_num), gate_block, gate_block, gate_block]

/-- The new hidden state of the block. -/
theorem hid_block (x0 : Vec Ideal S256x1024 .f32) (x1 x2 : Vec Ideal S256x1024 .f32) (x3 x4 : Vec Ideal S1024x4096 .bf16) (x5 : Vec Ideal S1x4096 .f32) (p : Fin 256) (q : Fin 1024) :
    k0_pay3 x0 x1 x3 x4 x5 x2 (ix2 p q) = hidRow (fun k => x0 (ix2 p k)) (fun k => x1 (ix2 p k)) (fun k => x2 (ix2 p k)) (fun k j => x3 (ix2 k j)) (fun k j => x4 (ix2 k j)) (fun j => x5 (ix2 (0 : Fin 1) j)) q := by
  unfold k0_pay3 hidRow
  show Ideal.logistic (extractStridedSlice S256x1024 ![0, 3072] (k0_pay1 x0 x1 x3 x4 x5) _ (ix2 p q)) * Ideal.tanh (k0_pay2 x0 x1 x3 x4 x5 x2 (ix2 p q)) = _
  rw [group_apply 3072 (by norm_num), gate_block, cell_block]

/-- The second copy of the new hidden state, kept in the narrower format for the next layer: the same values. -/
theorem hidb_block (x0 : Vec Ideal S256x1024 .f32) (x1 x2 : Vec Ideal S256x1024 .f32) (x3 x4 : Vec Ideal S1024x4096 .bf16) (x5 : Vec Ideal S1x4096 .f32) (p : Fin 256) (q : Fin 1024) :
    k0_pay4 x0 x1 x3 x4 x5 x2 (ix2 p q) = hidRow (fun k => x0 (ix2 p k)) (fun k => x1 (ix2 p k)) (fun k => x2 (ix2 p k)) (fun k j => x3 (ix2 k j)) (fun k j => x4 (ix2 k j)) (fun j => x5 (ix2 (0 : Fin 1) j)) q := by
  unfold k0_pay4
  exact hid_block x0 x1 x2 x3 x4 x5 p q

end Cert.KernelIdeal.Pay0

end
-- ==== Proof.KIVal0.lean ====
import proofs.«125291_j75917841924156_2_alg».proof.Proof.KIRegion0
import proofs.«125291_j75917841924156_2_alg».proof.Proof.KIPay0

/-!
# Layer 0's call: what its three output arrays hold when it returns

Grid point `t` sees rows `256·t … 256·t + 255` of the layer input and of the previous states, and all of the weights
and the bias. What it writes back into rows `256·t …` of an output is therefore the specification's function of
those same rows of the arrays the call was entered with. The 16 points' blocks cover the 4096 rows, so each output
array ends as that function on every row.
-/

set_option maxRecDepth 16384

noncomputable section

namespace Cert.KernelIdeal.Hand

open Cert.KernelIdeal Cert.KernelIdeal.Gen Cert.LayerSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-! ## The windows' block indices, decided over the grid -/

theorem ix0_0_0 (t : Fin cfg0.N) : win0_0.index t (0 : Fin 2) = t.val := (by decide +kernel : ∀ t : Fin grid0.N, win0_0.index t (0 : Fin 2) = t.val) t
theorem ix0_0_1 (t : Fin cfg0.N) : win0_0.index t (1 : Fin 2) = 0 := (by decide +kernel : ∀ t : Fin grid0.N, win0_0.index t (1 : Fin 2) = 0) t
theorem ix0_1_0 (t : Fin cfg0.N) : win0_1.index t (0 : Fin 2) = t.val := (by decide +kernel : ∀ t : Fin grid0.N, win0_1.index t (0 : Fin 2) = t.val) t
theorem ix0_1_1 (t : Fin cfg0.N) : win0_1.index t (1 : Fin 2) = 0 := (by decide +kernel : ∀ t : Fin grid0.N, win0_1.index t (1 : Fin 2) = 0) t
theorem ix0_2_0 (t : Fin cfg0.N) : win0_2.index t (0 : Fin 2) = t.val := (by decide +kernel : ∀ t : Fin grid0.N, win0_2.index t (0 : Fin 2) = t.val) t
theorem ix0_2_1 (t : Fin cfg0.N) : win0_2.index t (1 : Fin 2) = 0 := (by decide +kernel : ∀ t : Fin grid0.N, win0_2.index t (1 : Fin 2) = 0) t
theorem ix0_6_0 (t : Fin cfg0.N) : win0_6.index t (0 : Fin 2) = t.val := (by decide +kernel : ∀ t : Fin grid0.N, win0_6.index t (0 : Fin 2) = t.val) t
theorem ix0_6_1 (t : Fin cfg0.N) : win0_6.index t (1 : Fin 2) = 0 := (by decide +kernel : ∀ t : Fin grid0.N, win0_6.index t (1 : Fin 2) = 0) t
theorem ix0_7_0 (t : Fin cfg0.N) : win0_7.index t (0 : Fin 2) = t.val := (by decide +kernel : ∀ t : Fin grid0.N, win0_7.index t (0 : Fin 2) = t.val) t
theorem ix0_7_1 (t : Fin cfg0.N) : win0_7.index t (1 : Fin 2) = 0 := (by decide +kernel : ∀ t : Fin grid0.N, win0_7.index t (1 : Fin 2) = 0) t
theorem ix0_8_0 (t : Fin cfg0.N) : win0_8.index t (0 : Fin 2) = t.val := (by decide +kernel : ∀ t : Fin grid0.N, win0_8.index t (0 : Fin 2) = t.val) t
theorem ix0_8_1 (t : Fin cfg0.N) : win0_8.index t (1 : Fin 2) = 0 := (by decide +kernel : ∀ t : Fin grid0.N, win0_8.index t (1 : Fin 2) = 0) t
theorem ix0_3_0 (t : Fin cfg0.N) : win0_3.index t (0 : Fin 2) = 0 := (by decide +kernel : ∀ t : Fin grid0.N, win0_3.index t (0 : Fin 2) = 0) t
theorem ix0_3_1 (t : Fin cfg0.N) : win0_3.index t (1 : Fin 2) = 0 := (by decide +kernel : ∀ t : Fin grid0.N, win0_3.index t (1 : Fin 2) = 0) t
theorem ix0_4_0 (t : Fin cfg0.N) : win0_4.index t (0 : Fin 2) = 0 := (by decide +kernel : ∀ t : Fin grid0.N, win0_4.index t (0 : Fin 2) = 0) t
theorem ix0_4_1 (t : Fin cfg0.N) : win0_4.index t (1 : Fin 2) = 0 := (by decide +kernel : ∀ t : Fin grid0.N, win0_4.index t (1 : Fin 2) = 0) t
theorem ix0_5_0 (t : Fin cfg0.N) : win0_5.index t (0 : Fin 2) = 0 := (by decide +kernel : ∀ t : Fin grid0.N, win0_5.index t (0 : Fin 2) = 0) t
theorem ix0_5_1 (t : Fin cfg0.N) : win0_5.index t (1 : Fin 2) = 0 := (by decide +kernel : ∀ t : Fin grid0.N, win0_5.index t (1 : Fin 2) = 0) t

/-! ## The input blocks, read off the entry arrays -/

/-- Row `p` of window 0's block at point `t` is row `256·t + p` of its array. -/
theorem row0_0 (c : Dev nD) (t : Fin cfg0.N) (p : Fin 256) (r : Fin 4096) (hr : r.val = t.val * 256 + p.val) :
    row (iblk0 V c 0 t) p = row (B := 4096) (V c main_arg0) r := by
  funext k
  show V c main_arg0 (((cfg0.win 0).blk t).view.emb (ix2 p k)) = V c main_arg0 (ix2 r k)
  refine congrArg _ (funext fun a => Fin.ext ?_)
  match a with
  | ⟨0, _⟩ => show win0_0.index t (0 : Fin 2) * 256 + 1 * p.val = r.val; rw [ix0_0_0, hr]; omega
  | ⟨1, _⟩ => show win0_0.index t (1 : Fin 2) * 1024 + 1 * k.val = k.val; rw [ix0_0_1]; omega
/-- Row `p` of window 1's block at point `t` is row `256·t + p` of its array. -/
theorem row0_1 (c : Dev nD) (t : Fin cfg0.N) (p : Fin 256) (r : Fin 4096) (hr : r.val = t.val * 256 + p.val) :
    row (iblk0 V c 1 t) p = row (B := 4096) (V c main_v1) r := by
  funext k
  show V c main_v1 (((cfg0.win 1).blk t).view.emb (ix2 p k)) = V c main_v1 (ix2 r k)
  refine congrArg _ (funext fun a => Fin.ext ?_)
  match a with
  | ⟨0, _⟩ => show win0_1.index t (0 : Fin 2) * 256 + 1 * p.val = r.val; rw [ix0_1_0, hr]; omega
  | ⟨1, _⟩ => show win0_1.index t (1 : Fin 2) * 1024 + 1 * k.val = k.val; rw [ix0_1_1]; omega
/-- Row `p` of window 2's block at point `t` is row `256·t + p` of its array. -/
theorem row0_2 (c : Dev nD) (t : Fin cfg0.N) (p : Fin 256) (r : Fin 4096) (hr : r.val = t.val * 256 + p.val) :
    row (iblk0 V c 2 t) p = row (B := 4096) (V c main_v3) r := by
  funext k
  show V c main_v3 (((cfg0.win 2).blk t).view.emb (ix2 p k)) = V c main_v3 (ix2 r k)
  refine congrArg _ (funext fun a => Fin.ext ?_)
  match a with
  | ⟨0, _⟩ => show win0_2.index t (0 : Fin 2) * 256 + 1 * p.val = r.val; rw [ix0_2_0, hr]; omega
  | ⟨1, _⟩ => show win0_2.index t (1 : Fin 2) * 1024 + 1 * k.val = k.val; rw [ix0_2_1]; omega
/-- Window 3 shows the whole of its array at every point. -/
theorem mat0_3 (c : Dev nD) (t : Fin cfg0.N) : mat (iblk0 V c 3 t) = mat (N := 4096) (V c main_v6) := by
  funext k j
  show V c main_v6 (((cfg0.win 3).blk t).view.emb (ix2 k j)) = V c main_v6 (ix2 k j)
  refine congrArg _ (funext fun a => Fin.ext ?_)
  match a with
  | ⟨0, _⟩ => show win0_3.index t (0 : Fin 2) * 1024 + 1 * k.val = k.val; rw [ix0_3_0]; omega
  | ⟨1, _⟩ => show win0_3.index t (1 : Fin 2) * 4096 + 1 * j.val = j.val; rw [ix0_3_1]; omega
/-- Window 4 shows the whole of its array at every point. -/
theorem mat0_4 (c : Dev nD) (t : Fin cfg0.N) : mat (iblk0 V c 4 t) = mat (N := 4096) (V c main_v9) := by
  funext k j
  show V c main_v9 (((cfg0.win 4).blk t).view.emb (ix2 k j)) = V c main_v9 (ix2 k j)
  refine congrArg _ (funext fun a => Fin.ext ?_)
  match a with
  | ⟨0, _⟩ => show win0_4.index t (0 : Fin 2) * 1024 + 1 * k.val = k.val; rw [ix0_4_0]; omega
  | ⟨1, _⟩ => show win0_4.index t (1 : Fin 2) * 4096 + 1 * j.val = j.val; rw [ix0_4_1]; omega
/-- Window 5 shows the whole of its one-row array at every point. -/
theorem vec0_5 (c : Dev nD) (t : Fin cfg0.N) : vec (iblk0 V c 5 t) = vec (N := 4096) (V c main_v15) := by
  funext j
  show V c main_v15 (((cfg0.win 5).blk t).view.emb (ix2 (0 : Fin 1) j)) = V c main_v15 (ix2 (0 : Fin 1) j)
  refine congrArg _ (funext fun a => Fin.ext ?_)
  match a with
  | ⟨0, _⟩ => show win0_5.index t (0 : Fin 2) * 1 + 1 * 0 = 0; rw [ix0_5_0]
  | ⟨1, _⟩ => show win0_5.index t (1 : Fin 2) * 4096 + 1 * j.val = j.val; rw [ix0_5_1]; omega

/-! ## What each point writes back, the cover, and the arrays when the call returns -/

/-- What point `t` writes back through output window 6: block `t` of the array function. -/
theorem flushed0_6 (c : Dev nD) (t : Fin cfg0.N) :
    (dat0 V c).flushed 6 t = ((cfg0.win 6).blk t).view.read (Elt Ideal) (hidArr (B := 4096) (V c main_arg0) (V c main_v1) (V c main_v3) (V c main_v6) (V c main_v9) (V c main_v15)) := by
  show (cfg0.win 6).cut (grid0.coords t) ((dat0 V c).after 6 t) = _
  rw [after0_6]
  unfold out0_6
  rw [View.canon_unit_zero hz0]
  simp only [View.ld_unit_zero (S := S256x1024) hz0, View.ld_unit_zero (S := S1024x4096) hz0, View.ld_unit_zero (S := S1x4096) hz0]
  funext y
  obtain ⟨p, q, rfl⟩ : ∃ (p : Fin 256) (q : Fin 1024), y = ix2 p q := ⟨y 0, y 1, eq_ix2 y⟩
  refine (Pay0.hid_block _ _ _ _ _ _ p q).trans ?_
  obtain ⟨r, hr⟩ : ∃ r : Fin 4096, r.val = t.val * 256 + p.val :=
    ⟨⟨t.val * 256 + p.val, by have h1 : t.val < 16 := lt_of_lt_of_eq t.isLt N_0; have h2 := p.isLt; omega⟩, rfl⟩
  have hemb : ((cfg0.win 6).blk t).view.emb (ix2 p q) = ix2 r q := by
    funext a; apply Fin.ext
    match a with
    | ⟨0, _⟩ => show win0_6.index t (0 : Fin 2) * 256 + 1 * p.val = r.val; rw [ix0_6_0, hr]; omega
    | ⟨1, _⟩ => show win0_6.index t (1 : Fin 2) * 1024 + 1 * q.val = q.val; rw [ix0_6_1]; omega
  show hidRow (row (iblk0 V c 0 t) p) (row (iblk0 V c 1 t) p) (row (iblk0 V c 2 t) p) (mat (iblk0 V c 3 t)) (mat (iblk0 V c 4 t)) (vec (iblk0 V c 5 t)) q = hidArr (B := 4096) (V c main_arg0) (V c main_v1) (V c main_v3) (V c main_v6) (V c main_v9) (V c main_v15) (((cfg0.win 6).blk t).view.emb (ix2 p q))
  rw [hemb, hidArr_apply, row0_0 V c t p r hr, row0_1 V c t p r hr, row0_2 V c t p r hr, mat0_3 V c t, mat0_4 V c t, vec0_5 V c t]

/-- An index of the array lies in point `t`'s block iff each coordinate lies in the block's range. -/
theorem mem_blk0_6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v16_0).slice (win0_6.rect t)).set ↔ _
  rw [View.set_slice_whole, Rect.mem_set_unit]
  exact Iff.rfl

/-- Output window 6's array when the call returns. -/
theorem final0_6 (c : Dev nD) : (dat0 V c).arrAt 6 cfg0.N = hidArr (B := 4096) (V c main_arg0) (V c main_v1) (V c main_v3) (V c main_v6) (V c main_v9) (V c main_v15) :=
  (dat0 V c).arrAt_eq_of_cover 6 _ (fun t _ => flushed0_6 V c t) fun i => by
    have hi0 : (i 0).val < 4096 := (i 0).isLt
    have hi1 : (i 1).val < 1024 := (i 1).isLt
    refine ⟨⟨(i 0).val / 256, by rw [show cfg0.N = 16 from N_0]; omega⟩, flush0_6 _, ?_⟩
    rw [mem_blk0_6]
    intro a
    match a with
    | ⟨0, _⟩ => show win0_6.index _ (0 : Fin 2) * 256 ≤ (i 0).val ∧ (i 0).val < win0_6.index _ (0 : Fin 2) * 256 + 256; rw [ix0_6_0]; show (i 0).val / 256 * 256 ≤ (i 0).val ∧ (i 0).val < (i 0).val / 256 * 256 + 256; omega
    | ⟨1, _⟩ => show win0_6.index _ (1 : Fin 2) * 1024 ≤ (i 1).val ∧ (i 1).val < win0_6.index _ (1 : Fin 2) * 1024 + 1024; rw [ix0_6_1]; omega

/-- What point `t` writes back through output window 7: block `t` of the array function. -/
theorem flushed0_7 (c : Dev nD) (t : Fin cfg0.N) :
    (dat0 V c).flushed 7 t = ((cfg0.win 7).blk t).view.read (Elt Ideal) (cellArr (B := 4096) (V c main_arg0) (V c main_v1) (V c main_v3) (V c main_v6) (V c main_v9) (V c main_v15)) := by
  show (cfg0.win 7).cut (grid0.coords t) ((dat0 V c).after 7 t) = _
  rw [after0_7]
  unfold out0_7
  rw [View.canon_unit_zero hz0]
  simp only [View.ld_unit_zero (S := S256x1024) hz0, View.ld_unit_zero (S := S1024x4096) hz0, View.ld_unit_zero (S := S1x4096) hz0]
  funext y
  obtain ⟨p, q, rfl⟩ : ∃ (p : Fin 256) (q : Fin 1024), y = ix2 p q := ⟨y 0, y 1, eq_ix2 y⟩
  refine (Pay0.cell_block _ _ _ _ _ _ p q).trans ?_
  obtain ⟨r, hr⟩ : ∃ r : Fin 4096, r.val = t.val * 256 + p.val :=
    ⟨⟨t.val * 256 + p.val, by have h1 : t.val < 16 := lt_of_lt_of_eq t.isLt N_0; have h2 := p.isLt; omega⟩, rfl⟩
  have hemb : ((cfg0.win 7).blk t).view.emb (ix2 p q) = ix2 r q := by
    funext a; apply Fin.ext
    match a with
    | ⟨0, _⟩ => show win0_7.index t (0 : Fin 2) * 256 + 1 * p.val = r.val; rw [ix0_7_0, hr]; omega
    | ⟨1, _⟩ => show win0_7.index t (1 : Fin 2) * 1024 + 1 * q.val = q.val; rw [ix0_7_1]; omega
  show cellRow (row (iblk0 V c 0 t) p) (row (iblk0 V c 1 t) p) (row (iblk0 V c 2 t) p) (mat (iblk0 V c 3 t)) (mat (iblk0 V c 4 t)) (vec (iblk0 V c 5 t)) q = cellArr (B := 4096) (V c main_arg0) (V c main_v1) (V c main_v3) (V c main_v6) (V c main_v9) (V c main_v15) (((cfg0.win 7).blk t).view.emb (ix2 p q))
  rw [hemb, cellArr_apply, row0_0 V c t p r hr, row0_1 V c t p r hr, row0_2 V c t p r hr, mat0_3 V c t, mat0_4 V c t, vec0_5 V c t]

/-- An index of the array lies in point `t`'s block iff each coordinate lies in the block's range. -/
theorem mem_blk0_7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v16_1).slice (win0_7.rect t)).set ↔ _
  rw [View.set_slice_whole, Rect.mem_set_unit]
  exact Iff.rfl

/-- Output window 7's array when the call returns. -/
theorem final0_7 (c : Dev nD) : (dat0 V c).arrAt 7 cfg0.N = cellArr (B := 4096) (V c main_arg0) (V c main_v1) (V c main_v3) (V c main_v6) (V c main_v9) (V c main_v15) :=
  (dat0 V c).arrAt_eq_of_cover 7 _ (fun t _ => flushed0_7 V c t) fun i => by
    have hi0 : (i 0).val < 4096 := (i 0).isLt
    have hi1 : (i 1).val < 1024 := (i 1).isLt
    refine ⟨⟨(i 0).val / 256, by rw [show cfg0.N = 16 from N_0]; omega⟩, flush0_7 _, ?_⟩
    rw [mem_blk0_7]
    intro a
    match a with
    | ⟨0, _⟩ => show win0_7.index _ (0 : Fin 2) * 256 ≤ (i 0).val ∧ (i 0).val < win0_7.index _ (0 : Fin 2) * 256 + 256; rw [ix0_7_0]; show (i 0).val / 256 * 256 ≤ (i 0).val ∧ (i 0).val < (i 0).val / 256 * 256 + 256; omega
    | ⟨1, _⟩ => show win0_7.index _ (1 : Fin 2) * 1024 ≤ (i 1).val ∧ (i 1).val < win0_7.index _ (1 : Fin 2) * 1024 + 1024; rw [ix0_7_1]; omega

/-- What point `t` writes back through output window 8: block `t` of the array function. -/
theorem flushed0_8 (c : Dev nD) (t : Fin cfg0.N) :
    (dat0 V c).flushed 8 t = ((cfg0.win 8).blk t).view.read (Elt Ideal) (hidArr (B := 4096) (V c main_arg0) (V c main_v1) (V c main_v3) (V c main_v6) (V c main_v9) (V c main_v15)) := by
  show (cfg0.win 8).cut (grid0.coords t) ((dat0 V c).after 8 t) = _
  rw [after0_8]
  unfold out0_8
  rw [View.canon_unit_zero hz0]
  simp only [View.ld_unit_zero (S := S256x1024) hz0, View.ld_unit_zero (S := S1024x4096) hz0, View.ld_unit_zero (S := S1x4096) hz0]
  funext y
  obtain ⟨p, q, rfl⟩ : ∃ (p : Fin 256) (q : Fin 1024), y = ix2 p q := ⟨y 0, y 1, eq_ix2 y⟩
  refine (Pay0.hidb_block _ _ _ _ _ _ p q).trans ?_
  obtain ⟨r, hr⟩ : ∃ r : Fin 4096, r.val = t.val * 256 + p.val :=
    ⟨⟨t.val * 256 + p.val, by have h1 : t.val < 16 := lt_of_lt_of_eq t.isLt N_0; have h2 := p.isLt; omega⟩, rfl⟩
  have hemb : ((cfg0.win 8).blk t).view.emb (ix2 p q) = ix2 r q := by
    funext a; apply Fin.ext
    match a with
    | ⟨0, _⟩ => show win0_8.index t (0 : Fin 2) * 256 + 1 * p.val = r.val; rw [ix0_8_0, hr]; omega
    | ⟨1, _⟩ => show win0_8.index t (1 : Fin 2) * 1024 + 1 * q.val = q.val; rw [ix0_8_1]; omega
  show hidRow (row (iblk0 V c 0 t) p) (row (iblk0 V c 1 t) p) (row (iblk0 V c 2 t) p) (mat (iblk0 V c 3 t)) (mat (iblk0 V c 4 t)) (vec (iblk0 V c 5 t)) q = hidArr (B := 4096) (V c main_arg0) (V c main_v1) (V c main_v3) (V c main_v6) (V c main_v9) (V c main_v15) (((cfg0.win 8).blk t).view.emb (ix2 p q))
  rw [hemb, hidArr_apply, row0_0 V c t p r hr, row0_1 V c t p r hr, row0_2 V c t p r hr, mat0_3 V c t, mat0_4 V c t, vec0_5 V c t]

/-- An index of the array lies in point `t`'s block iff each coordinate lies in the block's range. -/
theorem mem_blk0_8 (t : Fin cfg0.N) (i : S4096x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v16_2).slice (win0_8.rect t)).set ↔ _
  rw [View.set_slice_whole, Rect.mem_set_unit]
  exact Iff.rfl

/-- Output window 8's array when the call returns. -/
theorem final0_8 (c : Dev nD) : (dat0 V c).arrAt 8 cfg0.N = hidArr (B := 4096) (V c main_arg0) (V c main_v1) (V c main_v3) (V c main_v6) (V c main_v9) (V c main_v15) :=
  (dat0 V c).arrAt_eq_of_cover 8 _ (fun t _ => flushed0_8 V c t) fun i => by
    have hi0 : (i 0).val < 4096 := (i 0).isLt
    have hi1 : (i 1).val < 1024 := (i 1).isLt
    refine ⟨⟨(i 0).val / 256, by rw [show cfg0.N = 16 from N_0]; omega⟩, flush0_8 _, ?_⟩
    rw [mem_blk0_8]
    intro a
    match a with
    | ⟨0, _⟩ => show win0_8.index _ (0 : Fin 2) * 256 ≤ (i 0).val ∧ (i 0).val < win0_8.index _ (0 : Fin 2) * 256 + 256; rw [ix0_8_0]; show (i 0).val / 256 * 256 ≤ (i 0).val ∧ (i 0).val < (i 0).val / 256 * 256 + 256; omega
    | ⟨1, _⟩ => show win0_8.index _ (1 : Fin 2) * 1024 ≤ (i 1).val ∧ (i 1).val < win0_8.index _ (1 : Fin 2) * 1024 + 1024; rw [ix0_8_1]; omega

end Cert.KernelIdeal.Hand

end
-- ==== Proof.KIPay1.lean ====
import proofs.«125291_j75917841924156_2_alg».proof.Proof.Gen.KernelIdeal.Skeleton
import proofs.«125291_j75917841924156_2_alg».proof.Proof.LayerSpec
import Idealize.ShloMosaic.Lib.ValueIdx
import Idealize.ShloMosaic.Lib.Pipeline.Value
import Idealize.ShloMosaic.PureOps.Ideal.Laws

/-!
# Layer 1's body arithmetic at a block index

The body's values are pure functions of the blocks it loads. At row `p` of the block and a column, the gate
pre-activations are two sums over the contracted axis plus the bias entry; the cell and hidden values are the
specification's row functions of row `p` of the loaded blocks. The changes of float format are the identity on
the extended reals.
-/

noncomputable section

open scoped BigOperators

namespace Cert.KernelIdeal.Pay1

open Cert.KernelIdeal Cert.KernelIdeal.Gen Cert.LayerSpec
open Idealize.ShloMosaic Idealize.ShloMosaic.ValueIdx Idealize.ShloMosaic.TcCoe

/-- A block product with the weights into a zero accumulator, at row `p` and column `j`. -/
theorem dot_apply {φ : FTy} (x : FVec Ideal S256x1024 φ) (w : FVec Ideal S1024x4096 .bf16) (p : Fin 256) (j : Fin 4096) :
    matmul dot_S256x1024_S1024x4096_S256x4096_1_0_0_1_n_n none x w (constant (F := Ideal) S256x4096 .f32 0x00000000#32) (ix2 p j) = ∑ k : Fin 1024, x (ix2 p k) * w (ix2 k j) := by
  refine (Ideal.matmul_constant_zero_apply dot_S256x1024_S1024x4096_S256x4096_1_0_0_1_n_n none x w (ix2 p j)).trans ?_
  rw [← Equiv.sum_comp (contrEquiv1 dot_S256x1024_S1024x4096_S256x4096_1_0_0_1_n_n 1024 rfl rfl).symm]
  refine Finset.sum_congr rfl fun k _ => ?_
  have hl : (dot_S256x1024_S1024x4096_S256x4096_1_0_0_1_n_n).lhsIdx (ix2 p j) ((contrEquiv1 dot_S256x1024_S1024x4096_S256x4096_1_0_0_1_n_n 1024 rfl rfl).symm k) = ix2 p k := by
    funext a; apply Fin.ext
    match a with
    | ⟨0, _⟩ => rfl
    | ⟨1, _⟩ => exact ((dot_S256x1024_S1024x4096_S256x4096_1_0_0_1_n_n).lhsIdx_val_of_single (cl := (1 : Fin 2)) rfl (ix2 p j) _).trans (contrEquiv1_symm_val dot_S256x1024_S1024x4096_S256x4096_1_0_0_1_n_n 1024 rfl rfl k)
  have hr : (dot_S256x1024_S1024x4096_S256x4096_1_0_0_1_n_n).rhsIdx (ix2 p j) ((contrEquiv1 dot_S256x1024_S1024x4096_S256x4096_1_0_0_1_n_n 1024 rfl rfl).symm k) = ix2 k j := by
    funext a; apply Fin.ext
    match a with
    | ⟨0, _⟩ => exact ((dot_S256x1024_S1024x4096_S256x4096_1_0_0_1_n_n).rhsIdx_val_of_single (cr := (0 : Fin 2)) rfl (ix2 p j) _).trans (contrEquiv1_symm_val dot_S256x1024_S1024x4096_S256x4096_1_0_0_1_n_n 1024 rfl rfl k)
    | ⟨1, _⟩ => rfl
  rw [hl, hr]

/-- The bias row broadcast down the block, at row `p` and column `j`. -/
theorem bias_apply (v : FVec Ideal S1x4096 .f32) (p : Fin 256) (j : Fin 4096) :
    broadcastTo S256x4096 v broadcasts_S1x4096_S256x4096 (ix2 p j) = v (ix2 (0 : Fin 1) j) :=
  broadcastTo_apply v _ (ix2 p j) (ix2 (0 : Fin 1) j) (fun a => by match a with | ⟨0, _⟩ => rfl | ⟨1, _⟩ => rfl)

/-- A column group of the block's gates, at row `p` and column `q` of the group. -/
theorem group_apply (o : Nat) (ho : o + 1024 ≤ 4096) (g : FVec Ideal S256x4096 .f32) (h : (S256x4096).Slices ![0, o] S256x1024) (p : Fin 256) (q : Fin 1024) :
    extractStridedSlice S256x1024 ![0, o] g h (ix2 p q) = g (ix2 p (col o ho q)) :=
  extractStridedSlice_apply _ g h (ix2 p q) (ix2 p (col o ho q)) (fun a => by
    match a with | ⟨0, _⟩ => exact (Nat.zero_add _).symm | ⟨1, _⟩ => rfl)

/-- The gate pre-activations of the block. -/
theorem gate_block (x0 : Vec Ideal S256x1024 .bf16) (x1 : Vec Ideal S256x1024 .f32) (x3 x4 : Vec Ideal S1024x4096 .bf16) (x5 : Vec Ideal S1x4096 .f32) (p : Fin 256) (j : Fin 4096) :
    k1_pay1 x0 x1 x3 x4 x5 (ix2 p j) = gateRow (fun k => x0 (ix2 p k)) (fun k => x1 (ix2 p k)) (fun k j => x3 (ix2 k j)) (fun k j => x4 (ix2 k j)) (fun j => x5 (ix2 (0 : Fin 1) j)) j := by
  unfold k1_pay1 gateRow
  simp only [shapeCast_self]
  refine (addf_apply _ _ _).trans ?_
  refine congrArg₂ (· + ·) ((addf_apply _ _ _).trans (congrArg₂ (· + ·) (dot_apply _ _ p j) (dot_apply _ _ p j))) (bias_apply _ p j)

/-- The new cell state of the block. -/
theorem cell_block (x0 : Vec Ideal S256x1024 .bf16) (x1 x2 : Vec Ideal S256x1024 .f32) (x3 x4 : Vec Ideal S1024x4096 .bf16) (x5 : Vec Ideal S1x4096 .f32) (p : Fin 256) (q : Fin 1024) :
    k1_pay2 x0 x1 x3 x4 x5 x2 (ix2 p q) = cellRow (fun k => x0 (ix2 p k)) (fun k => x1 (ix2 p k)) (fun k => x2 (ix2 p k)) (fun k j => x3 (ix2 k j)) (fun k j => x4 (ix2 k j)) (fun j => x5 (ix2 (0 : Fin 1) j)) q := by
  unfold k1_pay2 cellRow
  simp only [shapeCast_self]
  show Ideal.logistic (extractStridedSlice S256x1024 ![0, 1024] (k1_pay1 x0 x1 x3 x4 x5) _ (ix2 p q)) * x2 (ix2 p q)
      + Ideal.logistic (extractStridedSlice S256x1024 ![0, 0] (k1_pay1 x0 x1 x3 x4 x5) _ (ix2 p q)) * Ideal.tanh (extractStridedSlice S256x1024 ![0, 2048] (k1_pay1 x0 x1 x3 x4 x5) _ (ix2 p q)) = _
  rw [group_apply 1024 (by norm_num), group_apply 0 (by norm_num), group_apply 2048 (by norm_num), gate_block, gate_block, gate_block]

/-- The new hidden state of the block. -/
theorem hid_block (x0 : Vec Ideal S256x1024 .bf16) (x1 x2 : Vec Ideal S256x1024 .f32) (x3 x4 : Vec Ideal S1024x4096 .bf16) (x5 : Vec Ideal S1x4096 .f32) (p : Fin 256) (q : Fin 1024) :
    k1_pay3 x0 x1 x3 x4 x5 x2 (ix2 p q) = hidRow (fun k => x0 (ix2 p k)) (fun k => x1 (ix2 p k)) (fun k => x2 (ix2 p k)) (fun k j => x3 (ix2 k j)) (fun k j => x4 (ix2 k j)) (fun j => x5 (ix2 (0 : Fin 1) j)) q := by
  unfold k1_pay3 hidRow
  show Ideal.logistic (extractStridedSlice S256x1024 ![0, 3072] (k1_pay1 x0 x1 x3 x4 x5) _ (ix2 p q)) * Ideal.tanh (k1_pay2 x0 x1 x3 x4 x5 x2 (ix2 p q)) = _
  rw [group_apply 3072 (by norm_num), gate_block, cell_block]

/-- The second copy of the new hidden state, kept in the narrower format for the next layer: the same values. -/
theorem hidb_block (x0 : Vec Ideal S256x1024 .bf16) (x1 x2 : Vec Ideal S256x1024 .f32) (x3 x4 : Vec Ideal S1024x4096 .bf16) (x5 : Vec Ideal S1x4096 .f32) (p : Fin 256) (q : Fin 1024) :
    k1_pay4 x0 x1 x3 x4 x5 x2 (ix2 p q) = hidRow (fun k => x0 (ix2 p k)) (fun k => x1 (ix2 p k)) (fun k => x2 (ix2 p k)) (fun k j => x3 (ix2 k j)) (fun k j => x4 (ix2 k j)) (fun j => x5 (ix2 (0 : Fin 1) j)) q := by
  unfold k1_pay4
  exact hid_block x0 x1 x2 x3 x4 x5 p q

end Cert.KernelIdeal.Pay1

end
-- ==== Proof.KIVal1.lean ====
import proofs.«125291_j75917841924156_2_alg».proof.Proof.KIRegion1
import proofs.«125291_j75917841924156_2_alg».proof.Proof.KIPay1

/-!
# Layer 1's call: what its three output arrays hold when it returns

Grid point `t` sees rows `256·t … 256·t + 255` of the layer input and of the previous states, and all of the weights
and the bias. What it writes back into rows `256·t …` of an output is therefore the specification's function of
those same rows of the arrays the call was entered with. The 16 points' blocks cover the 4096 rows, so each output
array ends as that function on every row.
-/

set_option maxRecDepth 16384

noncomputable section

namespace Cert.KernelIdeal.Hand

open Cert.KernelIdeal Cert.KernelIdeal.Gen Cert.LayerSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-! ## The windows' block indices, decided over the grid -/

theorem ix1_0_0 (t : Fin cfg1.N) : win1_0.index t (0 : Fin 2) = t.val := (by decide +kernel : ∀ t : Fin grid1.N, win1_0.index t (0 : Fin 2) = t.val) t
theorem ix1_0_1 (t : Fin cfg1.N) : win1_0.index t (1 : Fin 2) = 0 := (by decide +kernel : ∀ t : Fin grid1.N, win1_0.index t (1 : Fin 2) = 0) t
theorem ix1_1_0 (t : Fin cfg1.N) : win1_1.index t (0 : Fin 2) = t.val := (by decide +kernel : ∀ t : Fin grid1.N, win1_1.index t (0 : Fin 2) = t.val) t
theorem ix1_1_1 (t : Fin cfg1.N) : win1_1.index t (1 : Fin 2) = 0 := (by decide +kernel : ∀ t : Fin grid1.N, win1_1.index t (1 : Fin 2) = 0) t
theorem ix1_2_0 (t : Fin cfg1.N) : win1_2.index t (0 : Fin 2) = t.val := (by decide +kernel : ∀ t : Fin grid1.N, win1_2.index t (0 : Fin 2) = t.val) t
theorem ix1_2_1 (t : Fin cfg1.N) : win1_2.index t (1 : Fin 2) = 0 := (by decide +kernel : ∀ t : Fin grid1.N, win1_2.index t (1 : Fin 2) = 0) t
theorem ix1_6_0 (t : Fin cfg1.N) : win1_6.index t (0 : Fin 2) = t.val := (by decide +kernel : ∀ t : Fin grid1.N, win1_6.index t (0 : Fin 2) = t.val) t
theorem ix1_6_1 (t : Fin cfg1.N) : win1_6.index t (1 : Fin 2) = 0 := (by decide +kernel : ∀ t : Fin grid1.N, win1_6.index t (1 : Fin 2) = 0) t
theorem ix1_7_0 (t : Fin cfg1.N) : win1_7.index t (0 : Fin 2) = t.val := (by decide +kernel : ∀ t : Fin grid1.N, win1_7.index t (0 : Fin 2) = t.val) t
theorem ix1_7_1 (t : Fin cfg1.N) : win1_7.index t (1 : Fin 2) = 0 := (by decide +kernel : ∀ t : Fin grid1.N, win1_7.index t (1 : Fin 2) = 0) t
theorem ix1_8_0 (t : Fin cfg1.N) : win1_8.index t (0 : Fin 2) = t.val := (by decide +kernel : ∀ t : Fin grid1.N, win1_8.index t (0 : Fin 2) = t.val) t
theorem ix1_8_1 (t : Fin cfg1.N) : win1_8.index t (1 : Fin 2) = 0 := (by decide +kernel : ∀ t : Fin grid1.N, win1_8.index t (1 : Fin 2) = 0) t
theorem ix1_3_0 (t : Fin cfg1.N) : win1_3.index t (0 : Fin 2) = 0 := (by decide +kernel : ∀ t : Fin grid1.N, win1_3.index t (0 : Fin 2) = 0) t
theorem ix1_3_1 (t : Fin cfg1.N) : win1_3.index t (1 : Fin 2) = 0 := (by decide +kernel : ∀ t : Fin grid1.N, win1_3.index t (1 : Fin 2) = 0) t
theorem ix1_4_0 (t : Fin cfg1.N) : win1_4.index t (0 : Fin 2) = 0 := (by decide +kernel : ∀ t : Fin grid1.N, win1_4.index t (0 : Fin 2) = 0) t
theorem ix1_4_1 (t : Fin cfg1.N) : win1_4.index t (1 : Fin 2) = 0 := (by decide +kernel : ∀ t : Fin grid1.N, win1_4.index t (1 : Fin 2) = 0) t
theorem ix1_5_0 (t : Fin cfg1.N) : win1_5.index t (0 : Fin 2) = 0 := (by decide +kernel : ∀ t : Fin grid1.N, win1_5.index t (0 : Fin 2) = 0) t
theorem ix1_5_1 (t : Fin cfg1.N) : win1_5.index t (1 : Fin 2) = 0 := (by decide +kernel : ∀ t : Fin grid1.N, win1_5.index t (1 : Fin 2) = 0) t

/-! ## The input blocks, read off the entry arrays -/

/-- Row `p` of window 0's block at point `t` is row `256·t + p` of its array. -/
theorem row1_0 (c : Dev nD) (t : Fin cfg1.N) (p : Fin 256) (r : Fin 4096) (hr : r.val = t.val * 256 + p.val) :
    row (iblk1 V c 0 t) p = row (B := 4096) (V c main_v16_2) r := by
  funext k
  show V c main_v16_2 (((cfg1.win 0).blk t).view.emb (ix2 p k)) = V c main_v16_2 (ix2 r k)
  refine congrArg _ (funext fun a => Fin.ext ?_)
  match a with
  | ⟨0, _⟩ => show win1_0.index t (0 : Fin 2) * 256 + 1 * p.val = r.val; rw [ix1_0_0, hr]; omega
  | ⟨1, _⟩ => show win1_0.index t (1 : Fin 2) * 1024 + 1 * k.val = k.val; rw [ix1_0_1]; omega
/-- Row `p` of window 1's block at point `t` is row `256·t + p` of its array. -/
theorem row1_1 (c : Dev nD) (t : Fin cfg1.N) (p : Fin 256) (r : Fin 4096) (hr : r.val = t.val * 256 + p.val) :
    row (iblk1 V c 1 t) p = row (B := 4096) (V c main_v18) r := by
  funext k
  show V c main_v18 (((cfg1.win 1).blk t).view.emb (ix2 p k)) = V c main_v18 (ix2 r k)
  refine congrArg _ (funext fun a => Fin.ext ?_)
  match a with
  | ⟨0, _⟩ => show win1_1.index t (0 : Fin 2) * 256 + 1 * p.val = r.val; rw [ix1_1_0, hr]; omega
  | ⟨1, _⟩ => show win1_1.index t (1 : Fin 2) * 1024 + 1 * k.val = k.val; rw [ix1_1_1]; omega
/-- Row `p` of window 2's block at point `t` is row `256·t + p` of its array. -/
theorem row1_2 (c : Dev nD) (t : Fin cfg1.N) (p : Fin 256) (r : Fin 4096) (hr : r.val = t.val * 256 + p.val) :
    row (iblk1 V c 2 t) p = row (B := 4096) (V c main_v20) r := by
  funext k
  show V c main_v20 (((cfg1.win 2).blk t).view.emb (ix2 p k)) = V c main_v20 (ix2 r k)
  refine congrArg _ (funext fun a => Fin.ext ?_)
  match a with
  | ⟨0, _⟩ => show win1_2.index t (0 : Fin 2) * 256 + 1 * p.val = r.val; rw [ix1_2_0, hr]; omega
  | ⟨1, _⟩ => show win1_2.index t (1 : Fin 2) * 1024 + 1 * k.val = k.val; rw [ix1_2_1]; omega
/-- Window 3 shows the whole of its array at every point. -/
theorem mat1_3 (c : Dev nD) (t : Fin cfg1.N) : mat (iblk1 V c 3 t) = mat (N := 4096) (V c main_v23) := by
  funext k j
  show V c main_v23 (((cfg1.win 3).blk t).view.emb (ix2 k j)) = V c main_v23 (ix2 k j)
  refine congrArg _ (funext fun a => Fin.ext ?_)
  match a with
  | ⟨0, _⟩ => show win1_3.index t (0 : Fin 2) * 1024 + 1 * k.val = k.val; rw [ix1_3_0]; omega
  | ⟨1, _⟩ => show win1_3.index t (1 : Fin 2) * 4096 + 1 * j.val = j.val; rw [ix1_3_1]; omega
/-- Window 4 shows the whole of its array at every point. -/
theorem mat1_4 (c : Dev nD) (t : Fin cfg1.N) : mat (iblk1 V c 4 t) = mat (N := 4096) (V c main_v26) := by
  funext k j
  show V c main_v26 (((cfg1.win 4).blk t).view.emb (ix2 k j)) = V c main_v26 (ix2 k j)
  refine congrArg _ (funext fun a => Fin.ext ?_)
  match a with
  | ⟨0, _⟩ => show win1_4.index t (0 : Fin 2) * 1024 + 1 * k.val = k.val; rw [ix1_4_0]; omega
  | ⟨1, _⟩ => show win1_4.index t (1 : Fin 2) * 4096 + 1 * j.val = j.val; rw [ix1_4_1]; omega
/-- Window 5 shows the whole of its one-row array at every point. -/
theorem vec1_5 (c : Dev nD) (t : Fin cfg1.N) : vec (iblk1 V c 5 t) = vec (N := 4096) (V c main_v32) := by
  funext j
  show V c main_v32 (((cfg1.win 5).blk t).view.emb (ix2 (0 : Fin 1) j)) = V c main_v32 (ix2 (0 : Fin 1) j)
  refine congrArg _ (funext fun a => Fin.ext ?_)
  match a with
  | ⟨0, _⟩ => show win1_5.index t (0 : Fin 2) * 1 + 1 * 0 = 0; rw [ix1_5_0]
  | ⟨1, _⟩ => show win1_5.index t (1 : Fin 2) * 4096 + 1 * j.val = j.val; rw [ix1_5_1]; omega

/-! ## What each point writes back, the cover, and the arrays when the call returns -/

/-- What point `t` writes back through output window 6: block `t` of the array function. -/
theorem flushed1_6 (c : Dev nD) (t : Fin cfg1.N) :
    (dat1 V c).flushed 6 t = ((cfg1.win 6).blk t).view.read (Elt Ideal) (hidArr (B := 4096) (V c main_v16_2) (V c main_v18) (V c main_v20) (V c main_v23) (V c main_v26) (V c main_v32)) := by
  show (cfg1.win 6).cut (grid1.coords t) ((dat1 V c).after 6 t) = _
  rw [after1_6]
  unfold out1_6
  rw [View.canon_unit_zero hz1]
  simp only [View.ld_unit_zero (S := S256x1024) hz1, View.ld_unit_zero (S := S1024x4096) hz1, View.ld_unit_zero (S := S1x4096) hz1]
  funext y
  obtain ⟨p, q, rfl⟩ : ∃ (p : Fin 256) (q : Fin 1024), y = ix2 p q := ⟨y 0, y 1, eq_ix2 y⟩
  refine (Pay1.hid_block _ _ _ _ _ _ p q).trans ?_
  obtain ⟨r, hr⟩ : ∃ r : Fin 4096, r.val = t.val * 256 + p.val :=
    ⟨⟨t.val * 256 + p.val, by have h1 : t.val < 16 := lt_of_lt_of_eq t.isLt N_1; have h2 := p.isLt; omega⟩, rfl⟩
  have hemb : ((cfg1.win 6).blk t).view.emb (ix2 p q) = ix2 r q := by
    funext a; apply Fin.ext
    match a with
    | ⟨0, _⟩ => show win1_6.index t (0 : Fin 2) * 256 + 1 * p.val = r.val; rw [ix1_6_0, hr]; omega
    | ⟨1, _⟩ => show win1_6.index t (1 : Fin 2) * 1024 + 1 * q.val = q.val; rw [ix1_6_1]; omega
  show hidRow (row (iblk1 V c 0 t) p) (row (iblk1 V c 1 t) p) (row (iblk1 V c 2 t) p) (mat (iblk1 V c 3 t)) (mat (iblk1 V c 4 t)) (vec (iblk1 V c 5 t)) q = hidArr (B := 4096) (V c main_v16_2) (V c main_v18) (V c main_v20) (V c main_v23) (V c main_v26) (V c main_v32) (((cfg1.win 6).blk t).view.emb (ix2 p q))
  rw [hemb, hidArr_apply, row1_0 V c t p r hr, row1_1 V c t p r hr, row1_2 V c t p r hr, mat1_3 V c t, mat1_4 V c t, vec1_5 V c t]

/-- An index of the array lies in point `t`'s block iff each coordinate lies in the block's range. -/
theorem mem_blk1_6 (t : Fin cfg1.N) (i : S4096x1024.Idx) :
    i ∈ ((cfg1.win 6).blk t).view.set ↔ ∀ a : Fin 2, win1_6.index t a * S256x1024.size a ≤ (i a).val ∧ (i a).val < win1_6.index t a * S256x1024.size a + S256x1024.size a := by
  show i ∈ ((View.whole main_v33_0).slice (win1_6.rect t)).set ↔ _
  rw [View.set_slice_whole, Rect.mem_set_unit]
  exact Iff.rfl

/-- Output window 6's array when the call returns. -/
theorem final1_6 (c : Dev nD) : (dat1 V c).arrAt 6 cfg1.N = hidArr (B := 4096) (V c main_v16_2) (V c main_v18) (V c main_v20) (V c main_v23) (V c main_v26) (V c main_v32) :=
  (dat1 V c).arrAt_eq_of_cover 6 _ (fun t _ => flushed1_6 V c t) fun i => by
    have hi0 : (i 0).val < 4096 := (i 0).isLt
    have hi1 : (i 1).val < 1024 := (i 1).isLt
    refine ⟨⟨(i 0).val / 256, by rw [show cfg1.N = 16 from N_1]; omega⟩, flush1_6 _, ?_⟩
    rw [mem_blk1_6]
    intro a
    match a with
    | ⟨0, _⟩ => show win1_6.index _ (0 : Fin 2) * 256 ≤ (i 0).val ∧ (i 0).val < win1_6.index _ (0 : Fin 2) * 256 + 256; rw [ix1_6_0]; show (i 0).val / 256 * 256 ≤ (i 0).val ∧ (i 0).val < (i 0).val / 256 * 256 + 256; omega
    | ⟨1, _⟩ => show win1_6.index _ (1 : Fin 2) * 1024 ≤ (i 1).val ∧ (i 1).val < win1_6.index _ (1 : Fin 2) * 1024 + 1024; rw [ix1_6_1]; omega

/-- What point `t` writes back through output window 7: block `t` of the array function. -/
theorem flushed1_7 (c : Dev nD) (t : Fin cfg1.N) :
    (dat1 V c).flushed 7 t = ((cfg1.win 7).blk t).view.read (Elt Ideal) (cellArr (B := 4096) (V c main_v16_2) (V c main_v18) (V c main_v20) (V c main_v23) (V c main_v26) (V c main_v32)) := by
  show (cfg1.win 7).cut (grid1.coords t) ((dat1 V c).after 7 t) = _
  rw [after1_7]
  unfold out1_7
  rw [View.canon_unit_zero hz1]
  simp only [View.ld_unit_zero (S := S256x1024) hz1, View.ld_unit_zero (S := S1024x4096) hz1, View.ld_unit_zero (S := S1x4096) hz1]
  funext y
  obtain ⟨p, q, rfl⟩ : ∃ (p : Fin 256) (q : Fin 1024), y = ix2 p q := ⟨y 0, y 1, eq_ix2 y⟩
  refine (Pay1.cell_block _ _ _ _ _ _ p q).trans ?_
  obtain ⟨r, hr⟩ : ∃ r : Fin 4096, r.val = t.val * 256 + p.val :=
    ⟨⟨t.val * 256 + p.val, by have h1 : t.val < 16 := lt_of_lt_of_eq t.isLt N_1; have h2 := p.isLt; omega⟩, rfl⟩
  have hemb : ((cfg1.win 7).blk t).view.emb (ix2 p q) = ix2 r q := by
    funext a; apply Fin.ext
    match a with
    | ⟨0, _⟩ => show win1_7.index t (0 : Fin 2) * 256 + 1 * p.val = r.val; rw [ix1_7_0, hr]; omega
    | ⟨1, _⟩ => show win1_7.index t (1 : Fin 2) * 1024 + 1 * q.val = q.val; rw [ix1_7_1]; omega
  show cellRow (row (iblk1 V c 0 t) p) (row (iblk1 V c 1 t) p) (row (iblk1 V c 2 t) p) (mat (iblk1 V c 3 t)) (mat (iblk1 V c 4 t)) (vec (iblk1 V c 5 t)) q = cellArr (B := 4096) (V c main_v16_2) (V c main_v18) (V c main_v20) (V c main_v23) (V c main_v26) (V c main_v32) (((cfg1.win 7).blk t).view.emb (ix2 p q))
  rw [hemb, cellArr_apply, row1_0 V c t p r hr, row1_1 V c t p r hr, row1_2 V c t p r hr, mat1_3 V c t, mat1_4 V c t, vec1_5 V c t]

/-- An index of the array lies in point `t`'s block iff each coordinate lies in the block's range. -/
theorem mem_blk1_7 (t : Fin cfg1.N) (i : S4096x1024.Idx) :
    i ∈ ((cfg1.win 7).blk t).view.set ↔ ∀ a : Fin 2, win1_7.index t a * S256x1024.size a ≤ (i a).val ∧ (i a).val < win1_7.index t a * S256x1024.size a + S256x1024.size a := by
  show i ∈ ((View.whole main_v33_1).slice (win1_7.rect t)).set ↔ _
  rw [View.set_slice_whole, Rect.mem_set_unit]
  exact Iff.rfl

/-- Output window 7's array when the call returns. -/
theorem final1_7 (c : Dev nD) : (dat1 V c).arrAt 7 cfg1.N = cellArr (B := 4096) (V c main_v16_2) (V c main_v18) (V c main_v20) (V c main_v23) (V c main_v26) (V c main_v32) :=
  (dat1 V c).arrAt_eq_of_cover 7 _ (fun t _ => flushed1_7 V c t) fun i => by
    have hi0 : (i 0).val < 4096 := (i 0).isLt
    have hi1 : (i 1).val < 1024 := (i 1).isLt
    refine ⟨⟨(i 0).val / 256, by rw [show cfg1.N = 16 from N_1]; omega⟩, flush1_7 _, ?_⟩
    rw [mem_blk1_7]
    intro a
    match a with
    | ⟨0, _⟩ => show win1_7.index _ (0 : Fin 2) * 256 ≤ (i 0).val ∧ (i 0).val < win1_7.index _ (0 : Fin 2) * 256 + 256; rw [ix1_7_0]; show (i 0).val / 256 * 256 ≤ (i 0).val ∧ (i 0).val < (i 0).val / 256 * 256 + 256; omega
    | ⟨1, _⟩ => show win1_7.index _ (1 : Fin 2) * 1024 ≤ (i 1).val ∧ (i 1).val < win1_7.index _ (1 : Fin 2) * 1024 + 1024; rw [ix1_7_1]; omega

/-- What point `t` writes back through output window 8: block `t` of the array function. -/
theorem flushed1_8 (c : Dev nD) (t : Fin cfg1.N) :
    (dat1 V c).flushed 8 t = ((cfg1.win 8).blk t).view.read (Elt Ideal) (hidArr (B := 4096) (V c main_v16_2) (V c main_v18) (V c main_v20) (V c main_v23) (V c main_v26) (V c main_v32)) := by
  show (cfg1.win 8).cut (grid1.coords t) ((dat1 V c).after 8 t) = _
  rw [after1_8]
  unfold out1_8
  rw [View.canon_unit_zero hz1]
  simp only [View.ld_unit_zero (S := S256x1024) hz1, View.ld_unit_zero (S := S1024x4096) hz1, View.ld_unit_zero (S := S1x4096) hz1]
  funext y
  obtain ⟨p, q, rfl⟩ : ∃ (p : Fin 256) (q : Fin 1024), y = ix2 p q := ⟨y 0, y 1, eq_ix2 y⟩
  refine (Pay1.hidb_block _ _ _ _ _ _ p q).trans ?_
  obtain ⟨r, hr⟩ : ∃ r : Fin 4096, r.val = t.val * 256 + p.val :=
    ⟨⟨t.val * 256 + p.val, by have h1 : t.val < 16 := lt_of_lt_of_eq t.isLt N_1; have h2 := p.isLt; omega⟩, rfl⟩
  have hemb : ((cfg1.win 8).blk t).view.emb (ix2 p q) = ix2 r q := by
    funext a; apply Fin.ext
    match a with
    | ⟨0, _⟩ => show win1_8.index t (0 : Fin 2) * 256 + 1 * p.val = r.val; rw [ix1_8_0, hr]; omega
    | ⟨1, _⟩ => show win1_8.index t (1 : Fin 2) * 1024 + 1 * q.val = q.val; rw [ix1_8_1]; omega
  show hidRow (row (iblk1 V c 0 t) p) (row (iblk1 V c 1 t) p) (row (iblk1 V c 2 t) p) (mat (iblk1 V c 3 t)) (mat (iblk1 V c 4 t)) (vec (iblk1 V c 5 t)) q = hidArr (B := 4096) (V c main_v16_2) (V c main_v18) (V c main_v20) (V c main_v23) (V c main_v26) (V c main_v32) (((cfg1.win 8).blk t).view.emb (ix2 p q))
  rw [hemb, hidArr_apply, row1_0 V c t p r hr, row1_1 V c t p r hr, row1_2 V c t p r hr, mat1_3 V c t, mat1_4 V c t, vec1_5 V c t]

/-- An index of the array lies in point `t`'s block iff each coordinate lies in the block's range. -/
theorem mem_blk1_8 (t : Fin cfg1.N) (i : S4096x1024.Idx) :
    i ∈ ((cfg1.win 8).blk t).view.set ↔ ∀ a : Fin 2, win1_8.index t a * S256x1024.size a ≤ (i a).val ∧ (i a).val < win1_8.index t a * S256x1024.size a + S256x1024.size a := by
  show i ∈ ((View.whole main_v33_2).slice (win1_8.rect t)).set ↔ _
  rw [View.set_slice_whole, Rect.mem_set_unit]
  exact Iff.rfl

/-- Output window 8's array when the call returns. -/
theorem final1_8 (c : Dev nD) : (dat1 V c).arrAt 8 cfg1.N = hidArr (B := 4096) (V c main_v16_2) (V c main_v18) (V c main_v20) (V c main_v23) (V c main_v26) (V c main_v32) :=
  (dat1 V c).arrAt_eq_of_cover 8 _ (fun t _ => flushed1_8 V c t) fun i => by
    have hi0 : (i 0).val < 4096 := (i 0).isLt
    have hi1 : (i 1).val < 1024 := (i 1).isLt
    refine ⟨⟨(i 0).val / 256, by rw [show cfg1.N = 16 from N_1]; omega⟩, flush1_8 _, ?_⟩
    rw [mem_blk1_8]
    intro a
    match a with
    | ⟨0, _⟩ => show win1_8.index _ (0 : Fin 2) * 256 ≤ (i 0).val ∧ (i 0).val < win1_8.index _ (0 : Fin 2) * 256 + 256; rw [ix1_8_0]; show (i 0).val / 256 * 256 ≤ (i 0).val ∧ (i 0).val < (i 0).val / 256 * 256 + 256; omega
    | ⟨1, _⟩ => show win1_8.index _ (1 : Fin 2) * 1024 ≤ (i 1).val ∧ (i 1).val < win1_8.index _ (1 : Fin 2) * 1024 + 1024; rw [ix1_8_1]; omega

end Cert.KernelIdeal.Hand

end
-- ==== Proof.KIPay2.lean ====
import proofs.«125291_j75917841924156_2_alg».proof.Proof.Gen.KernelIdeal.Skeleton
import proofs.«125291_j75917841924156_2_alg».proof.Proof.LayerSpec
import Idealize.ShloMosaic.Lib.ValueIdx
import Idealize.ShloMosaic.Lib.Pipeline.Value
import Idealize.ShloMosaic.PureOps.Ideal.Laws

/-!
# Layer 2's body arithmetic at a block index

The body's values are pure functions of the blocks it loads. At row `p` of the block and a column, the gate
pre-activations are two sums over the contracted axis plus the bias entry; the cell and hidden values are the
specification's row functions of row `p` of the loaded blocks. The changes of float format are the identity on
the extended reals.
-/

noncomputable section

open scoped BigOperators

namespace Cert.KernelIdeal.Pay2

open Cert.KernelIdeal Cert.KernelIdeal.Gen Cert.LayerSpec
open Idealize.ShloMosaic Idealize.ShloMosaic.ValueIdx Idealize.ShloMosaic.TcCoe

/-- A block product with the weights into a zero accumulator, at row `p` and column `j`. -/
theorem dot_apply {φ : FTy} (x : FVec Ideal S256x1024 φ) (w : FVec Ideal S1024x4096 .bf16) (p : Fin 256) (j : Fin 4096) :
    matmul dot_S256x1024_S1024x4096_S256x4096_1_0_0_1_n_n none x w (constant (F := Ideal) S256x4096 .f32 0x00000000#32) (ix2 p j) = ∑ k : Fin 1024, x (ix2 p k) * w (ix2 k j) := by
  refine (Ideal.matmul_constant_zero_apply dot_S256x1024_S1024x4096_S256x4096_1_0_0_1_n_n none x w (ix2 p j)).trans ?_
  rw [← Equiv.sum_comp (contrEquiv1 dot_S256x1024_S1024x4096_S256x4096_1_0_0_1_n_n 1024 rfl rfl).symm]
  refine Finset.sum_congr rfl fun k _ => ?_
  have hl : (dot_S256x1024_S1024x4096_S256x4096_1_0_0_1_n_n).lhsIdx (ix2 p j) ((contrEquiv1 dot_S256x1024_S1024x4096_S256x4096_1_0_0_1_n_n 1024 rfl rfl).symm k) = ix2 p k := by
    funext a; apply Fin.ext
    match a with
    | ⟨0, _⟩ => rfl
    | ⟨1, _⟩ => exact ((dot_S256x1024_S1024x4096_S256x4096_1_0_0_1_n_n).lhsIdx_val_of_single (cl := (1 : Fin 2)) rfl (ix2 p j) _).trans (contrEquiv1_symm_val dot_S256x1024_S1024x4096_S256x4096_1_0_0_1_n_n 1024 rfl rfl k)
  have hr : (dot_S256x1024_S1024x4096_S256x4096_1_0_0_1_n_n).rhsIdx (ix2 p j) ((contrEquiv1 dot_S256x1024_S1024x4096_S256x4096_1_0_0_1_n_n 1024 rfl rfl).symm k) = ix2 k j := by
    funext a; apply Fin.ext
    match a with
    | ⟨0, _⟩ => exact ((dot_S256x1024_S1024x4096_S256x4096_1_0_0_1_n_n).rhsIdx_val_of_single (cr := (0 : Fin 2)) rfl (ix2 p j) _).trans (contrEquiv1_symm_val dot_S256x1024_S1024x4096_S256x4096_1_0_0_1_n_n 1024 rfl rfl k)
    | ⟨1, _⟩ => rfl
  rw [hl, hr]

/-- The bias row broadcast down the block, at row `p` and column `j`. -/
theorem bias_apply (v : FVec Ideal S1x4096 .f32) (p : Fin 256) (j : Fin 4096) :
    broadcastTo S256x4096 v broadcasts_S1x4096_S256x4096 (ix2 p j) = v (ix2 (0 : Fin 1) j) :=
  broadcastTo_apply v _ (ix2 p j) (ix2 (0 : Fin 1) j) (fun a => by match a with | ⟨0, _⟩ => rfl | ⟨1, _⟩ => rfl)

/-- A column group of the block's gates, at row `p` and column `q` of the group. -/
theorem group_apply (o : Nat) (ho : o + 1024 ≤ 4096) (g : FVec Ideal S256x4096 .f32) (h : (S256x4096).Slices ![0, o] S256x1024) (p : Fin 256) (q : Fin 1024) :
    extractStridedSlice S256x1024 ![0, o] g h (ix2 p q) = g (ix2 p (col o ho q)) :=
  extractStridedSlice_apply _ g h (ix2 p q) (ix2 p (col o ho q)) (fun a => by
    match a with | ⟨0, _⟩ => exact (Nat.zero_add _).symm | ⟨1, _⟩ => rfl)

/-- The gate pre-activations of the block. -/
theorem gate_block (x0 : Vec Ideal S256x1024 .bf16) (x1 : Vec Ideal S256x1024 .f32) (x3 x4 : Vec Ideal S1024x4096 .bf16) (x5 : Vec Ideal S1x4096 .f32) (p : Fin 256) (j : Fin 4096) :
    k2_pay1 x0 x1 x3 x4 x5 (ix2 p j) = gateRow (fun k => x0 (ix2 p k)) (fun k => x1 (ix2 p k)) (fun k j => x3 (ix2 k j)) (fun k j => x4 (ix2 k j)) (fun j => x5 (ix2 (0 : Fin 1) j)) j := by
  unfold k2_pay1 gateRow
  simp only [shapeCast_self]
  refine (addf_apply _ _ _).trans ?_
  refine congrArg₂ (· + ·) ((addf_apply _ _ _).trans (congrArg₂ (· + ·) (dot_apply _ _ p j) (dot_apply _ _ p j))) (bias_apply _ p j)

/-- The new cell state of the block. -/
theorem cell_block (x0 : Vec Ideal S256x1024 .bf16) (x1 x2 : Vec Ideal S256x1024 .f32) (x3 x4 : Vec Ideal S1024x4096 .bf16) (x5 : Vec Ideal S1x4096 .f32) (p : Fin 256) (q : Fin 1024) :
    k2_pay2 x0 x1 x3 x4 x5 x2 (ix2 p q) = cellRow (fun k => x0 (ix2 p k)) (fun k => x1 (ix2 p k)) (fun k => x2 (ix2 p k)) (fun k j => x3 (ix2 k j)) (fun k j => x4 (ix2 k j)) (fun j => x5 (ix2 (0 : Fin 1) j)) q := by
  unfold k2_pay2 cellRow
  simp only [shapeCast_self]
  show Ideal.logistic (extractStridedSlice S256x1024 ![0, 1024] (k2_pay1 x0 x1 x3 x4 x5) _ (ix2 p q)) * x2 (ix2 p q)
      + Ideal.logistic (extractStridedSlice S256x1024 ![0, 0] (k2_pay1 x0 x1 x3 x4 x5) _ (ix2 p q)) * Ideal.tanh (extractStridedSlice S256x1024 ![0, 2048] (k2_pay1 x0 x1 x3 x4 x5) _ (ix2 p q)) = _
  rw [group_apply 1024 (by norm_num), group_apply 0 (by norm_num), group_apply 2048 (by norm_num), gate_block, gate_block, gate_block]

/-- The new hidden state of the block. -/
theorem hid_block (x0 : Vec Ideal S256x1024 .bf16) (x1 x2 : Vec Ideal S256x1024 .f32) (x3 x4 : Vec Ideal S1024x4096 .bf16) (x5 : Vec Ideal S1x4096 .f32) (p : Fin 256) (q : Fin 1024) :
    k2_pay3 x0 x1 x3 x4 x5 x2 (ix2 p q) = hidRow (fun k => x0 (ix2 p k)) (fun k => x1 (ix2 p k)) (fun k => x2 (ix2 p k)) (fun k j => x3 (ix2 k j)) (fun k j => x4 (ix2 k j)) (fun j => x5 (ix2 (0 : Fin 1) j)) q := by
  unfold k2_pay3 hidRow
  show Ideal.logistic (extractStridedSlice S256x1024 ![0, 3072] (k2_pay1 x0 x1 x3 x4 x5) _ (ix2 p q)) * Ideal.tanh (k2_pay2 x0 x1 x3 x4 x5 x2 (ix2 p q)) = _
  rw [group_apply 3072 (by norm_num), gate_block, cell_block]

/-- The second copy of the new hidden state, kept in the narrower format for the next layer: the same values. -/
theorem hidb_block (x0 : Vec Ideal S256x1024 .bf16) (x1 x2 : Vec Ideal S256x1024 .f32) (x3 x4 : Vec Ideal S1024x4096 .bf16) (x5 : Vec Ideal S1x4096 .f32) (p : Fin 256) (q : Fin 1024) :
    k2_pay4 x0 x1 x3 x4 x5 x2 (ix2 p q) = hidRow (fun k => x0 (ix2 p k)) (fun k => x1 (ix2 p k)) (fun k => x2 (ix2 p k)) (fun k j => x3 (ix2 k j)) (fun k j => x4 (ix2 k j)) (fun j => x5 (ix2 (0 : Fin 1) j)) q := by
  unfold k2_pay4
  exact hid_block x0 x1 x2 x3 x4 x5 p q

end Cert.KernelIdeal.Pay2

end
-- ==== Proof.KIVal2.lean ====
import proofs.«125291_j75917841924156_2_alg».proof.Proof.KIRegion2
import proofs.«125291_j75917841924156_2_alg».proof.Proof.KIPay2

/-!
# Layer 2's call: what its three output arrays hold when it returns

Grid point `t` sees rows `256·t … 256·t + 255` of the layer input and of the previous states, and all of the weights
and the bias. What it writes back into rows `256·t …` of an output is therefore the specification's function of
those same rows of the arrays the call was entered with. The 16 points' blocks cover the 4096 rows, so each output
array ends as that function on every row.
-/

set_option maxRecDepth 16384

noncomputable section

namespace Cert.KernelIdeal.Hand

open Cert.KernelIdeal Cert.KernelIdeal.Gen Cert.LayerSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-! ## The windows' block indices, decided over the grid -/

theorem ix2_0_0 (t : Fin cfg2.N) : win2_0.index t (0 : Fin 2) = t.val := (by decide +kernel : ∀ t : Fin grid2.N, win2_0.index t (0 : Fin 2) = t.val) t
theorem ix2_0_1 (t : Fin cfg2.N) : win2_0.index t (1 : Fin 2) = 0 := (by decide +kernel : ∀ t : Fin grid2.N, win2_0.index t (1 : Fin 2) = 0) t
theorem ix2_1_0 (t : Fin cfg2.N) : win2_1.index t (0 : Fin 2) = t.val := (by decide +kernel : ∀ t : Fin grid2.N, win2_1.index t (0 : Fin 2) = t.val) t
theorem ix2_1_1 (t : Fin cfg2.N) : win2_1.index t (1 : Fin 2) = 0 := (by decide +kernel : ∀ t : Fin grid2.N, win2_1.index t (1 : Fin 2) = 0) t
theorem ix2_2_0 (t : Fin cfg2.N) : win2_2.index t (0 : Fin 2) = t.val := (by decide +kernel : ∀ t : Fin grid2.N, win2_2.index t (0 : Fin 2) = t.val) t
theorem ix2_2_1 (t : Fin cfg2.N) : win2_2.index t (1 : Fin 2) = 0 := (by decide +kernel : ∀ t : Fin grid2.N, win2_2.index t (1 : Fin 2) = 0) t
theorem ix2_6_0 (t : Fin cfg2.N) : win2_6.index t (0 : Fin 2) = t.val := (by decide +kernel : ∀ t : Fin grid2.N, win2_6.index t (0 : Fin 2) = t.val) t
theorem ix2_6_1 (t : Fin cfg2.N) : win2_6.index t (1 : Fin 2) = 0 := (by decide +kernel : ∀ t : Fin grid2.N, win2_6.index t (1 : Fin 2) = 0) t
theorem ix2_7_0 (t : Fin cfg2.N) : win2_7.index t (0 : Fin 2) = t.val := (by decide +kernel : ∀ t : Fin grid2.N, win2_7.index t (0 : Fin 2) = t.val) t
theorem ix2_7_1 (t : Fin cfg2.N) : win2_7.index t (1 : Fin 2) = 0 := (by decide +kernel : ∀ t : Fin grid2.N, win2_7.index t (1 : Fin 2) = 0) t
theorem ix2_8_0 (t : Fin cfg2.N) : win2_8.index t (0 : Fin 2) = t.val := (by decide +kernel : ∀ t : Fin grid2.N, win2_8.index t (0 : Fin 2) = t.val) t
theorem ix2_8_1 (t : Fin cfg2.N) : win2_8.index t (1 : Fin 2) = 0 := (by decide +kernel : ∀ t : Fin grid2.N, win2_8.index t (1 : Fin 2) = 0) t
theorem ix2_3_0 (t : Fin cfg2.N) : win2_3.index t (0 : Fin 2) = 0 := (by decide +kernel : ∀ t : Fin grid2.N, win2_3.index t (0 : Fin 2) = 0) t
theorem ix2_3_1 (t : Fin cfg2.N) : win2_3.index t (1 : Fin 2) = 0 := (by decide +kernel : ∀ t : Fin grid2.N, win2_3.index t (1 : Fin 2) = 0) t
theorem ix2_4_0 (t : Fin cfg2.N) : win2_4.index t (0 : Fin 2) = 0 := (by decide +kernel : ∀ t : Fin grid2.N, win2_4.index t (0 : Fin 2) = 0) t
theorem ix2_4_1 (t : Fin cfg2.N) : win2_4.index t (1 : Fin 2) = 0 := (by decide +kernel : ∀ t : Fin grid2.N, win2_4.index t (1 : Fin 2) = 0) t
theorem ix2_5_0 (t : Fin cfg2.N) : win2_5.index t (0 : Fin 2) = 0 := (by decide +kernel : ∀ t : Fin grid2.N, win2_5.index t (0 : Fin 2) = 0) t
theorem ix2_5_1 (t : Fin cfg2.N) : win2_5.index t (1 : Fin 2) = 0 := (by decide +kernel : ∀ t : Fin grid2.N, win2_5.index t (1 : Fin 2) = 0) t

/-! ## The input blocks, read off the entry arrays -/

/-- Row `p` of window 0's block at point `t` is row `256·t + p` of its array. -/
theorem row2_0 (c : Dev nD) (t : Fin cfg2.N) (p : Fin 256) (r : Fin 4096) (hr : r.val = t.val * 256 + p.val) :
    row (iblk2 V c 0 t) p = row (B := 4096) (V c main_v33_2) r := by
  funext k
  show V c main_v33_2 (((cfg2.win 0).blk t).view.emb (ix2 p k)) = V c main_v33_2 (ix2 r k)
  refine congrArg _ (funext fun a => Fin.ext ?_)
  match a with
  | ⟨0, _⟩ => show win2_0.index t (0 : Fin 2) * 256 + 1 * p.val = r.val; rw [ix2_0_0, hr]; omega
  | ⟨1, _⟩ => show win2_0.index t (1 : Fin 2) * 1024 + 1 * k.val = k.val; rw [ix2_0_1]; omega
/-- Row `p` of window 1's block at point `t` is row `256·t + p` of its array. -/
theorem row2_1 (c : Dev nD) (t : Fin cfg2.N) (p : Fin 256) (r : Fin 4096) (hr : r.val = t.val * 256 + p.val) :
    row (iblk2 V c 1 t) p = row (B := 4096) (V c main_v35) r := by
  funext k
  show V c main_v35 (((cfg2.win 1).blk t).view.emb (ix2 p k)) = V c main_v35 (ix2 r k)
  refine congrArg _ (funext fun a => Fin.ext ?_)
  match a with
  | ⟨0, _⟩ => show win2_1.index t (0 : Fin 2) * 256 + 1 * p.val = r.val; rw [ix2_1_0, hr]; omega
  | ⟨1, _⟩ => show win2_1.index t (1 : Fin 2) * 1024 + 1 * k.val = k.val; rw [ix2_1_1]; omega
/-- Row `p` of window 2's block at point `t` is row `256·t + p` of its array. -/
theorem row2_2 (c : Dev nD) (t : Fin cfg2.N) (p : Fin 256) (r : Fin 4096) (hr : r.val = t.val * 256 + p.val) :
    row (iblk2 V c 2 t) p = row (B := 4096) (V c main_v37) r := by
  funext k
  show V c main_v37 (((cfg2.win 2).blk t).view.emb (ix2 p k)) = V c main_v37 (ix2 r k)
  refine congrArg _ (funext fun a => Fin.ext ?_)
  match a with
  | ⟨0, _⟩ => show win2_2.index t (0 : Fin 2) * 256 + 1 * p.val = r.val; rw [ix2_2_0, hr]; omega
  | ⟨1, _⟩ => show win2_2.index t (1 : Fin 2) * 1024 + 1 * k.val = k.val; rw [ix2_2_1]; omega
/-- Window 3 shows the whole of its array at every point. -/
theorem mat2_3 (c : Dev nD) (t : Fin cfg2.N) : mat (iblk2 V c 3 t) = mat (N := 4096) (V c main_v40) := by
  funext k j
  show V c main_v40 (((cfg2.win 3).blk t).view.emb (ix2 k j)) = V c main_v40 (ix2 k j)
  refine congrArg _ (funext fun a => Fin.ext ?_)
  match a with
  | ⟨0, _⟩ => show win2_3.index t (0 : Fin 2) * 1024 + 1 * k.val = k.val; rw [ix2_3_0]; omega
  | ⟨1, _⟩ => show win2_3.index t (1 : Fin 2) * 4096 + 1 * j.val = j.val; rw [ix2_3_1]; omega
/-- Window 4 shows the whole of its array at every point. -/
theorem mat2_4 (c : Dev nD) (t : Fin cfg2.N) : mat (iblk2 V c 4 t) = mat (N := 4096) (V c main_v43) := by
  funext k j
  show V c main_v43 (((cfg2.win 4).blk t).view.emb (ix2 k j)) = V c main_v43 (ix2 k j)
  refine congrArg _ (funext fun a => Fin.ext ?_)
  match a with
  | ⟨0, _⟩ => show win2_4.index t (0 : Fin 2) * 1024 + 1 * k.val = k.val; rw [ix2_4_0]; omega
  | ⟨1, _⟩ => show win2_4.index t (1 : Fin 2) * 4096 + 1 * j.val = j.val; rw [ix2_4_1]; omega
/-- Window 5 shows the whole of its one-row array at every point. -/
theorem vec2_5 (c : Dev nD) (t : Fin cfg2.N) : vec (iblk2 V c 5 t) = vec (N := 4096) (V c main_v49) := by
  funext j
  show V c main_v49 (((cfg2.win 5).blk t).view.emb (ix2 (0 : Fin 1) j)) = V c main_v49 (ix2 (0 : Fin 1) j)
  refine congrArg _ (funext fun a => Fin.ext ?_)
  match a with
  | ⟨0, _⟩ => show win2_5.index t (0 : Fin 2) * 1 + 1 * 0 = 0; rw [ix2_5_0]
  | ⟨1, _⟩ => show win2_5.index t (1 : Fin 2) * 4096 + 1 * j.val = j.val; rw [ix2_5_1]; omega

/-! ## What each point writes back, the cover, and the arrays when the call returns -/

/-- What point `t` writes back through output window 6: block `t` of the array function. -/
theorem flushed2_6 (c : Dev nD) (t : Fin cfg2.N) :
    (dat2 V c).flushed 6 t = ((cfg2.win 6).blk t).view.read (Elt Ideal) (hidArr (B := 4096) (V c main_v33_2) (V c main_v35) (V c main_v37) (V c main_v40) (V c main_v43) (V c main_v49)) := by
  show (cfg2.win 6).cut (grid2.coords t) ((dat2 V c).after 6 t) = _
  rw [after2_6]
  unfold out2_6
  rw [View.canon_unit_zero hz2]
  simp only [View.ld_unit_zero (S := S256x1024) hz2, View.ld_unit_zero (S := S1024x4096) hz2, View.ld_unit_zero (S := S1x4096) hz2]
  funext y
  obtain ⟨p, q, rfl⟩ : ∃ (p : Fin 256) (q : Fin 1024), y = ix2 p q := ⟨y 0, y 1, eq_ix2 y⟩
  refine (Pay2.hid_block _ _ _ _ _ _ p q).trans ?_
  obtain ⟨r, hr⟩ : ∃ r : Fin 4096, r.val = t.val * 256 + p.val :=
    ⟨⟨t.val * 256 + p.val, by have h1 : t.val < 16 := lt_of_lt_of_eq t.isLt N_2; have h2 := p.isLt; omega⟩, rfl⟩
  have hemb : ((cfg2.win 6).blk t).view.emb (ix2 p q) = ix2 r q := by
    funext a; apply Fin.ext
    match a with
    | ⟨0, _⟩ => show win2_6.index t (0 : Fin 2) * 256 + 1 * p.val = r.val; rw [ix2_6_0, hr]; omega
    | ⟨1, _⟩ => show win2_6.index t (1 : Fin 2) * 1024 + 1 * q.val = q.val; rw [ix2_6_1]; omega
  show hidRow (row (iblk2 V c 0 t) p) (row (iblk2 V c 1 t) p) (row (iblk2 V c 2 t) p) (mat (iblk2 V c 3 t)) (mat (iblk2 V c 4 t)) (vec (iblk2 V c 5 t)) q = hidArr (B := 4096) (V c main_v33_2) (V c main_v35) (V c main_v37) (V c main_v40) (V c main_v43) (V c main_v49) (((cfg2.win 6).blk t).view.emb (ix2 p q))
  rw [hemb, hidArr_apply, row2_0 V c t p r hr, row2_1 V c t p r hr, row2_2 V c t p r hr, mat2_3 V c t, mat2_4 V c t, vec2_5 V c t]

/-- An index of the array lies in point `t`'s block iff each coordinate lies in the block's range. -/
theorem mem_blk2_6 (t : Fin cfg2.N) (i : S4096x1024.Idx) :
    i ∈ ((cfg2.win 6).blk t).view.set ↔ ∀ a : Fin 2, win2_6.index t a * S256x1024.size a ≤ (i a).val ∧ (i a).val < win2_6.index t a * S256x1024.size a + S256x1024.size a := by
  show i ∈ ((View.whole main_v50_0).slice (win2_6.rect t)).set ↔ _
  rw [View.set_slice_whole, Rect.mem_set_unit]
  exact Iff.rfl

/-- Output window 6's array when the call returns. -/
theorem final2_6 (c : Dev nD) : (dat2 V c).arrAt 6 cfg2.N = hidArr (B := 4096) (V c main_v33_2) (V c main_v35) (V c main_v37) (V c main_v40) (V c main_v43) (V c main_v49) :=
  (dat2 V c).arrAt_eq_of_cover 6 _ (fun t _ => flushed2_6 V c t) fun i => by
    have hi0 : (i 0).val < 4096 := (i 0).isLt
    have hi1 : (i 1).val < 1024 := (i 1).isLt
    refine ⟨⟨(i 0).val / 256, by rw [show cfg2.N = 16 from N_2]; omega⟩, flush2_6 _, ?_⟩
    rw [mem_blk2_6]
    intro a
    match a with
    | ⟨0, _⟩ => show win2_6.index _ (0 : Fin 2) * 256 ≤ (i 0).val ∧ (i 0).val < win2_6.index _ (0 : Fin 2) * 256 + 256; rw [ix2_6_0]; show (i 0).val / 256 * 256 ≤ (i 0).val ∧ (i 0).val < (i 0).val / 256 * 256 + 256; omega
    | ⟨1, _⟩ => show win2_6.index _ (1 : Fin 2) * 1024 ≤ (i 1).val ∧ (i 1).val < win2_6.index _ (1 : Fin 2) * 1024 + 1024; rw [ix2_6_1]; omega

/-- What point `t` writes back through output window 7: block `t` of the array function. -/
theorem flushed2_7 (c : Dev nD) (t : Fin cfg2.N) :
    (dat2 V c).flushed 7 t = ((cfg2.win 7).blk t).view.read (Elt Ideal) (cellArr (B := 4096) (V c main_v33_2) (V c main_v35) (V c main_v37) (V c main_v40) (V c main_v43) (V c main_v49)) := by
  show (cfg2.win 7).cut (grid2.coords t) ((dat2 V c).after 7 t) = _
  rw [after2_7]
  unfold out2_7
  rw [View.canon_unit_zero hz2]
  simp only [View.ld_unit_zero (S := S256x1024) hz2, View.ld_unit_zero (S := S1024x4096) hz2, View.ld_unit_zero (S := S1x4096) hz2]
  funext y
  obtain ⟨p, q, rfl⟩ : ∃ (p : Fin 256) (q : Fin 1024), y = ix2 p q := ⟨y 0, y 1, eq_ix2 y⟩
  refine (Pay2.cell_block _ _ _ _ _ _ p q).trans ?_
  obtain ⟨r, hr⟩ : ∃ r : Fin 4096, r.val = t.val * 256 + p.val :=
    ⟨⟨t.val * 256 + p.val, by have h1 : t.val < 16 := lt_of_lt_of_eq t.isLt N_2; have h2 := p.isLt; omega⟩, rfl⟩
  have hemb : ((cfg2.win 7).blk t).view.emb (ix2 p q) = ix2 r q := by
    funext a; apply Fin.ext
    match a with
    | ⟨0, _⟩ => show win2_7.index t (0 : Fin 2) * 256 + 1 * p.val = r.val; rw [ix2_7_0, hr]; omega
    | ⟨1, _⟩ => show win2_7.index t (1 : Fin 2) * 1024 + 1 * q.val = q.val; rw [ix2_7_1]; omega
  show cellRow (row (iblk2 V c 0 t) p) (row (iblk2 V c 1 t) p) (row (iblk2 V c 2 t) p) (mat (iblk2 V c 3 t)) (mat (iblk2 V c 4 t)) (vec (iblk2 V c 5 t)) q = cellArr (B := 4096) (V c main_v33_2) (V c main_v35) (V c main_v37) (V c main_v40) (V c main_v43) (V c main_v49) (((cfg2.win 7).blk t).view.emb (ix2 p q))
  rw [hemb, cellArr_apply, row2_0 V c t p r hr, row2_1 V c t p r hr, row2_2 V c t p r hr, mat2_3 V c t, mat2_4 V c t, vec2_5 V c t]

/-- An index of the array lies in point `t`'s block iff each coordinate lies in the block's range. -/
theorem mem_blk2_7 (t : Fin cfg2.N) (i : S4096x1024.Idx) :
    i ∈ ((cfg2.win 7).blk t).view.set ↔ ∀ a : Fin 2, win2_7.index t a * S256x1024.size a ≤ (i a).val ∧ (i a).val < win2_7.index t a * S256x1024.size a + S256x1024.size a := by
  show i ∈ ((View.whole main_v50_1).slice (win2_7.rect t)).set ↔ _
  rw [View.set_slice_whole, Rect.mem_set_unit]
  exact Iff.rfl

/-- Output window 7's array when the call returns. -/
theorem final2_7 (c : Dev nD) : (dat2 V c).arrAt 7 cfg2.N = cellArr (B := 4096) (V c main_v33_2) (V c main_v35) (V c main_v37) (V c main_v40) (V c main_v43) (V c main_v49) :=
  (dat2 V c).arrAt_eq_of_cover 7 _ (fun t _ => flushed2_7 V c t) fun i => by
    have hi0 : (i 0).val < 4096 := (i 0).isLt
    have hi1 : (i 1).val < 1024 := (i 1).isLt
    refine ⟨⟨(i 0).val / 256, by rw [show cfg2.N = 16 from N_2]; omega⟩, flush2_7 _, ?_⟩
    rw [mem_blk2_7]
    intro a
    match a with
    | ⟨0, _⟩ => show win2_7.index _ (0 : Fin 2) * 256 ≤ (i 0).val ∧ (i 0).val < win2_7.index _ (0 : Fin 2) * 256 + 256; rw [ix2_7_0]; show (i 0).val / 256 * 256 ≤ (i 0).val ∧ (i 0).val < (i 0).val / 256 * 256 + 256; omega
    | ⟨1, _⟩ => show win2_7.index _ (1 : Fin 2) * 1024 ≤ (i 1).val ∧ (i 1).val < win2_7.index _ (1 : Fin 2) * 1024 + 1024; rw [ix2_7_1]; omega

/-- What point `t` writes back through output window 8: block `t` of the array function. -/
theorem flushed2_8 (c : Dev nD) (t : Fin cfg2.N) :
    (dat2 V c).flushed 8 t = ((cfg2.win 8).blk t).view.read (Elt Ideal) (hidArr (B := 4096) (V c main_v33_2) (V c main_v35) (V c main_v37) (V c main_v40) (V c main_v43) (V c main_v49)) := by
  show (cfg2.win 8).cut (grid2.coords t) ((dat2 V c).after 8 t) = _
  rw [after2_8]
  unfold out2_8
  rw [View.canon_unit_zero hz2]
  simp only [View.ld_unit_zero (S := S256x1024) hz2, View.ld_unit_zero (S := S1024x4096) hz2, View.ld_unit_zero (S := S1x4096) hz2]
  funext y
  obtain ⟨p, q, rfl⟩ : ∃ (p : Fin 256) (q : Fin 1024), y = ix2 p q := ⟨y 0, y 1, eq_ix2 y⟩
  refine (Pay2.hidb_block _ _ _ _ _ _ p q).trans ?_
  obtain ⟨r, hr⟩ : ∃ r : Fin 4096, r.val = t.val * 256 + p.val :=
    ⟨⟨t.val * 256 + p.val, by have h1 : t.val < 16 := lt_of_lt_of_eq t.isLt N_2; have h2 := p.isLt; omega⟩, rfl⟩
  have hemb : ((cfg2.win 8).blk t).view.emb (ix2 p q) = ix2 r q := by
    funext a; apply Fin.ext
    match a with
    | ⟨0, _⟩ => show win2_8.index t (0 : Fin 2) * 256 + 1 * p.val = r.val; rw [ix2_8_0, hr]; omega
    | ⟨1, _⟩ => show win2_8.index t (1 : Fin 2) * 1024 + 1 * q.val = q.val; rw [ix2_8_1]; omega
  show hidRow (row (iblk2 V c 0 t) p) (row (iblk2 V c 1 t) p) (row (iblk2 V c 2 t) p) (mat (iblk2 V c 3 t)) (mat (iblk2 V c 4 t)) (vec (iblk2 V c 5 t)) q = hidArr (B := 4096) (V c main_v33_2) (V c main_v35) (V c main_v37) (V c main_v40) (V c main_v43) (V c main_v49) (((cfg2.win 8).blk t).view.emb (ix2 p q))
  rw [hemb, hidArr_apply, row2_0 V c t p r hr, row2_1 V c t p r hr, row2_2 V c t p r hr, mat2_3 V c t, mat2_4 V c t, vec2_5 V c t]

/-- An index of the array lies in point `t`'s block iff each coordinate lies in the block's range. -/
theorem mem_blk2_8 (t : Fin cfg2.N) (i : S4096x1024.Idx) :
    i ∈ ((cfg2.win 8).blk t).view.set ↔ ∀ a : Fin 2, win2_8.index t a * S256x1024.size a ≤ (i a).val ∧ (i a).val < win2_8.index t a * S256x1024.size a + S256x1024.size a := by
  show i ∈ ((View.whole main_v50_2).slice (win2_8.rect t)).set ↔ _
  rw [View.set_slice_whole, Rect.mem_set_unit]
  exact Iff.rfl

/-- Output window 8's array when the call returns. -/
theorem final2_8 (c : Dev nD) : (dat2 V c).arrAt 8 cfg2.N = hidArr (B := 4096) (V c main_v33_2) (V c main_v35) (V c main_v37) (V c main_v40) (V c main_v43) (V c main_v49) :=
  (dat2 V c).arrAt_eq_of_cover 8 _ (fun t _ => flushed2_8 V c t) fun i => by
    have hi0 : (i 0).val < 4096 := (i 0).isLt
    have hi1 : (i 1).val < 1024 := (i 1).isLt
    refine ⟨⟨(i 0).val / 256, by rw [show cfg2.N = 16 from N_2]; omega⟩, flush2_8 _, ?_⟩
    rw [mem_blk2_8]
    intro a
    match a with
    | ⟨0, _⟩ => show win2_8.index _ (0 : Fin 2) * 256 ≤ (i 0).val ∧ (i 0).val < win2_8.index _ (0 : Fin 2) * 256 + 256; rw [ix2_8_0]; show (i 0).val / 256 * 256 ≤ (i 0).val ∧ (i 0).val < (i 0).val / 256 * 256 + 256; omega
    | ⟨1, _⟩ => show win2_8.index _ (1 : Fin 2) * 1024 ≤ (i 1).val ∧ (i 1).val < win2_8.index _ (1 : Fin 2) * 1024 + 1024; rw [ix2_8_1]; omega

end Cert.KernelIdeal.Hand

end
-- ==== Proof.KIPay3.lean ====
import proofs.«125291_j75917841924156_2_alg».proof.Proof.Gen.KernelIdeal.Skeleton
import proofs.«125291_j75917841924156_2_alg».proof.Proof.LayerSpec
import Idealize.ShloMosaic.Lib.ValueIdx
import Idealize.ShloMosaic.Lib.Pipeline.Value
import Idealize.ShloMosaic.PureOps.Ideal.Laws

/-!
# Layer 3's body arithmetic at a block index

The body's values are pure functions of the blocks it loads. At row `p` of the block and a column, the gate
pre-activations are two sums over the contracted axis plus the bias entry; the cell and hidden values are the
specification's row functions of row `p` of the loaded blocks. The changes of float format are the identity on
the extended reals.
-/

noncomputable section

open scoped BigOperators

namespace Cert.KernelIdeal.Pay3

open Cert.KernelIdeal Cert.KernelIdeal.Gen Cert.LayerSpec
open Idealize.ShloMosaic Idealize.ShloMosaic.ValueIdx Idealize.ShloMosaic.TcCoe

/-- A block product with the weights into a zero accumulator, at row `p` and column `j`. -/
theorem dot_apply {φ : FTy} (x : FVec Ideal S128x1024 φ) (w : FVec Ideal S1024x4096 .bf16) (p : Fin 128) (j : Fin 4096) :
    matmul dot_S128x1024_S1024x4096_S128x4096_1_0_0_1_n_n none x w (constant (F := Ideal) S128x4096 .f32 0x00000000#32) (ix2 p j) = ∑ k : Fin 1024, x (ix2 p k) * w (ix2 k j) := by
  refine (Ideal.matmul_constant_zero_apply dot_S128x1024_S1024x4096_S128x4096_1_0_0_1_n_n none x w (ix2 p j)).trans ?_
  rw [← Equiv.sum_comp (contrEquiv1 dot_S128x1024_S1024x4096_S128x4096_1_0_0_1_n_n 1024 rfl rfl).symm]
  refine Finset.sum_congr rfl fun k _ => ?_
  have hl : (dot_S128x1024_S1024x4096_S128x4096_1_0_0_1_n_n).lhsIdx (ix2 p j) ((contrEquiv1 dot_S128x1024_S1024x4096_S128x4096_1_0_0_1_n_n 1024 rfl rfl).symm k) = ix2 p k := by
    funext a; apply Fin.ext
    match a with
    | ⟨0, _⟩ => rfl
    | ⟨1, _⟩ => exact ((dot_S128x1024_S1024x4096_S128x4096_1_0_0_1_n_n).lhsIdx_val_of_single (cl := (1 : Fin 2)) rfl (ix2 p j) _).trans (contrEquiv1_symm_val dot_S128x1024_S1024x4096_S128x4096_1_0_0_1_n_n 1024 rfl rfl k)
  have hr : (dot_S128x1024_S1024x4096_S128x4096_1_0_0_1_n_n).rhsIdx (ix2 p j) ((contrEquiv1 dot_S128x1024_S1024x4096_S128x4096_1_0_0_1_n_n 1024 rfl rfl).symm k) = ix2 k j := by
    funext a; apply Fin.ext
    match a with
    | ⟨0, _⟩ => exact ((dot_S128x1024_S1024x4096_S128x4096_1_0_0_1_n_n).rhsIdx_val_of_single (cr := (0 : Fin 2)) rfl (ix2 p j) _).trans (contrEquiv1_symm_val dot_S128x1024_S1024x4096_S128x4096_1_0_0_1_n_n 1024 rfl rfl k)
    | ⟨1, _⟩ => rfl
  rw [hl, hr]

/-- The bias row broadcast down the block, at row `p` and column `j`. -/
theorem bias_apply (v : FVec Ideal S1x4096 .f32) (p : Fin 128) (j : Fin 4096) :
    broadcastTo S128x4096 v broadcasts_S1x4096_S128x4096 (ix2 p j) = v (ix2 (0 : Fin 1) j) :=
  broadcastTo_apply v _ (ix2 p j) (ix2 (0 : Fin 1) j) (fun a => by match a with | ⟨0, _⟩ => rfl | ⟨1, _⟩ => rfl)

/-- A column group of the block's gates, at row `p` and column `q` of the group. -/
theorem group_apply (o : Nat) (ho : o + 1024 ≤ 4096) (g : FVec Ideal S128x4096 .f32) (h : (S128x4096).Slices ![0, o] S128x1024) (p : Fin 128) (q : Fin 1024) :
    extractStridedSlice S128x1024 ![0, o] g h (ix2 p q) = g (ix2 p (col o ho q)) :=
  extractStridedSlice_apply _ g h (ix2 p q) (ix2 p (col o ho q)) (fun a => by
    match a with | ⟨0, _⟩ => exact (Nat.zero_add _).symm | ⟨1, _⟩ => rfl)

/-- The gate pre-activations of the block. -/
theorem gate_block (x0 : Vec Ideal S128x1024 .bf16) (x1 : Vec Ideal S128x1024 .f32) (x3 x4 : Vec Ideal S1024x4096 .bf16) (x5 : Vec Ideal S1x4096 .f32) (p : Fin 128) (j : Fin 4096) :
    k3_pay2 x0 x1 x3 x4 x5 (ix2 p j) = gateRow (fun k => x0 (ix2 p k)) (fun k => x1 (ix2 p k)) (fun k j => x3 (ix2 k j)) (fun k j => x4 (ix2 k j)) (fun j => x5 (ix2 (0 : Fin 1) j)) j := by
  unfold k3_pay2 gateRow
  simp only [shapeCast_self]
  refine (addf_apply _ _ _).trans ?_
  refine congrArg₂ (· + ·) ((addf_apply _ _ _).trans (congrArg₂ (· + ·) (dot_apply _ _ p j) (dot_apply _ _ p j))) (bias_apply _ p j)

/-- The new cell state of the block. -/
theorem cell_block (x0 : Vec Ideal S128x1024 .bf16) (x1 x2 : Vec Ideal S128x1024 .f32) (x3 x4 : Vec Ideal S1024x4096 .bf16) (x5 : Vec Ideal S1x4096 .f32) (p : Fin 128) (q : Fin 1024) :
    k3_pay3 x0 x1 x3 x4 x5 x2 (ix2 p q) = cellRow (fun k => x0 (ix2 p k)) (fun k => x1 (ix2 p k)) (fun k => x2 (ix2 p k)) (fun k j => x3 (ix2 k j)) (fun k j => x4 (ix2 k j)) (fun j => x5 (ix2 (0 : Fin 1) j)) q := by
  unfold k3_pay3 cellRow
  simp only [shapeCast_self]
  show Ideal.logistic (extractStridedSlice S128x1024 ![0, 1024] (k3_pay2 x0 x1 x3 x4 x5) _ (ix2 p q)) * x2 (ix2 p q)
      + Ideal.logistic (extractStridedSlice S128x1024 ![0, 0] (k3_pay2 x0 x1 x3 x4 x5) _ (ix2 p q)) * Ideal.tanh (extractStridedSlice S128x1024 ![0, 2048] (k3_pay2 x0 x1 x3 x4 x5) _ (ix2 p q)) = _
  rw [group_apply 1024 (by norm_num), group_apply 0 (by norm_num), group_apply 2048 (by norm_num), gate_block, gate_block, gate_block]

/-- The new hidden state of the block. -/
theorem hid_block (x0 : Vec Ideal S128x1024 .bf16) (x1 x2 : Vec Ideal S128x1024 .f32) (x3 x4 : Vec Ideal S1024x4096 .bf16) (x5 : Vec Ideal S1x4096 .f32) (p : Fin 128) (q : Fin 1024) :
    k3_pay4 x0 x1 x3 x4 x5 x2 (ix2 p q) = hidRow (fun k => x0 (ix2 p k)) (fun k => x1 (ix2 p k)) (fun k => x2 (ix2 p k)) (fun k j => x3 (ix2 k j)) (fun k j => x4 (ix2 k j)) (fun j => x5 (ix2 (0 : Fin 1) j)) q := by
  unfold k3_pay4 hidRow
  show Ideal.logistic (extractStridedSlice S128x1024 ![0, 3072] (k3_pay2 x0 x1 x3 x4 x5) _ (ix2 p q)) * Ideal.tanh (k3_pay3 x0 x1 x3 x4 x5 x2 (ix2 p q)) = _
  rw [group_apply 3072 (by norm_num), gate_block, cell_block]

/-- The output projection's block product into a zero accumulator, at row `p` and column `o`. -/
theorem dotF_apply {φ : FTy} (x : FVec Ideal S128x1024 φ) (w : FVec Ideal S1024x1024 .bf16) (p : Fin 128) (o : Fin 1024) :
    matmul dot_S128x1024_S1024x1024_S128x1024_1_0_0_1_n_n none x w (constant (F := Ideal) S128x1024 .f32 0x00000000#32) (ix2 p o) = ∑ k : Fin 1024, x (ix2 p k) * w (ix2 k o) := by
  refine (Ideal.matmul_constant_zero_apply dot_S128x1024_S1024x1024_S128x1024_1_0_0_1_n_n none x w (ix2 p o)).trans ?_
  rw [← Equiv.sum_comp (contrEquiv1 dot_S128x1024_S1024x1024_S128x1024_1_0_0_1_n_n 1024 rfl rfl).symm]
  refine Finset.sum_congr rfl fun k _ => ?_
  have hl : (dot_S128x1024_S1024x1024_S128x1024_1_0_0_1_n_n).lhsIdx (ix2 p o) ((contrEquiv1 dot_S128x1024_S1024x1024_S128x1024_1_0_0_1_n_n 1024 rfl rfl).symm k) = ix2 p k := by
    funext a; apply Fin.ext
    match a with
    | ⟨0, _⟩ => rfl
    | ⟨1, _⟩ => exact ((dot_S128x1024_S1024x1024_S128x1024_1_0_0_1_n_n).lhsIdx_val_of_single (cl := (1 : Fin 2)) rfl (ix2 p o) _).trans (contrEquiv1_symm_val dot_S128x1024_S1024x1024_S128x1024_1_0_0_1_n_n 1024 rfl rfl k)
  have hr : (dot_S128x1024_S1024x1024_S128x1024_1_0_0_1_n_n).rhsIdx (ix2 p o) ((contrEquiv1 dot_S128x1024_S1024x1024_S128x1024_1_0_0_1_n_n 1024 rfl rfl).symm k) = ix2 k o := by
    funext a; apply Fin.ext
    match a with
    | ⟨0, _⟩ => exact ((dot_S128x1024_S1024x1024_S128x1024_1_0_0_1_n_n).rhsIdx_val_of_single (cr := (0 : Fin 2)) rfl (ix2 p o) _).trans (contrEquiv1_symm_val dot_S128x1024_S1024x1024_S128x1024_1_0_0_1_n_n 1024 rfl rfl k)
    | ⟨1, _⟩ => rfl
  rw [hl, hr]

theorem fcb_apply (v : FVec Ideal S1x1024 .f32) (p : Fin 128) (o : Fin 1024) :
    broadcastTo S128x1024 v broadcasts_S1x1024_S128x1024 (ix2 p o) = v (ix2 (0 : Fin 1) o) :=
  broadcastTo_apply v _ (ix2 p o) (ix2 (0 : Fin 1) o) (fun a => by match a with | ⟨0, _⟩ => rfl | ⟨1, _⟩ => rfl)

/-- The output projection of the block: the new hidden state's row through `fc_W`, plus `fc_b`. -/
theorem out_block (x0 : Vec Ideal S128x1024 .bf16) (x1 x2 : Vec Ideal S128x1024 .f32) (x3 x4 : Vec Ideal S1024x4096 .bf16) (x5 : Vec Ideal S1x4096 .f32)
    (x6 : Vec Ideal S1024x1024 .bf16) (x7 : Vec Ideal S1x1024 .f32) (p : Fin 128) (o : Fin 1024) :
    k3_pay1 (k3_pay5 x0 x1 x3 x4 x5 x2) (k3_pay6 x6) (constant (F := Ideal) S128x1024 .f32 0x00000000#32) x7 (ix2 p o)
      = outRow (hidRow (fun k => x0 (ix2 p k)) (fun k => x1 (ix2 p k)) (fun k => x2 (ix2 p k)) (fun k j => x3 (ix2 k j)) (fun k j => x4 (ix2 k j)) (fun j => x5 (ix2 (0 : Fin 1) j)))
          (fun k o => x6 (ix2 k o)) (fun o => x7 (ix2 (0 : Fin 1) o)) o := by
  unfold k3_pay1 k3_pay5 k3_pay6 outRow
  simp only [shapeCast_self]
  refine (addf_apply _ _ _).trans ?_
  refine congrArg₂ (· + ·) ((dotF_apply _ _ p o).trans (Finset.sum_congr rfl fun k _ => ?_)) (fcb_apply _ p o)
  exact congrArg (· * x6 (ix2 k o)) (hid_block x0 x1 x2 x3 x4 x5 p k)

end Cert.KernelIdeal.Pay3

end
-- ==== Proof.KIVal3.lean ====
import proofs.«125291_j75917841924156_2_alg».proof.Proof.KIRegion3
import proofs.«125291_j75917841924156_2_alg».proof.Proof.KIPay3

/-!
# Layer 3's call: what its three output arrays hold when it returns

Grid point `t` sees rows `128·t … 128·t + 127` of the layer input and of the previous states, and all of the weights
and the bias. What it writes back into rows `128·t …` of an output is therefore the specification's function of
those same rows of the arrays the call was entered with. The 32 points' blocks cover the 4096 rows, so each output
array ends as that function on every row.
-/

set_option maxRecDepth 16384

noncomputable section

namespace Cert.KernelIdeal.Hand

open Cert.KernelIdeal Cert.KernelIdeal.Gen Cert.LayerSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-! ## The windows' block indices, decided over the grid -/

theorem ix3_0_0 (t : Fin cfg3.N) : win3_0.index t (0 : Fin 2) = t.val := (by decide +kernel : ∀ t : Fin grid3.N, win3_0.index t (0 : Fin 2) = t.val) t
theorem ix3_0_1 (t : Fin cfg3.N) : win3_0.index t (1 : Fin 2) = 0 := (by decide +kernel : ∀ t : Fin grid3.N, win3_0.index t (1 : Fin 2) = 0) t
theorem ix3_1_0 (t : Fin cfg3.N) : win3_1.index t (0 : Fin 2) = t.val := (by decide +kernel : ∀ t : Fin grid3.N, win3_1.index t (0 : Fin 2) = t.val) t
theorem ix3_1_1 (t : Fin cfg3.N) : win3_1.index t (1 : Fin 2) = 0 := (by decide +kernel : ∀ t : Fin grid3.N, win3_1.index t (1 : Fin 2) = 0) t
theorem ix3_2_0 (t : Fin cfg3.N) : win3_2.index t (0 : Fin 2) = t.val := (by decide +kernel : ∀ t : Fin grid3.N, win3_2.index t (0 : Fin 2) = t.val) t
theorem ix3_2_1 (t : Fin cfg3.N) : win3_2.index t (1 : Fin 2) = 0 := (by decide +kernel : ∀ t : Fin grid3.N, win3_2.index t (1 : Fin 2) = 0) t
theorem ix3_8_0 (t : Fin cfg3.N) : win3_8.index t (0 : Fin 2) = t.val := (by decide +kernel : ∀ t : Fin grid3.N, win3_8.index t (0 : Fin 2) = t.val) t
theorem ix3_8_1 (t : Fin cfg3.N) : win3_8.index t (1 : Fin 2) = 0 := (by decide +kernel : ∀ t : Fin grid3.N, win3_8.index t (1 : Fin 2) = 0) t
theorem ix3_9_0 (t : Fin cfg3.N) : win3_9.index t (0 : Fin 2) = t.val := (by decide +kernel : ∀ t : Fin grid3.N, win3_9.index t (0 : Fin 2) = t.val) t
theorem ix3_9_1 (t : Fin cfg3.N) : win3_9.index t (1 : Fin 2) = 0 := (by decide +kernel : ∀ t : Fin grid3.N, win3_9.index t (1 : Fin 2) = 0) t
theorem ix3_10_0 (t : Fin cfg3.N) : win3_10.index t (0 : Fin 2) = t.val := (by decide +kernel : ∀ t : Fin grid3.N, win3_10.index t (0 : Fin 2) = t.val) t
theorem ix3_10_1 (t : Fin cfg3.N) : win3_10.index t (1 : Fin 2) = 0 := (by decide +kernel : ∀ t : Fin grid3.N, win3_10.index t (1 : Fin 2) = 0) t
theorem ix3_3_0 (t : Fin cfg3.N) : win3_3.index t (0 : Fin 2) = 0 := (by decide +kernel : ∀ t : Fin grid3.N, win3_3.index t (0 : Fin 2) = 0) t
theorem ix3_3_1 (t : Fin cfg3.N) : win3_3.index t (1 : Fin 2) = 0 := (by decide +kernel : ∀ t : Fin grid3.N, win3_3.index t (1 : Fin 2) = 0) t
theorem ix3_4_0 (t : Fin cfg3.N) : win3_4.index t (0 : Fin 2) = 0 := (by decide +kernel : ∀ t : Fin grid3.N, win3_4.index t (0 : Fin 2) = 0) t
theorem ix3_4_1 (t : Fin cfg3.N) : win3_4.index t (1 : Fin 2) = 0 := (by decide +kernel : ∀ t : Fin grid3.N, win3_4.index t (1 : Fin 2) = 0) t
theorem ix3_5_0 (t : Fin cfg3.N) : win3_5.index t (0 : Fin 2) = 0 := (by decide +kernel : ∀ t : Fin grid3.N, win3_5.index t (0 : Fin 2) = 0) t
theorem ix3_5_1 (t : Fin cfg3.N) : win3_5.index t (1 : Fin 2) = 0 := (by decide +kernel : ∀ t : Fin grid3.N, win3_5.index t (1 : Fin 2) = 0) t
theorem ix3_6_0 (t : Fin cfg3.N) : win3_6.index t (0 : Fin 2) = 0 := (by decide +kernel : ∀ t : Fin grid3.N, win3_6.index t (0 : Fin 2) = 0) t
theorem ix3_6_1 (t : Fin cfg3.N) : win3_6.index t (1 : Fin 2) = 0 := (by decide +kernel : ∀ t : Fin grid3.N, win3_6.index t (1 : Fin 2) = 0) t
theorem ix3_7_0 (t : Fin cfg3.N) : win3_7.index t (0 : Fin 2) = 0 := (by decide +kernel : ∀ t : Fin grid3.N, win3_7.index t (0 : Fin 2) = 0) t
theorem ix3_7_1 (t : Fin cfg3.N) : win3_7.index t (1 : Fin 2) = 0 := (by decide +kernel : ∀ t : Fin grid3.N, win3_7.index t (1 : Fin 2) = 0) t

/-! ## The input blocks, read off the entry arrays -/

/-- Row `p` of window 0's block at point `t` is row `128·t + p` of its array. -/
theorem row3_0 (c : Dev nD) (t : Fin cfg3.N) (p : Fin 128) (r : Fin 4096) (hr : r.val = t.val * 128 + p.val) :
    row (iblk3 V c 0 t) p = row (B := 4096) (V c main_v50_2) r := by
  funext k
  show V c main_v50_2 (((cfg3.win 0).blk t).view.emb (ix2 p k)) = V c main_v50_2 (ix2 r k)
  refine congrArg _ (funext fun a => Fin.ext ?_)
  match a with
  | ⟨0, _⟩ => show win3_0.index t (0 : Fin 2) * 128 + 1 * p.val = r.val; rw [ix3_0_0, hr]; omega
  | ⟨1, _⟩ => show win3_0.index t (1 : Fin 2) * 1024 + 1 * k.val = k.val; rw [ix3_0_1]; omega
/-- Row `p` of window 1's block at point `t` is row `128·t + p` of its array. -/
theorem row3_1 (c : Dev nD) (t : Fin cfg3.N) (p : Fin 128) (r : Fin 4096) (hr : r.val = t.val * 128 + p.val) :
    row (iblk3 V c 1 t) p = row (B := 4096) (V c main_v52) r := by
  funext k
  show V c main_v52 (((cfg3.win 1).blk t).view.emb (ix2 p k)) = V c main_v52 (ix2 r k)
  refine congrArg _ (funext fun a => Fin.ext ?_)
  match a with
  | ⟨0, _⟩ => show win3_1.index t (0 : Fin 2) * 128 + 1 * p.val = r.val; rw [ix3_1_0, hr]; omega
  | ⟨1, _⟩ => show win3_1.index t (1 : Fin 2) * 1024 + 1 * k.val = k.val; rw [ix3_1_1]; omega
/-- Row `p` of window 2's block at point `t` is row `128·t + p` of its array. -/
theorem row3_2 (c : Dev nD) (t : Fin cfg3.N) (p : Fin 128) (r : Fin 4096) (hr : r.val = t.val * 128 + p.val) :
    row (iblk3 V c 2 t) p = row (B := 4096) (V c main_v54) r := by
  funext k
  show V c main_v54 (((cfg3.win 2).blk t).view.emb (ix2 p k)) = V c main_v54 (ix2 r k)
  refine congrArg _ (funext fun a => Fin.ext ?_)
  match a with
  | ⟨0, _⟩ => show win3_2.index t (0 : Fin 2) * 128 + 1 * p.val = r.val; rw [ix3_2_0, hr]; omega
  | ⟨1, _⟩ => show win3_2.index t (1 : Fin 2) * 1024 + 1 * k.val = k.val; rw [ix3_2_1]; omega
/-- Window 3 shows the whole of its array at every point. -/
theorem mat3_3 (c : Dev nD) (t : Fin cfg3.N) : mat (iblk3 V c 3 t) = mat (N := 4096) (V c main_v57) := by
  funext k j
  show V c main_v57 (((cfg3.win 3).blk t).view.emb (ix2 k j)) = V c main_v57 (ix2 k j)
  refine congrArg _ (funext fun a => Fin.ext ?_)
  match a with
  | ⟨0, _⟩ => show win3_3.index t (0 : Fin 2) * 1024 + 1 * k.val = k.val; rw [ix3_3_0]; omega
  | ⟨1, _⟩ => show win3_3.index t (1 : Fin 2) * 4096 + 1 * j.val = j.val; rw [ix3_3_1]; omega
/-- Window 4 shows the whole of its array at every point. -/
theorem mat3_4 (c : Dev nD) (t : Fin cfg3.N) : mat (iblk3 V c 4 t) = mat (N := 4096) (V c main_v60) := by
  funext k j
  show V c main_v60 (((cfg3.win 4).blk t).view.emb (ix2 k j)) = V c main_v60 (ix2 k j)
  refine congrArg _ (funext fun a => Fin.ext ?_)
  match a with
  | ⟨0, _⟩ => show win3_4.index t (0 : Fin 2) * 1024 + 1 * k.val = k.val; rw [ix3_4_0]; omega
  | ⟨1, _⟩ => show win3_4.index t (1 : Fin 2) * 4096 + 1 * j.val = j.val; rw [ix3_4_1]; omega
/-- Window 5 shows the whole of its one-row array at every point. -/
theorem vec3_5 (c : Dev nD) (t : Fin cfg3.N) : vec (iblk3 V c 5 t) = vec (N := 4096) (V c main_v66) := by
  funext j
  show V c main_v66 (((cfg3.win 5).blk t).view.emb (ix2 (0 : Fin 1) j)) = V c main_v66 (ix2 (0 : Fin 1) j)
  refine congrArg _ (funext fun a => Fin.ext ?_)
  match a with
  | ⟨0, _⟩ => show win3_5.index t (0 : Fin 2) * 1 + 1 * 0 = 0; rw [ix3_5_0]
  | ⟨1, _⟩ => show win3_5.index t (1 : Fin 2) * 4096 + 1 * j.val = j.val; rw [ix3_5_1]; omega
/-- Window 6 shows the whole of its array at every point. -/
theorem mat3_6 (c : Dev nD) (t : Fin cfg3.N) : mat (iblk3 V c 6 t) = mat (N := 1024) (V c main_v67) := by
  funext k j
  show V c main_v67 (((cfg3.win 6).blk t).view.emb (ix2 k j)) = V c main_v67 (ix2 k j)
  refine congrArg _ (funext fun a => Fin.ext ?_)
  match a with
  | ⟨0, _⟩ => show win3_6.index t (0 : Fin 2) * 1024 + 1 * k.val = k.val; rw [ix3_6_0]; omega
  | ⟨1, _⟩ => show win3_6.index t (1 : Fin 2) * 1024 + 1 * j.val = j.val; rw [ix3_6_1]; omega
/-- Window 7 shows the whole of its one-row array at every point. -/
theorem vec3_7 (c : Dev nD) (t : Fin cfg3.N) : vec (iblk3 V c 7 t) = vec (N := 1024) (V c main_v68) := by
  funext j
  show V c main_v68 (((cfg3.win 7).blk t).view.emb (ix2 (0 : Fin 1) j)) = V c main_v68 (ix2 (0 : Fin 1) j)
  refine congrArg _ (funext fun a => Fin.ext ?_)
  match a with
  | ⟨0, _⟩ => show win3_7.index t (0 : Fin 2) * 1 + 1 * 0 = 0; rw [ix3_7_0]
  | ⟨1, _⟩ => show win3_7.index t (1 : Fin 2) * 1024 + 1 * j.val = j.val; rw [ix3_7_1]; omega

/-! ## What each point writes back, the cover, and the arrays when the call returns -/

/-- What point `t` writes back through output window 8: block `t` of the array function. -/
theorem flushed3_8 (c : Dev nD) (t : Fin cfg3.N) :
    (dat3 V c).flushed 8 t = ((cfg3.win 8).blk t).view.read (Elt Ideal) (hidArr (B := 4096) (V c main_v50_2) (V c main_v52) (V c main_v54) (V c main_v57) (V c main_v60) (V c main_v66)) := by
  show (cfg3.win 8).cut (grid3.coords t) ((dat3 V c).after 8 t) = _
  rw [after3_8]
  unfold out3_8
  rw [View.canon_unit_zero hz3]
  simp only [View.ld_unit_zero (S := S128x1024) hz3, View.ld_unit_zero (S := S1024x4096) hz3, View.ld_unit_zero (S := S1x4096) hz3, View.ld_unit_zero (S := S1024x1024) hz3, View.ld_unit_zero (S := S1x1024) hz3]
  funext y
  obtain ⟨p, q, rfl⟩ : ∃ (p : Fin 128) (q : Fin 1024), y = ix2 p q := ⟨y 0, y 1, eq_ix2 y⟩
  refine (Pay3.hid_block _ _ _ _ _ _ p q).trans ?_
  obtain ⟨r, hr⟩ : ∃ r : Fin 4096, r.val = t.val * 128 + p.val :=
    ⟨⟨t.val * 128 + p.val, by have h1 : t.val < 32 := lt_of_lt_of_eq t.isLt N_3; have h2 := p.isLt; omega⟩, rfl⟩
  have hemb : ((cfg3.win 8).blk t).view.emb (ix2 p q) = ix2 r q := by
    funext a; apply Fin.ext
    match a with
    | ⟨0, _⟩ => show win3_8.index t (0 : Fin 2) * 128 + 1 * p.val = r.val; rw [ix3_8_0, hr]; omega
    | ⟨1, _⟩ => show win3_8.index t (1 : Fin 2) * 1024 + 1 * q.val = q.val; rw [ix3_8_1]; omega
  show hidRow (row (iblk3 V c 0 t) p) (row (iblk3 V c 1 t) p) (row (iblk3 V c 2 t) p) (mat (iblk3 V c 3 t)) (mat (iblk3 V c 4 t)) (vec (iblk3 V c 5 t)) q = hidArr (B := 4096) (V c main_v50_2) (V c main_v52) (V c main_v54) (V c main_v57) (V c main_v60) (V c main_v66) (((cfg3.win 8).blk t).view.emb (ix2 p q))
  rw [hemb, hidArr_apply, row3_0 V c t p r hr, row3_1 V c t p r hr, row3_2 V c t p r hr, mat3_3 V c t, mat3_4 V c t, vec3_5 V c t]

/-- An index of the array lies in point `t`'s block iff each coordinate lies in the block's range. -/
theorem mem_blk3_8 (t : Fin cfg3.N) (i : S4096x1024.Idx) :
    i ∈ ((cfg3.win 8).blk t).view.set ↔ ∀ a : Fin 2, win3_8.index t a * S128x1024.size a ≤ (i a).val ∧ (i a).val < win3_8.index t a * S128x1024.size a + S128x1024.size a := by
  show i ∈ ((View.whole main_v69_0).slice (win3_8.rect t)).set ↔ _
  rw [View.set_slice_whole, Rect.mem_set_unit]
  exact Iff.rfl

/-- Output window 8's array when the call returns. -/
theorem final3_8 (c : Dev nD) : (dat3 V c).arrAt 8 cfg3.N = hidArr (B := 4096) (V c main_v50_2) (V c main_v52) (V c main_v54) (V c main_v57) (V c main_v60) (V c main_v66) :=
  (dat3 V c).arrAt_eq_of_cover 8 _ (fun t _ => flushed3_8 V c t) fun i => by
    have hi0 : (i 0).val < 4096 := (i 0).isLt
    have hi1 : (i 1).val < 1024 := (i 1).isLt
    refine ⟨⟨(i 0).val / 128, by rw [show cfg3.N = 32 from N_3]; omega⟩, flush3_8 _, ?_⟩
    rw [mem_blk3_8]
    intro a
    match a with
    | ⟨0, _⟩ => show win3_8.index _ (0 : Fin 2) * 128 ≤ (i 0).val ∧ (i 0).val < win3_8.index _ (0 : Fin 2) * 128 + 128; rw [ix3_8_0]; show (i 0).val / 128 * 128 ≤ (i 0).val ∧ (i 0).val < (i 0).val / 128 * 128 + 128; omega
    | ⟨1, _⟩ => show win3_8.index _ (1 : Fin 2) * 1024 ≤ (i 1).val ∧ (i 1).val < win3_8.index _ (1 : Fin 2) * 1024 + 1024; rw [ix3_8_1]; omega

/-- What point `t` writes back through output window 9: block `t` of the array function. -/
theorem flushed3_9 (c : Dev nD) (t : Fin cfg3.N) :
    (dat3 V c).flushed 9 t = ((cfg3.win 9).blk t).view.read (Elt Ideal) (cellArr (B := 4096) (V c main_v50_2) (V c main_v52) (V c main_v54) (V c main_v57) (V c main_v60) (V c main_v66)) := by
  show (cfg3.win 9).cut (grid3.coords t) ((dat3 V c).after 9 t) = _
  rw [after3_9]
  unfold out3_9
  rw [View.canon_unit_zero hz3]
  simp only [View.ld_unit_zero (S := S128x1024) hz3, View.ld_unit_zero (S := S1024x4096) hz3, View.ld_unit_zero (S := S1x4096) hz3, View.ld_unit_zero (S := S1024x1024) hz3, View.ld_unit_zero (S := S1x1024) hz3]
  funext y
  obtain ⟨p, q, rfl⟩ : ∃ (p : Fin 128) (q : Fin 1024), y = ix2 p q := ⟨y 0, y 1, eq_ix2 y⟩
  refine (Pay3.cell_block _ _ _ _ _ _ p q).trans ?_
  obtain ⟨r, hr⟩ : ∃ r : Fin 4096, r.val = t.val * 128 + p.val :=
    ⟨⟨t.val * 128 + p.val, by have h1 : t.val < 32 := lt_of_lt_of_eq t.isLt N_3; have h2 := p.isLt; omega⟩, rfl⟩
  have hemb : ((cfg3.win 9).blk t).view.emb (ix2 p q) = ix2 r q := by
    funext a; apply Fin.ext
    match a with
    | ⟨0, _⟩ => show win3_9.index t (0 : Fin 2) * 128 + 1 * p.val = r.val; rw [ix3_9_0, hr]; omega
    | ⟨1, _⟩ => show win3_9.index t (1 : Fin 2) * 1024 + 1 * q.val = q.val; rw [ix3_9_1]; omega
  show cellRow (row (iblk3 V c 0 t) p) (row (iblk3 V c 1 t) p) (row (iblk3 V c 2 t) p) (mat (iblk3 V c 3 t)) (mat (iblk3 V c 4 t)) (vec (iblk3 V c 5 t)) q = cellArr (B := 4096) (V c main_v50_2) (V c main_v52) (V c main_v54) (V c main_v57) (V c main_v60) (V c main_v66) (((cfg3.win 9).blk t).view.emb (ix2 p q))
  rw [hemb, cellArr_apply, row3_0 V c t p r hr, row3_1 V c t p r hr, row3_2 V c t p r hr, mat3_3 V c t, mat3_4 V c t, vec3_5 V c t]

/-- An index of the array lies in point `t`'s block iff each coordinate lies in the block's range. -/
theorem mem_blk3_9 (t : Fin cfg3.N) (i : S4096x1024.Idx) :
    i ∈ ((cfg3.win 9).blk t).view.set ↔ ∀ a : Fin 2, win3_9.index t a * S128x1024.size a ≤ (i a).val ∧ (i a).val < win3_9.index t a * S128x1024.size a + S128x1024.size a := by
  show i ∈ ((View.whole main_v69_1).slice (win3_9.rect t)).set ↔ _
  rw [View.set_slice_whole, Rect.mem_set_unit]
  exact Iff.rfl

/-- Output window 9's array when the call returns. -/
theorem final3_9 (c : Dev nD) : (dat3 V c).arrAt 9 cfg3.N = cellArr (B := 4096) (V c main_v50_2) (V c main_v52) (V c main_v54) (V c main_v57) (V c main_v60) (V c main_v66) :=
  (dat3 V c).arrAt_eq_of_cover 9 _ (fun t _ => flushed3_9 V c t) fun i => by
    have hi0 : (i 0).val < 4096 := (i 0).isLt
    have hi1 : (i 1).val < 1024 := (i 1).isLt
    refine ⟨⟨(i 0).val / 128, by rw [show cfg3.N = 32 from N_3]; omega⟩, flush3_9 _, ?_⟩
    rw [mem_blk3_9]
    intro a
    match a with
    | ⟨0, _⟩ => show win3_9.index _ (0 : Fin 2) * 128 ≤ (i 0).val ∧ (i 0).val < win3_9.index _ (0 : Fin 2) * 128 + 128; rw [ix3_9_0]; show (i 0).val / 128 * 128 ≤ (i 0).val ∧ (i 0).val < (i 0).val / 128 * 128 + 128; omega
    | ⟨1, _⟩ => show win3_9.index _ (1 : Fin 2) * 1024 ≤ (i 1).val ∧ (i 1).val < win3_9.index _ (1 : Fin 2) * 1024 + 1024; rw [ix3_9_1]; omega

/-- What point `t` writes back through output window 10: block `t` of the array function. -/
theorem flushed3_10 (c : Dev nD) (t : Fin cfg3.N) :
    (dat3 V c).flushed 10 t = ((cfg3.win 10).blk t).view.read (Elt Ideal) (outArr (B := 4096) (V c main_v50_2) (V c main_v52) (V c main_v54) (V c main_v57) (V c main_v60) (V c main_v66) (V c main_v67) (V c main_v68)) := by
  show (cfg3.win 10).cut (grid3.coords t) ((dat3 V c).after 10 t) = _
  rw [after3_10]
  unfold out3_10
  rw [View.canon_unit_zero hz3]
  simp only [View.ld_unit_zero (S := S128x1024) hz3, View.ld_unit_zero (S := S1024x4096) hz3, View.ld_unit_zero (S := S1x4096) hz3, View.ld_unit_zero (S := S1024x1024) hz3, View.ld_unit_zero (S := S1x1024) hz3]
  funext y
  obtain ⟨p, q, rfl⟩ : ∃ (p : Fin 128) (q : Fin 1024), y = ix2 p q := ⟨y 0, y 1, eq_ix2 y⟩
  refine (Pay3.out_block _ _ _ _ _ _ _ _ p q).trans ?_
  obtain ⟨r, hr⟩ : ∃ r : Fin 4096, r.val = t.val * 128 + p.val :=
    ⟨⟨t.val * 128 + p.val, by have h1 : t.val < 32 := lt_of_lt_of_eq t.isLt N_3; have h2 := p.isLt; omega⟩, rfl⟩
  have hemb : ((cfg3.win 10).blk t).view.emb (ix2 p q) = ix2 r q := by
    funext a; apply Fin.ext
    match a with
    | ⟨0, _⟩ => show win3_10.index t (0 : Fin 2) * 128 + 1 * p.val = r.val; rw [ix3_10_0, hr]; omega
    | ⟨1, _⟩ => show win3_10.index t (1 : Fin 2) * 1024 + 1 * q.val = q.val; rw [ix3_10_1]; omega
  show outRow (hidRow (row (iblk3 V c 0 t) p) (row (iblk3 V c 1 t) p) (row (iblk3 V c 2 t) p) (mat (iblk3 V c 3 t)) (mat (iblk3 V c 4 t)) (vec (iblk3 V c 5 t))) (mat (iblk3 V c 6 t)) (vec (iblk3 V c 7 t)) q = outArr (B := 4096) (V c main_v50_2) (V c main_v52) (V c main_v54) (V c main_v57) (V c main_v60) (V c main_v66) (V c main_v67) (V c main_v68) (((cfg3.win 10).blk t).view.emb (ix2 p q))
  rw [hemb, outArr_apply, row3_0 V c t p r hr, row3_1 V c t p r hr, row3_2 V c t p r hr, mat3_3 V c t, mat3_4 V c t, vec3_5 V c t, mat3_6 V c t, vec3_7 V c t]

/-- An index of the array lies in point `t`'s block iff each coordinate lies in the block's range. -/
theorem mem_blk3_10 (t : Fin cfg3.N) (i : S4096x1024.Idx) :
    i ∈ ((cfg3.win 10).blk t).view.set ↔ ∀ a : Fin 2, win3_10.index t a * S128x1024.size a ≤ (i a).val ∧ (i a).val < win3_10.index t a * S128x1024.size a + S128x1024.size a := by
  show i ∈ ((View.whole main_v69_2).slice (win3_10.rect t)).set ↔ _
  rw [View.set_slice_whole, Rect.mem_set_unit]
  exact Iff.rfl

/-- Output window 10's array when the call returns. -/
theorem final3_10 (c : Dev nD) : (dat3 V c).arrAt 10 cfg3.N = outArr (B := 4096) (V c main_v50_2) (V c main_v52) (V c main_v54) (V c main_v57) (V c main_v60) (V c main_v66) (V c main_v67) (V c main_v68) :=
  (dat3 V c).arrAt_eq_of_cover 10 _ (fun t _ => flushed3_10 V c t) fun i => by
    have hi0 : (i 0).val < 4096 := (i 0).isLt
    have hi1 : (i 1).val < 1024 := (i 1).isLt
    refine ⟨⟨(i 0).val / 128, by rw [show cfg3.N = 32 from N_3]; omega⟩, flush3_10 _, ?_⟩
    rw [mem_blk3_10]
    intro a
    match a with
    | ⟨0, _⟩ => show win3_10.index _ (0 : Fin 2) * 128 ≤ (i 0).val ∧ (i 0).val < win3_10.index _ (0 : Fin 2) * 128 + 128; rw [ix3_10_0]; show (i 0).val / 128 * 128 ≤ (i 0).val ∧ (i 0).val < (i 0).val / 128 * 128 + 128; omega
    | ⟨1, _⟩ => show win3_10.index _ (1 : Fin 2) * 1024 ≤ (i 1).val ∧ (i 1).val < win3_10.index _ (1 : Fin 2) * 1024 + 1024; rw [ix3_10_1]; omega

end Cert.KernelIdeal.Hand

end
-- ==== Proof.KIChain.lean ====
import proofs.«125291_j75917841924156_2_alg».proof.Proof.KIRun
import proofs.«125291_j75917841924156_2_alg».proof.Proof.KIVal0
import proofs.«125291_j75917841924156_2_alg».proof.Proof.KIVal1
import proofs.«125291_j75917841924156_2_alg».proof.Proof.KIVal2
import proofs.«125291_j75917841924156_2_alg».proof.Proof.KIVal3

/-!
# The kernel program's results as the specification's functions of the arguments

Before layer `l`'s call a stretch of host operations slices layer `l` out of the stacked states, weights and biases
and adds the two biases; the call's input is the argument `x` for layer 0 and the previous call's second copy of
its hidden state otherwise. With each call's outputs known as functions of what it was entered with, the four
layers compose to the specification's stack, and the last stretch stacks the four hidden and cell states.
-/

set_option maxRecDepth 16384

noncomputable section

namespace Cert.KernelIdeal.Hand

open Cert.KernelIdeal Cert.KernelIdeal.Gen Cert.LayerSpec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-- The arguments as launched. -/
abbrev kX : (⟨2, ![4096, 1024]⟩ : Shape).Idx → EReal := m ((c : Thread nD τ).loc main_arg0)
abbrev kHp : (⟨3, ![4, 4096, 1024]⟩ : Shape).Idx → EReal := m ((c : Thread nD τ).loc main_arg1)
abbrev kCp : (⟨3, ![4, 4096, 1024]⟩ : Shape).Idx → EReal := m ((c : Thread nD τ).loc main_arg2)
abbrev kWi : (⟨3, ![4, 1024, 4096]⟩ : Shape).Idx → EReal := m ((c : Thread nD τ).loc main_arg3)
abbrev kWh : (⟨3, ![4, 1024, 4096]⟩ : Shape).Idx → EReal := m ((c : Thread nD τ).loc main_arg4)
abbrev kBi : (⟨2, ![4, 4096]⟩ : Shape).Idx → EReal := m ((c : Thread nD τ).loc main_arg5)
abbrev kBh : (⟨2, ![4, 4096]⟩ : Shape).Idx → EReal := m ((c : Thread nD τ).loc main_arg6)
abbrev kFw : (⟨2, ![1024, 1024]⟩ : Shape).Idx → EReal := m ((c : Thread nD τ).loc main_arg7)
abbrev kFb : (⟨1, ![1024]⟩ : Shape).Idx → EReal := m ((c : Thread nD τ).loc main_arg8)

/-! ## The arguments at the boundaries the stretches start from -/

theorem B0_arg0 : B0 m ρ c (Proc.devRef .tc main_arg0) = m ((c : Thread nD τ).loc main_arg0) := rfl
theorem B1_arg0 : B1 m ρ c (Proc.devRef .tc main_arg0) = m ((c : Thread nD τ).loc main_arg0) := (B1_of m ρ c main_arg0 (by decide)).trans rfl
theorem B0_arg1 : B0 m ρ c (Proc.devRef .tc main_arg1) = m ((c : Thread nD τ).loc main_arg1) := rfl
theorem B2_arg1 : B2 m ρ c (Proc.devRef .tc main_arg1) = m ((c : Thread nD τ).loc main_arg1) :=
  (B2_of_ne m ρ c main_arg1 (by decide)).trans ((B1_of m ρ c main_arg1 (by decide)).trans rfl)
theorem B4_arg1 : B4 m ρ c (Proc.devRef .tc main_arg1) = m ((c : Thread nD τ).loc main_arg1) :=
  (B4_of_ne m ρ c main_arg1 (by decide)).trans ((B3_of m ρ c main_arg1 (by decide)).trans (B2_arg1 m ρ c))
theorem B6_arg1 : B6 m ρ c (Proc.devRef .tc main_arg1) = m ((c : Thread nD τ).loc main_arg1) :=
  (B6_of_ne m ρ c main_arg1 (by decide)).trans ((B5_of m ρ c main_arg1 (by decide)).trans (B4_arg1 m ρ c))
theorem B0_arg2 : B0 m ρ c (Proc.devRef .tc main_arg2) = m ((c : Thread nD τ).loc main_arg2) := rfl
theorem B2_arg2 : B2 m ρ c (Proc.devRef .tc main_arg2) = m ((c : Thread nD τ).loc main_arg2) :=
  (B2_of_ne m ρ c main_arg2 (by decide)).trans ((B1_of m ρ c main_arg2 (by decide)).trans rfl)
theorem B4_arg2 : B4 m ρ c (Proc.devRef .tc main_arg2) = m ((c : Thread nD τ).loc main_arg2) :=
  (B4_of_ne m ρ c main_arg2 (by decide)).trans ((B3_of m ρ c main_arg2 (by decide)).trans (B2_arg2 m ρ c))
theorem B6_arg2 : B6 m ρ c (Proc.devRef .tc main_arg2) = m ((c : Thread nD τ).loc main_arg2) :=
  (B6_of_ne m ρ c main_arg2 (by decide)).trans ((B5_of m ρ c main_arg2 (by decide)).trans (B4_arg2 m ρ c))
theorem B0_arg3 : B0 m ρ c (Proc.devRef .tc main_arg3) = m ((c : Thread nD τ).loc main_arg3) := rfl
theorem B2_arg3 : B2 m ρ c (Proc.devRef .tc main_arg3) = m ((c : Thread nD τ).loc main_arg3) :=
  (B2_of_ne m ρ c main_arg3 (by decide)).trans ((B1_of m ρ c main_arg3 (by decide)).trans rfl)
theorem B4_arg3 : B4 m ρ c (Proc.devRef .tc main_arg3) = m ((c : Thread nD τ).loc main_arg3) :=
  (B4_of_ne m ρ c main_arg3 (by decide)).trans ((B3_of m ρ c main_arg3 (by decide)).trans (B2_arg3 m ρ c))
theorem B6_arg3 : B6 m ρ c (Proc.devRef .tc main_arg3) = m ((c : Thread nD τ).loc main_arg3) :=
  (B6_of_ne m ρ c main_arg3 (by decide)).trans ((B5_of m ρ c main_arg3 (by decide)).trans (B4_arg3 m ρ c))
theorem B0_arg4 : B0 m ρ c (Proc.devRef .tc main_arg4) = m ((c : Thread nD τ).loc main_arg4) := rfl
theorem B2_arg4 : B2 m ρ c (Proc.devRef .tc main_arg4) = m ((c : Thread nD τ).loc main_arg4) :=
  (B2_of_ne m ρ c main_arg4 (by decide)).trans ((B1_of m ρ c main_arg4 (by decide)).trans rfl)
theorem B4_arg4 : B4 m ρ c (Proc.devRef .tc main_arg4) = m ((c : Thread nD τ).loc main_arg4) :=
  (B4_of_ne m ρ c main_arg4 (by decide)).trans ((B3_of m ρ c main_arg4 (by decide)).trans (B2_arg4 m ρ c))
theorem B6_arg4 : B6 m ρ c (Proc.devRef .tc main_arg4) = m ((c : Thread nD τ).loc main_arg4) :=
  (B6_of_ne m ρ c main_arg4 (by decide)).trans ((B5_of m ρ c main_arg4 (by decide)).trans (B4_arg4 m ρ c))
theorem B0_arg5 : B0 m ρ c (Proc.devRef .tc main_arg5) = m ((c : Thread nD τ).loc main_arg5) := rfl
theorem B2_arg5 : B2 m ρ c (Proc.devRef .tc main_arg5) = m ((c : Thread nD τ).loc main_arg5) :=
  (B2_of_ne m ρ c main_arg5 (by decide)).trans ((B1_of m ρ c main_arg5 (by decide)).trans rfl)
theorem B4_arg5 : B4 m ρ c (Proc.devRef .tc main_arg5) = m ((c : Thread nD τ).loc main_arg5) :=
  (B4_of_ne m ρ c main_arg5 (by decide)).trans ((B3_of m ρ c main_arg5 (by decide)).trans (B2_arg5 m ρ c))
theorem B6_arg5 : B6 m ρ c (Proc.devRef .tc main_arg5) = m ((c : Thread nD τ).loc main_arg5) :=
  (B6_of_ne m ρ c main_arg5 (by decide)).trans ((B5_of m ρ c main_arg5 (by decide)).trans (B4_arg5 m ρ c))
theorem B0_arg6 : B0 m ρ c (Proc.devRef .tc main_arg6) = m ((c : Thread nD τ).loc main_arg6) := rfl
theorem B2_arg6 : B2 m ρ c (Proc.devRef .tc main_arg6) = m ((c : Thread nD τ).loc main_arg6) :=
  (B2_of_ne m ρ c main_arg6 (by decide)).trans ((B1_of m ρ c main_arg6 (by decide)).trans rfl)
theorem B4_arg6 : B4 m ρ c (Proc.devRef .tc main_arg6) = m ((c : Thread nD τ).loc main_arg6) :=
  (B4_of_ne m ρ c main_arg6 (by decide)).trans ((B3_of m ρ c main_arg6 (by decide)).trans (B2_arg6 m ρ c))
theorem B6_arg6 : B6 m ρ c (Proc.devRef .tc main_arg6) = m ((c : Thread nD τ).loc main_arg6) :=
  (B6_of_ne m ρ c main_arg6 (by decide)).trans ((B5_of m ρ c main_arg6 (by decide)).trans (B4_arg6 m ρ c))
theorem B0_arg7 : B0 m ρ c (Proc.devRef .tc main_arg7) = m ((c : Thread nD τ).loc main_arg7) := rfl
theorem B2_arg7 : B2 m ρ c (Proc.devRef .tc main_arg7) = m ((c : Thread nD τ).loc main_arg7) :=
  (B2_of_ne m ρ c main_arg7 (by decide)).trans ((B1_of m ρ c main_arg7 (by decide)).trans rfl)
theorem B4_arg7 : B4 m ρ c (Proc.devRef .tc main_arg7) = m ((c : Thread nD τ).loc main_arg7) :=
  (B4_of_ne m ρ c main_arg7 (by decide)).trans ((B3_of m ρ c main_arg7 (by decide)).trans (B2_arg7 m ρ c))
theorem B6_arg7 : B6 m ρ c (Proc.devRef .tc main_arg7) = m ((c : Thread nD τ).loc main_arg7) :=
  (B6_of_ne m ρ c main_arg7 (by decide)).trans ((B5_of m ρ c main_arg7 (by decide)).trans (B4_arg7 m ρ c))
theorem B0_arg8 : B0 m ρ c (Proc.devRef .tc main_arg8) = m ((c : Thread nD τ).loc main_arg8) := rfl
theorem B2_arg8 : B2 m ρ c (Proc.devRef .tc main_arg8) = m ((c : Thread nD τ).loc main_arg8) :=
  (B2_of_ne m ρ c main_arg8 (by decide)).trans ((B1_of m ρ c main_arg8 (by decide)).trans rfl)
theorem B4_arg8 : B4 m ρ c (Proc.devRef .tc main_arg8) = m ((c : Thread nD τ).loc main_arg8) :=
  (B4_of_ne m ρ c main_arg8 (by decide)).trans ((B3_of m ρ c main_arg8 (by decide)).trans (B2_arg8 m ρ c))
theorem B6_arg8 : B6 m ρ c (Proc.devRef .tc main_arg8) = m ((c : Thread nD τ).loc main_arg8) :=
  (B6_of_ne m ρ c main_arg8 (by decide)).trans ((B5_of m ρ c main_arg8 (by decide)).trans (B4_arg8 m ρ c))

/-! ## What each call is entered with -/

/-- Layer 0's previous hidden state: layer 0 of the stacked argument. -/
theorem e0_1 (r : Fin 4096) : row (B := 4096) (E1 m ρ c main_v1) r = stRow (kHp m c) (0 : Fin 4) r := by
  funext k
  have e : (B1 m ρ c (Proc.devRef .tc main_v1) : S4096x1024.Idx → EReal) = shapeCast S4096x1024 (extractStridedSlice S1x4096x1024 ![0, 0, 0] (B0 m ρ c (Proc.devRef .tc main_arg1)) slices_S4x4096x1024_S1x4096x1024_0_0_0) shapeCasts_S1x4096x1024_S4096x1024 := by
    dsimp only [B1, hostOps0]; after_results; rfl
  show (B1 m ρ c (Proc.devRef .tc main_v1) : S4096x1024.Idx → EReal) (ix2 r k) = _
  rw [e, B0_arg1]
  exact layer_state (0 : Fin 4) _ _ _ r k
/-- Layer 0's previous cell state. -/
theorem e0_2 (r : Fin 4096) : row (B := 4096) (E1 m ρ c main_v3) r = stRow (kCp m c) (0 : Fin 4) r := by
  funext k
  have e : (B1 m ρ c (Proc.devRef .tc main_v3) : S4096x1024.Idx → EReal) = shapeCast S4096x1024 (extractStridedSlice S1x4096x1024 ![0, 0, 0] (B0 m ρ c (Proc.devRef .tc main_arg2)) slices_S4x4096x1024_S1x4096x1024_0_0_0) shapeCasts_S1x4096x1024_S4096x1024 := by
    dsimp only [B1, hostOps0]; after_results; rfl
  show (B1 m ρ c (Proc.devRef .tc main_v3) : S4096x1024.Idx → EReal) (ix2 r k) = _
  rw [e, B0_arg2]
  exact layer_state (0 : Fin 4) _ _ _ r k
/-- Layer 0's input weights, narrowed in format: the same numbers. -/
theorem e0_3 : mat (N := 4096) (E1 m ρ c main_v6) = wMat (kWi m c) (0 : Fin 4) := by
  funext k j
  have e : (B1 m ρ c (Proc.devRef .tc main_v6) : S1024x4096.Idx → EReal) = truncf (F := Ideal) .bf16 (shapeCast S1024x4096 (extractStridedSlice S1x1024x4096 ![0, 0, 0] (B0 m ρ c (Proc.devRef .tc main_arg3)) slices_S4x1024x4096_S1x1024x4096_0_0_0) shapeCasts_S1x1024x4096_S1024x4096) bitsLt_bf16_f32 := by
    dsimp only [B1, hostOps0]; after_results; rfl
  show (B1 m ρ c (Proc.devRef .tc main_v6) : S1024x4096.Idx → EReal) (ix2 k j) = _
  rw [e, B0_arg3]
  exact layer_weight (0 : Fin 4) _ slices_S4x1024x4096_S1x1024x4096_0_0_0 shapeCasts_S1x1024x4096_S1024x4096 k j
/-- Layer 0's recurrent weights. -/
theorem e0_4 : mat (N := 4096) (E1 m ρ c main_v9) = wMat (kWh m c) (0 : Fin 4) := by
  funext k j
  have e : (B1 m ρ c (Proc.devRef .tc main_v9) : S1024x4096.Idx → EReal) = truncf (F := Ideal) .bf16 (shapeCast S1024x4096 (extractStridedSlice S1x1024x4096 ![0, 0, 0] (B0 m ρ c (Proc.devRef .tc main_arg4)) slices_S4x1024x4096_S1x1024x4096_0_0_0) shapeCasts_S1x1024x4096_S1024x4096) bitsLt_bf16_f32 := by
    dsimp only [B1, hostOps0]; after_results; rfl
  show (B1 m ρ c (Proc.devRef .tc main_v9) : S1024x4096.Idx → EReal) (ix2 k j) = _
  rw [e, B0_arg4]
  exact layer_weight (0 : Fin 4) _ slices_S4x1024x4096_S1x1024x4096_0_0_0 shapeCasts_S1x1024x4096_S1024x4096 k j
/-- Layer 0's two biases, added on the host and laid out as one row. -/
theorem e0_5 : vec (N := 4096) (E1 m ρ c main_v15) = bVec (kBi m c) (kBh m c) (0 : Fin 4) := by
  funext j
  have e : (B1 m ρ c (Proc.devRef .tc main_v15) : S1x4096.Idx → EReal) = shapeCast S1x4096 (addf (F := Ideal) (φ := .f32) (shapeCast S4096 (extractStridedSlice S1x4096 ![0, 0] (B0 m ρ c (Proc.devRef .tc main_arg5)) slices_S4x4096_S1x4096_0_0) shapeCasts_S1x4096_S4096) (shapeCast S4096 (extractStridedSlice S1x4096 ![0, 0] (B0 m ρ c (Proc.devRef .tc main_arg6)) slices_S4x4096_S1x4096_0_0) shapeCasts_S1x4096_S4096)) shapeCasts_S4096_S1x4096 := by
    dsimp only [B1, hostOps0]; after_results; rfl
  show (B1 m ρ c (Proc.devRef .tc main_v15) : S1x4096.Idx → EReal) (ix2 (0 : Fin 1) j) = _
  rw [e, B0_arg5, B0_arg6]
  refine (one_row (N := 4096) _ _ j).trans ?_
  exact congrArg₂ (· + ·) (layer_bias (0 : Fin 4) _ _ _ j) (layer_bias (0 : Fin 4) _ _ _ j)

/-- Layer 1's previous hidden state: layer 1 of the stacked argument. -/
theorem e1_1 (r : Fin 4096) : row (B := 4096) (E3 m ρ c main_v18) r = stRow (kHp m c) (1 : Fin 4) r := by
  funext k
  have e : (B3 m ρ c (Proc.devRef .tc main_v18) : S4096x1024.Idx → EReal) = shapeCast S4096x1024 (extractStridedSlice S1x4096x1024 ![1, 0, 0] (B2 m ρ c (Proc.devRef .tc main_arg1)) slices_S4x4096x1024_S1x4096x1024_1_0_0) shapeCasts_S1x4096x1024_S4096x1024 := by
    dsimp only [B3, hostOps1]; after_results; rfl
  show (B3 m ρ c (Proc.devRef .tc main_v18) : S4096x1024.Idx → EReal) (ix2 r k) = _
  rw [e, B2_arg1]
  exact layer_state (1 : Fin 4) _ _ _ r k
/-- Layer 1's previous cell state. -/
theorem e1_2 (r : Fin 4096) : row (B := 4096) (E3 m ρ c main_v20) r = stRow (kCp m c) (1 : Fin 4) r := by
  funext k
  have e : (B3 m ρ c (Proc.devRef .tc main_v20) : S4096x1024.Idx → EReal) = shapeCast S4096x1024 (extractStridedSlice S1x4096x1024 ![1, 0, 0] (B2 m ρ c (Proc.devRef .tc main_arg2)) slices_S4x4096x1024_S1x4096x1024_1_0_0) shapeCasts_S1x4096x1024_S4096x1024 := by
    dsimp only [B3, hostOps1]; after_results; rfl
  show (B3 m ρ c (Proc.devRef .tc main_v20) : S4096x1024.Idx → EReal) (ix2 r k) = _
  rw [e, B2_arg2]
  exact layer_state (1 : Fin 4) _ _ _ r k
/-- Layer 1's input weights, narrowed in format: the same numbers. -/
theorem e1_3 : mat (N := 4096) (E3 m ρ c main_v23) = wMat (kWi m c) (1 : Fin 4) := by
  funext k j
  have e : (B3 m ρ c (Proc.devRef .tc main_v23) : S1024x4096.Idx → EReal) = truncf (F := Ideal) .bf16 (shapeCast S1024x4096 (extractStridedSlice S1x1024x4096 ![1, 0, 0] (B2 m ρ c (Proc.devRef .tc main_arg3)) slices_S4x1024x4096_S1x1024x4096_1_0_0) shapeCasts_S1x1024x4096_S1024x4096) bitsLt_bf16_f32 := by
    dsimp only [B3, hostOps1]; after_results; rfl
  show (B3 m ρ c (Proc.devRef .tc main_v23) : S1024x4096.Idx → EReal) (ix2 k j) = _
  rw [e, B2_arg3]
  exact layer_weight (1 : Fin 4) _ slices_S4x1024x4096_S1x1024x4096_1_0_0 shapeCasts_S1x1024x4096_S1024x4096 k j
/-- Layer 1's recurrent weights. -/
theorem e1_4 : mat (N := 4096) (E3 m ρ c main_v26) = wMat (kWh m c) (1 : Fin 4) := by
  funext k j
  have e : (B3 m ρ c (Proc.devRef .tc main_v26) : S1024x4096.Idx → EReal) = truncf (F := Ideal) .bf16 (shapeCast S1024x4096 (extractStridedSlice S1x1024x4096 ![1, 0, 0] (B2 m ρ c (Proc.devRef .tc main_arg4)) slices_S4x1024x4096_S1x1024x4096_1_0_0) shapeCasts_S1x1024x4096_S1024x4096) bitsLt_bf16_f32 := by
    dsimp only [B3, hostOps1]; after_results; rfl
  show (B3 m ρ c (Proc.devRef .tc main_v26) : S1024x4096.Idx → EReal) (ix2 k j) = _
  rw [e, B2_arg4]
  exact layer_weight (1 : Fin 4) _ slices_S4x1024x4096_S1x1024x4096_1_0_0 shapeCasts_S1x1024x4096_S1024x4096 k j
/-- Layer 1's two biases, added on the host and laid out as one row. -/
theorem e1_5 : vec (N := 4096) (E3 m ρ c main_v32) = bVec (kBi m c) (kBh m c) (1 : Fin 4) := by
  funext j
  have e : (B3 m ρ c (Proc.devRef .tc main_v32) : S1x4096.Idx → EReal) = shapeCast S1x4096 (addf (F := Ideal) (φ := .f32) (shapeCast S4096 (extractStridedSlice S1x4096 ![1, 0] (B2 m ρ c (Proc.devRef .tc main_arg5)) slices_S4x4096_S1x4096_1_0) shapeCasts_S1x4096_S4096) (shapeCast S4096 (extractStridedSlice S1x4096 ![1, 0] (B2 m ρ c (Proc.devRef .tc main_arg6)) slices_S4x4096_S1x4096_1_0) shapeCasts_S1x4096_S4096)) shapeCasts_S4096_S1x4096 := by
    dsimp only [B3, hostOps1]; after_results; rfl
  show (B3 m ρ c (Proc.devRef .tc main_v32) : S1x4096.Idx → EReal) (ix2 (0 : Fin 1) j) = _
  rw [e, B2_arg5, B2_arg6]
  refine (one_row (N := 4096) _ _ j).trans ?_
  exact congrArg₂ (· + ·) (layer_bias (1 : Fin 4) _ _ _ j) (layer_bias (1 : Fin 4) _ _ _ j)

/-- Layer 2's previous hidden state: layer 2 of the stacked argument. -/
theorem e2_1 (r : Fin 4096) : row (B := 4096) (E5 m ρ c main_v35) r = stRow (kHp m c) (2 : Fin 4) r := by
  funext k
  have e : (B5 m ρ c (Proc.devRef .tc main_v35) : S4096x1024.Idx → EReal) = shapeCast S4096x1024 (extractStridedSlice S1x4096x1024 ![2, 0, 0] (B4 m ρ c (Proc.devRef .tc main_arg1)) slices_S4x4096x1024_S1x4096x1024_2_0_0) shapeCasts_S1x4096x1024_S4096x1024 := by
    dsimp only [B5, hostOps2]; after_results; rfl
  show (B5 m ρ c (Proc.devRef .tc main_v35) : S4096x1024.Idx → EReal) (ix2 r k) = _
  rw [e, B4_arg1]
  exact layer_state (2 : Fin 4) _ _ _ r k
/-- Layer 2's previous cell state. -/
theorem e2_2 (r : Fin 4096) : row (B := 4096) (E5 m ρ c main_v37) r = stRow (kCp m c) (2 : Fin 4) r := by
  funext k
  have e : (B5 m ρ c (Proc.devRef .tc main_v37) : S4096x1024.Idx → EReal) = shapeCast S4096x1024 (extractStridedSlice S1x4096x1024 ![2, 0, 0] (B4 m ρ c (Proc.devRef .tc main_arg2)) slices_S4x4096x1024_S1x4096x1024_2_0_0) shapeCasts_S1x4096x1024_S4096x1024 := by
    dsimp only [B5, hostOps2]; after_results; rfl
  show (B5 m ρ c (Proc.devRef .tc main_v37) : S4096x1024.Idx → EReal) (ix2 r k) = _
  rw [e, B4_arg2]
  exact layer_state (2 : Fin 4) _ _ _ r k
/-- Layer 2's input weights, narrowed in format: the same numbers. -/
theorem e2_3 : mat (N := 4096) (E5 m ρ c main_v40) = wMat (kWi m c) (2 : Fin 4) := by
  funext k j
  have e : (B5 m ρ c (Proc.devRef .tc main_v40) : S1024x4096.Idx → EReal) = truncf (F := Ideal) .bf16 (shapeCast S1024x4096 (extractStridedSlice S1x1024x4096 ![2, 0, 0] (B4 m ρ c (Proc.devRef .tc main_arg3)) slices_S4x1024x4096_S1x1024x4096_2_0_0) shapeCasts_S1x1024x4096_S1024x4096) bitsLt_bf16_f32 := by
    dsimp only [B5, hostOps2]; after_results; rfl
  show (B5 m ρ c (Proc.devRef .tc main_v40) : S1024x4096.Idx → EReal) (ix2 k j) = _
  rw [e, B4_arg3]
  exact layer_weight (2 : Fin 4) _ slices_S4x1024x4096_S1x1024x4096_2_0_0 shapeCasts_S1x1024x4096_S1024x4096 k j
/-- Layer 2's recurrent weights. -/
theorem e2_4 : mat (N := 4096) (E5 m ρ c main_v43) = wMat (kWh m c) (2 : Fin 4) := by
  funext k j
  have e : (B5 m ρ c (Proc.devRef .tc main_v43) : S1024x4096.Idx → EReal) = truncf (F := Ideal) .bf16 (shapeCast S1024x4096 (extractStridedSlice S1x1024x4096 ![2, 0, 0] (B4 m ρ c (Proc.devRef .tc main_arg4)) slices_S4x1024x4096_S1x1024x4096_2_0_0) shapeCasts_S1x1024x4096_S1024x4096) bitsLt_bf16_f32 := by
    dsimp only [B5, hostOps2]; after_results; rfl
  show (B5 m ρ c (Proc.devRef .tc main_v43) : S1024x4096.Idx → EReal) (ix2 k j) = _
  rw [e, B4_arg4]
  exact layer_weight (2 : Fin 4) _ slices_S4x1024x4096_S1x1024x4096_2_0_0 shapeCasts_S1x1024x4096_S1024x4096 k j
/-- Layer 2's two biases, added on the host and laid out as one row. -/
theorem e2_5 : vec (N := 4096) (E5 m ρ c main_v49) = bVec (kBi m c) (kBh m c) (2 : Fin 4) := by
  funext j
  have e : (B5 m ρ c (Proc.devRef .tc main_v49) : S1x4096.Idx → EReal) = shapeCast S1x4096 (addf (F := Ideal) (φ := .f32) (shapeCast S4096 (extractStridedSlice S1x4096 ![2, 0] (B4 m ρ c (Proc.devRef .tc main_arg5)) slices_S4x4096_S1x4096_2_0) shapeCasts_S1x4096_S4096) (shapeCast S4096 (extractStridedSlice S1x4096 ![2, 0] (B4 m ρ c (Proc.devRef .tc main_arg6)) slices_S4x4096_S1x4096_2_0) shapeCasts_S1x4096_S4096)) shapeCasts_S4096_S1x4096 := by
    dsimp only [B5, hostOps2]; after_results; rfl
  show (B5 m ρ c (Proc.devRef .tc main_v49) : S1x4096.Idx → EReal) (ix2 (0 : Fin 1) j) = _
  rw [e, B4_arg5, B4_arg6]
  refine (one_row (N := 4096) _ _ j).trans ?_
  exact congrArg₂ (· + ·) (layer_bias (2 : Fin 4) _ _ _ j) (layer_bias (2 : Fin 4) _ _ _ j)

/-- Layer 3's previous hidden state: layer 3 of the stacked argument. -/
theorem e3_1 (r : Fin 4096) : row (B := 4096) (E7 m ρ c main_v52) r = stRow (kHp m c) (3 : Fin 4) r := by
  funext k
  have e : (B7 m ρ c (Proc.devRef .tc main_v52) : S4096x1024.Idx → EReal) = shapeCast S4096x1024 (extractStridedSlice S1x4096x1024 ![3, 0, 0] (B6 m ρ c (Proc.devRef .tc main_arg1)) slices_S4x4096x1024_S1x4096x1024_3_0_0) shapeCasts_S1x4096x1024_S4096x1024 := by
    dsimp only [B7, hostOps3]; after_results; rfl
  show (B7 m ρ c (Proc.devRef .tc main_v52) : S4096x1024.Idx → EReal) (ix2 r k) = _
  rw [e, B6_arg1]
  exact layer_state (3 : Fin 4) _ _ _ r k
/-- Layer 3's previous cell state. -/
theorem e3_2 (r : Fin 4096) : row (B := 4096) (E7 m ρ c main_v54) r = stRow (kCp m c) (3 : Fin 4) r := by
  funext k
  have e : (B7 m ρ c (Proc.devRef .tc main_v54) : S4096x1024.Idx → EReal) = shapeCast S4096x1024 (extractStridedSlice S1x4096x1024 ![3, 0, 0] (B6 m ρ c (Proc.devRef .tc main_arg2)) slices_S4x4096x1024_S1x4096x1024_3_0_0) shapeCasts_S1x4096x1024_S4096x1024 := by
    dsimp only [B7, hostOps3]; after_results; rfl
  show (B7 m ρ c (Proc.devRef .tc main_v54) : S4096x1024.Idx → EReal) (ix2 r k) = _
  rw [e, B6_arg2]
  exact layer_state (3 : Fin 4) _ _ _ r k
/-- Layer 3's input weights, narrowed in format: the same numbers. -/
theorem e3_3 : mat (N := 4096) (E7 m ρ c main_v57) = wMat (kWi m c) (3 : Fin 4) := by
  funext k j
  have e : (B7 m ρ c (Proc.devRef .tc main_v57) : S1024x4096.Idx → EReal) = truncf (F := Ideal) .bf16 (shapeCast S1024x4096 (extractStridedSlice S1x1024x4096 ![3, 0, 0] (B6 m ρ c (Proc.devRef .tc main_arg3)) slices_S4x1024x4096_S1x1024x4096_3_0_0) shapeCasts_S1x1024x4096_S1024x4096) bitsLt_bf16_f32 := by
    dsimp only [B7, hostOps3]; after_results; rfl
  show (B7 m ρ c (Proc.devRef .tc main_v57) : S1024x4096.Idx → EReal) (ix2 k j) = _
  rw [e, B6_arg3]
  exact layer_weight (3 : Fin 4) _ slices_S4x1024x4096_S1x1024x4096_3_0_0 shapeCasts_S1x1024x4096_S1024x4096 k j
/-- Layer 3's recurrent weights. -/
theorem e3_4 : mat (N := 4096) (E7 m ρ c main_v60) = wMat (kWh m c) (3 : Fin 4) := by
  funext k j
  have e : (B7 m ρ c (Proc.devRef .tc main_v60) : S1024x4096.Idx → EReal) = truncf (F := Ideal) .bf16 (shapeCast S1024x4096 (extractStridedSlice S1x1024x4096 ![3, 0, 0] (B6 m ρ c (Proc.devRef .tc main_arg4)) slices_S4x1024x4096_S1x1024x4096_3_0_0) shapeCasts_S1x1024x4096_S1024x4096) bitsLt_bf16_f32 := by
    dsimp only [B7, hostOps3]; after_results; rfl
  show (B7 m ρ c (Proc.devRef .tc main_v60) : S1024x4096.Idx → EReal) (ix2 k j) = _
  rw [e, B6_arg4]
  exact layer_weight (3 : Fin 4) _ slices_S4x1024x4096_S1x1024x4096_3_0_0 shapeCasts_S1x1024x4096_S1024x4096 k j
/-- Layer 3's two biases, added on the host and laid out as one row. -/
theorem e3_5 : vec (N := 4096) (E7 m ρ c main_v66) = bVec (kBi m c) (kBh m c) (3 : Fin 4) := by
  funext j
  have e : (B7 m ρ c (Proc.devRef .tc main_v66) : S1x4096.Idx → EReal) = shapeCast S1x4096 (addf (F := Ideal) (φ := .f32) (shapeCast S4096 (extractStridedSlice S1x4096 ![3, 0] (B6 m ρ c (Proc.devRef .tc main_arg5)) slices_S4x4096_S1x4096_3_0) shapeCasts_S1x4096_S4096) (shapeCast S4096 (extractStridedSlice S1x4096 ![3, 0] (B6 m ρ c (Proc.devRef .tc main_arg6)) slices_S4x4096_S1x4096_3_0) shapeCasts_S1x4096_S4096)) shapeCasts_S4096_S1x4096 := by
    dsimp only [B7, hostOps3]; after_results; rfl
  show (B7 m ρ c (Proc.devRef .tc main_v66) : S1x4096.Idx → EReal) (ix2 (0 : Fin 1) j) = _
  rw [e, B6_arg5, B6_arg6]
  refine (one_row (N := 4096) _ _ j).trans ?_
  exact congrArg₂ (· + ·) (layer_bias (3 : Fin 4) _ _ _ j) (layer_bias (3 : Fin 4) _ _ _ j)

/-- The output projection's weights, narrowed in format. -/
theorem e3_6 : mat (N := 1024) (E7 m ρ c main_v67) = mat (kFw m c) := by
  funext k j
  have e : (B7 m ρ c (Proc.devRef .tc main_v67) : S1024x1024.Idx → EReal) = truncf (F := Ideal) .bf16 (B6 m ρ c (Proc.devRef .tc main_arg7) : S1024x1024.Idx → EReal) bitsLt_bf16_f32 := by
    dsimp only [B7, hostOps3]; after_results
  show (B7 m ρ c (Proc.devRef .tc main_v67) : S1024x1024.Idx → EReal) (ix2 k j) = _
  rw [e, B6_arg7]; rfl
/-- The output projection's bias, laid out as one row. -/
theorem e3_7 : vec (N := 1024) (E7 m ρ c main_v68) = fun o => kFb m c (ix1 o) := by
  funext o
  have e : (B7 m ρ c (Proc.devRef .tc main_v68) : S1x1024.Idx → EReal) = shapeCast S1x1024 (B6 m ρ c (Proc.devRef .tc main_arg8)) shapeCasts_S1024_S1x1024 := by
    dsimp only [B7, hostOps3]; after_results; rfl
  show (B7 m ρ c (Proc.devRef .tc main_v68) : S1x1024.Idx → EReal) (ix2 (0 : Fin 1) o) = _
  rw [e, B6_arg8]
  exact one_row (N := 1024) _ _ o

/-! ## The layers -/

/-- Layer 0's call computes the specification's layer 0 of its input. -/
theorem layer0_hid (inp : (⟨2, ![4096, 1024]⟩ : Shape).Idx → EReal) (hin : (E1 m ρ c main_arg0 : (⟨2, ![4096, 1024]⟩ : Shape).Idx → EReal) = inp) :
    hidArr (B := 4096) (E1 m ρ c main_arg0) (E1 m ρ c main_v1) (E1 m ρ c main_v3) (E1 m ρ c main_v6) (E1 m ρ c main_v9) (E1 m ρ c main_v15) = hidL (kHp m c) (kCp m c) (kWi m c) (kWh m c) (kBi m c) (kBh m c) inp (0 : Fin 4) := by
  funext i
  obtain ⟨r, q, rfl⟩ : ∃ (r : Fin 4096) (q : Fin 1024), i = ix2 r q := ⟨i 0, i 1, eq_ix2 i⟩
  rw [hidArr_apply, hidL_apply, hin, e0_1 m ρ c r, e0_2 m ρ c r, e0_3 m ρ c, e0_4 m ρ c, e0_5 m ρ c]
theorem layer0_cell (inp : (⟨2, ![4096, 1024]⟩ : Shape).Idx → EReal) (hin : (E1 m ρ c main_arg0 : (⟨2, ![4096, 1024]⟩ : Shape).Idx → EReal) = inp) :
    cellArr (B := 4096) (E1 m ρ c main_arg0) (E1 m ρ c main_v1) (E1 m ρ c main_v3) (E1 m ρ c main_v6) (E1 m ρ c main_v9) (E1 m ρ c main_v15) = cellL (kHp m c) (kCp m c) (kWi m c) (kWh m c) (kBi m c) (kBh m c) inp (0 : Fin 4) := by
  funext i
  obtain ⟨r, q, rfl⟩ : ∃ (r : Fin 4096) (q : Fin 1024), i = ix2 r q := ⟨i 0, i 1, eq_ix2 i⟩
  rw [cellArr_apply, cellL_apply, hin, e0_1 m ρ c r, e0_2 m ρ c r, e0_3 m ρ c, e0_4 m ρ c, e0_5 m ρ c]

/-- Layer 1's call computes the specification's layer 1 of its input. -/
theorem layer1_hid (inp : (⟨2, ![4096, 1024]⟩ : Shape).Idx → EReal) (hin : (E3 m ρ c main_v16_2 : (⟨2, ![4096, 1024]⟩ : Shape).Idx → EReal) = inp) :
    hidArr (B := 4096) (E3 m ρ c main_v16_2) (E3 m ρ c main_v18) (E3 m ρ c main_v20) (E3 m ρ c main_v23) (E3 m ρ c main_v26) (E3 m ρ c main_v32) = hidL (kHp m c) (kCp m c) (kWi m c) (kWh m c) (kBi m c) (kBh m c) inp (1 : Fin 4) := by
  funext i
  obtain ⟨r, q, rfl⟩ : ∃ (r : Fin 4096) (q : Fin 1024), i = ix2 r q := ⟨i 0, i 1, eq_ix2 i⟩
  rw [hidArr_apply, hidL_apply, hin, e1_1 m ρ c r, e1_2 m ρ c r, e1_3 m ρ c, e1_4 m ρ c, e1_5 m ρ c]
theorem layer1_cell (inp : (⟨2, ![4096, 1024]⟩ : Shape).Idx → EReal) (hin : (E3 m ρ c main_v16_2 : (⟨2, ![4096, 1024]⟩ : Shape).Idx → EReal) = inp) :
    cellArr (B := 4096) (E3 m ρ c main_v16_2) (E3 m ρ c main_v18) (E3 m ρ c main_v20) (E3 m ρ c main_v23) (E3 m ρ c main_v26) (E3 m ρ c main_v32) = cellL (kHp m c) (kCp m c) (kWi m c) (kWh m c) (kBi m c) (kBh m c) inp (1 : Fin 4) := by
  funext i
  obtain ⟨r, q, rfl⟩ : ∃ (r : Fin 4096) (q : Fin 1024), i = ix2 r q := ⟨i 0, i 1, eq_ix2 i⟩
  rw [cellArr_apply, cellL_apply, hin, e1_1 m ρ c r, e1_2 m ρ c r, e1_3 m ρ c, e1_4 m ρ c, e1_5 m ρ c]

/-- Layer 2's call computes the specification's layer 2 of its input. -/
theorem layer2_hid (inp : (⟨2, ![4096, 1024]⟩ : Shape).Idx → EReal) (hin : (E5 m ρ c main_v33_2 : (⟨2, ![4096, 1024]⟩ : Shape).Idx → EReal) = inp) :
    hidArr (B := 4096) (E5 m ρ c main_v33_2) (E5 m ρ c main_v35) (E5 m ρ c main_v37) (E5 m ρ c main_v40) (E5 m ρ c main_v43) (E5 m ρ c main_v49) = hidL (kHp m c) (kCp m c) (kWi m c) (kWh m c) (kBi m c) (kBh m c) inp (2 : Fin 4) := by
  funext i
  obtain ⟨r, q, rfl⟩ : ∃ (r : Fin 4096) (q : Fin 1024), i = ix2 r q := ⟨i 0, i 1, eq_ix2 i⟩
  rw [hidArr_apply, hidL_apply, hin, e2_1 m ρ c r, e2_2 m ρ c r, e2_3 m ρ c, e2_4 m ρ c, e2_5 m ρ c]
theorem layer2_cell (inp : (⟨2, ![4096, 1024]⟩ : Shape).Idx → EReal) (hin : (E5 m ρ c main_v33_2 : (⟨2, ![4096, 1024]⟩ : Shape).Idx → EReal) = inp) :
    cellArr (B := 4096) (E5 m ρ c main_v33_2) (E5 m ρ c main_v35) (E5 m ρ c main_v37) (E5 m ρ c main_v40) (E5 m ρ c main_v43) (E5 m ρ c main_v49) = cellL (kHp m c) (kCp m c) (kWi m c) (kWh m c) (kBi m c) (kBh m c) inp (2 : Fin 4) := by
  funext i
  obtain ⟨r, q, rfl⟩ : ∃ (r : Fin 4096) (q : Fin 1024), i = ix2 r q := ⟨i 0, i 1, eq_ix2 i⟩
  rw [cellArr_apply, cellL_apply, hin, e2_1 m ρ c r, e2_2 m ρ c r, e2_3 m ρ c, e2_4 m ρ c, e2_5 m ρ c]

/-- Layer 3's call computes the specification's layer 3 of its input. -/
theorem layer3_hid (inp : (⟨2, ![4096, 1024]⟩ : Shape).Idx → EReal) (hin : (E7 m ρ c main_v50_2 : (⟨2, ![4096, 1024]⟩ : Shape).Idx → EReal) = inp) :
    hidArr (B := 4096) (E7 m ρ c main_v50_2) (E7 m ρ c main_v52) (E7 m ρ c main_v54) (E7 m ρ c main_v57) (E7 m ρ c main_v60) (E7 m ρ c main_v66) = hidL (kHp m c) (kCp m c) (kWi m c) (kWh m c) (kBi m c) (kBh m c) inp (3 : Fin 4) := by
  funext i
  obtain ⟨r, q, rfl⟩ : ∃ (r : Fin 4096) (q : Fin 1024), i = ix2 r q := ⟨i 0, i 1, eq_ix2 i⟩
  rw [hidArr_apply, hidL_apply, hin, e3_1 m ρ c r, e3_2 m ρ c r, e3_3 m ρ c, e3_4 m ρ c, e3_5 m ρ c]
theorem layer3_cell (inp : (⟨2, ![4096, 1024]⟩ : Shape).Idx → EReal) (hin : (E7 m ρ c main_v50_2 : (⟨2, ![4096, 1024]⟩ : Shape).Idx → EReal) = inp) :
    cellArr (B := 4096) (E7 m ρ c main_v50_2) (E7 m ρ c main_v52) (E7 m ρ c main_v54) (E7 m ρ c main_v57) (E7 m ρ c main_v60) (E7 m ρ c main_v66) = cellL (kHp m c) (kCp m c) (kWi m c) (kWh m c) (kBi m c) (kBh m c) inp (3 : Fin 4) := by
  funext i
  obtain ⟨r, q, rfl⟩ : ∃ (r : Fin 4096) (q : Fin 1024), i = ix2 r q := ⟨i 0, i 1, eq_ix2 i⟩
  rw [cellArr_apply, cellL_apply, hin, e3_1 m ρ c r, e3_2 m ρ c r, e3_3 m ρ c, e3_4 m ρ c, e3_5 m ρ c]

theorem in0 : (E1 m ρ c main_arg0 : (⟨2, ![4096, 1024]⟩ : Shape).Idx → EReal) = kX m c := B1_arg0 m ρ c
/-- Layer 0's hidden state when its call returns. -/
theorem kh0 : (B2 m ρ c (Proc.devRef .tc main_v16_0) : (⟨2, ![4096, 1024]⟩ : Shape).Idx → EReal) = H0 (kX m c) (kHp m c) (kCp m c) (kWi m c) (kWh m c) (kBi m c) (kBh m c) :=
  ((B2_arr m ρ c 6).trans (final0_6 (E1 m ρ) c)).trans (layer0_hid m ρ c (kX m c) (in0 m ρ c))
/-- Layer 0's cell state when its call returns. -/
theorem kc0 : (B2 m ρ c (Proc.devRef .tc main_v16_1) : (⟨2, ![4096, 1024]⟩ : Shape).Idx → EReal) = C0 (kX m c) (kHp m c) (kCp m c) (kWi m c) (kWh m c) (kBi m c) (kBh m c) :=
  ((B2_arr m ρ c 7).trans (final0_7 (E1 m ρ) c)).trans (layer0_cell m ρ c (kX m c) (in0 m ρ c))
/-- The copy of layer 0's hidden state that layer 1 reads. -/
theorem kb0 : (B2 m ρ c (Proc.devRef .tc main_v16_2) : (⟨2, ![4096, 1024]⟩ : Shape).Idx → EReal) = H0 (kX m c) (kHp m c) (kCp m c) (kWi m c) (kWh m c) (kBi m c) (kBh m c) :=
  ((B2_arr m ρ c 8).trans (final0_8 (E1 m ρ) c)).trans (layer0_hid m ρ c (kX m c) (in0 m ρ c))

theorem in1 : (E3 m ρ c main_v16_2 : (⟨2, ![4096, 1024]⟩ : Shape).Idx → EReal) = H0 (kX m c) (kHp m c) (kCp m c) (kWi m c) (kWh m c) (kBi m c) (kBh m c) :=
  (B3_of m ρ c main_v16_2 (by decide)).trans (kb0 m ρ c)
/-- Layer 1's hidden state when its call returns. -/
theorem kh1 : (B4 m ρ c (Proc.devRef .tc main_v33_0) : (⟨2, ![4096, 1024]⟩ : Shape).Idx → EReal) = H1 (kX m c) (kHp m c) (kCp m c) (kWi m c) (kWh m c) (kBi m c) (kBh m c) :=
  ((B4_arr m ρ c 6).trans (final1_6 (E3 m ρ) c)).trans (layer1_hid m ρ c (H0 (kX m c) (kHp m c) (kCp m c) (kWi m c) (kWh m c) (kBi m c) (kBh m c)) (in1 m ρ c))
/-- Layer 1's cell state when its call returns. -/
theorem kc1 : (B4 m ρ c (Proc.devRef .tc main_v33_1) : (⟨2, ![4096, 1024]⟩ : Shape).Idx → EReal) = C1 (kX m c) (kHp m c) (kCp m c) (kWi m c) (kWh m c) (kBi m c) (kBh m c) :=
  ((B4_arr m ρ c 7).trans (final1_7 (E3 m ρ) c)).trans (layer1_cell m ρ c (H0 (kX m c) (kHp m c) (kCp m c) (kWi m c) (kWh m c) (kBi m c) (kBh m c)) (in1 m ρ c))
/-- The copy of layer 1's hidden state that layer 2 reads. -/
theorem kb1 : (B4 m ρ c (Proc.devRef .tc main_v33_2) : (⟨2, ![4096, 1024]⟩ : Shape).Idx → EReal) = H1 (kX m c) (kHp m c) (kCp m c) (kWi m c) (kWh m c) (kBi m c) (kBh m c) :=
  ((B4_arr m ρ c 8).trans (final1_8 (E3 m ρ) c)).trans (layer1_hid m ρ c (H0 (kX m c) (kHp m c) (kCp m c) (kWi m c) (kWh m c) (kBi m c) (kBh m c)) (in1 m ρ c))

theorem in2 : (E5 m ρ c main_v33_2 : (⟨2, ![4096, 1024]⟩ : Shape).Idx → EReal) = H1 (kX m c) (kHp m c) (kCp m c) (kWi m c) (kWh m c) (kBi m c) (kBh m c) :=
  (B5_of m ρ c main_v33_2 (by decide)).trans (kb1 m ρ c)
/-- Layer 2's hidden state when its call returns. -/
theorem kh2 : (B6 m ρ c (Proc.devRef .tc main_v50_0) : (⟨2, ![4096, 1024]⟩ : Shape).Idx → EReal) = H2 (kX m c) (kHp m c) (kCp m c) (kWi m c) (kWh m c) (kBi m c) (kBh m c) :=
  ((B6_arr m ρ c 6).trans (final2_6 (E5 m ρ) c)).trans (layer2_hid m ρ c (H1 (kX m c) (kHp m c) (kCp m c) (kWi m c) (kWh m c) (kBi m c) (kBh m c)) (in2 m ρ c))
/-- Layer 2's cell state when its call returns. -/
theorem kc2 : (B6 m ρ c (Proc.devRef .tc main_v50_1) : (⟨2, ![4096, 1024]⟩ : Shape).Idx → EReal) = C2 (kX m c) (kHp m c) (kCp m c) (kWi m c) (kWh m c) (kBi m c) (kBh m c) :=
  ((B6_arr m ρ c 7).trans (final2_7 (E5 m ρ) c)).trans (layer2_cell m ρ c (H1 (kX m c) (kHp m c) (kCp m c) (kWi m c) (kWh m c) (kBi m c) (kBh m c)) (in2 m ρ c))
/-- The copy of layer 2's hidden state that layer 3 reads. -/
theorem kb2 : (B6 m ρ c (Proc.devRef .tc main_v50_2) : (⟨2, ![4096, 1024]⟩ : Shape).Idx → EReal) = H2 (kX m c) (kHp m c) (kCp m c) (kWi m c) (kWh m c) (kBi m c) (kBh m c) :=
  ((B6_arr m ρ c 8).trans (final2_8 (E5 m ρ) c)).trans (layer2_hid m ρ c (H1 (kX m c) (kHp m c) (kCp m c) (kWi m c) (kWh m c) (kBi m c) (kBh m c)) (in2 m ρ c))

theorem in3 : (E7 m ρ c main_v50_2 : (⟨2, ![4096, 1024]⟩ : Shape).Idx → EReal) = H2 (kX m c) (kHp m c) (kCp m c) (kWi m c) (kWh m c) (kBi m c) (kBh m c) :=
  (B7_of m ρ c main_v50_2 (by decide)).trans (kb2 m ρ c)
/-- Layer 3's hidden state when its call returns. -/
theorem kh3 : (B8 m ρ c (Proc.devRef .tc main_v69_0) : (⟨2, ![4096, 1024]⟩ : Shape).Idx → EReal) = H3 (kX m c) (kHp m c) (kCp m c) (kWi m c) (kWh m c) (kBi m c) (kBh m c) :=
  ((B8_arr m ρ c 8).trans (final3_8 (E7 m ρ) c)).trans (layer3_hid m ρ c (H2 (kX m c) (kHp m c) (kCp m c) (kWi m c) (kWh m c) (kBi m c) (kBh m c)) (in3 m ρ c))
/-- Layer 3's cell state when its call returns. -/
theorem kc3 : (B8 m ρ c (Proc.devRef .tc main_v69_1) : (⟨2, ![4096, 1024]⟩ : Shape).Idx → EReal) = C3 (kX m c) (kHp m c) (kCp m c) (kWi m c) (kWh m c) (kBi m c) (kBh m c) :=
  ((B8_arr m ρ c 9).trans (final3_9 (E7 m ρ) c)).trans (layer3_cell m ρ c (H2 (kX m c) (kHp m c) (kCp m c) (kWi m c) (kWh m c) (kBi m c) (kBh m c)) (in3 m ρ c))

/-- The output projection when the last call returns. -/
theorem ky : (B8 m ρ c (Proc.devRef .tc main_v69_2) : (⟨2, ![4096, 1024]⟩ : Shape).Idx → EReal) = Y (kX m c) (kHp m c) (kCp m c) (kWi m c) (kWh m c) (kBi m c) (kBh m c) (kFw m c) (kFb m c) := by
  refine ((B8_arr m ρ c 10).trans (final3_10 (E7 m ρ) c)).trans ?_
  funext i
  obtain ⟨r, o, rfl⟩ : ∃ (r : Fin 4096) (o : Fin 1024), i = ix2 r o := ⟨i 0, i 1, eq_ix2 i⟩
  rw [outArr_apply]
  show _ = outRow (row (H3 (kX m c) (kHp m c) (kCp m c) (kWi m c) (kWh m c) (kBi m c) (kBh m c)) r) (mat (kFw m c)) (fun o => kFb m c (ix1 o)) o
  have hrow : hidRow (row (B := 4096) (E7 m ρ c main_v50_2) r) (row (B := 4096) (E7 m ρ c main_v52) r) (row (B := 4096) (E7 m ρ c main_v54) r) (mat (N := 4096) (E7 m ρ c main_v57)) (mat (N := 4096) (E7 m ρ c main_v60)) (vec (N := 4096) (E7 m ρ c main_v66))
      = row (H3 (kX m c) (kHp m c) (kCp m c) (kWi m c) (kWh m c) (kBi m c) (kBh m c)) r := by
    funext k
    show _ = hidL (kHp m c) (kCp m c) (kWi m c) (kWh m c) (kBi m c) (kBh m c) (H2 (kX m c) (kHp m c) (kCp m c) (kWi m c) (kWh m c) (kBi m c) (kBh m c)) 3 (ix2 r k)
    rw [hidL_apply, in3 m ρ c, e3_1 m ρ c r, e3_2 m ρ c r, e3_3 m ρ c, e3_4 m ρ c, e3_5 m ρ c]
  rw [hrow, e3_6 m ρ c, e3_7 m ρ c]

/-! ## The results at the return -/

theorem res_y : (B9 m ρ c (Proc.devRef .tc main_v69_2) : (⟨2, ![4096, 1024]⟩ : Shape).Idx → EReal) = Y (kX m c) (kHp m c) (kCp m c) (kWi m c) (kWh m c) (kBi m c) (kBh m c) (kFw m c) (kFb m c) :=
  (B9_of m ρ c main_v69_2 (by decide)).trans (ky m ρ c)

theorem B8_h0 : (B8 m ρ c (Proc.devRef .tc main_v16_0) : (⟨2, ![4096, 1024]⟩ : Shape).Idx → EReal) = H0 (kX m c) (kHp m c) (kCp m c) (kWi m c) (kWh m c) (kBi m c) (kBh m c) := (B8_of_ne m ρ c main_v16_0 (by decide)).trans <| (B7_of m ρ c main_v16_0 (by decide)).trans <| (B6_of_ne m ρ c main_v16_0 (by decide)).trans <| (B5_of m ρ c main_v16_0 (by decide)).trans <| (B4_of_ne m ρ c main_v16_0 (by decide)).trans <| (B3_of m ρ c main_v16_0 (by decide)).trans <| kh0 m ρ c
theorem B8_h1 : (B8 m ρ c (Proc.devRef .tc main_v33_0) : (⟨2, ![4096, 1024]⟩ : Shape).Idx → EReal) = H1 (kX m c) (kHp m c) (kCp m c) (kWi m c) (kWh m c) (kBi m c) (kBh m c) := (B8_of_ne m ρ c main_v33_0 (by decide)).trans <| (B7_of m ρ c main_v33_0 (by decide)).trans <| (B6_of_ne m ρ c main_v33_0 (by decide)).trans <| (B5_of m ρ c main_v33_0 (by decide)).trans <| kh1 m ρ c
theorem B8_h2 : (B8 m ρ c (Proc.devRef .tc main_v50_0) : (⟨2, ![4096, 1024]⟩ : Shape).Idx → EReal) = H2 (kX m c) (kHp m c) (kCp m c) (kWi m c) (kWh m c) (kBi m c) (kBh m c) := (B8_of_ne m ρ c main_v50_0 (by decide)).trans <| (B7_of m ρ c main_v50_0 (by decide)).trans <| kh2 m ρ c
theorem B8_h3 : (B8 m ρ c (Proc.devRef .tc main_v69_0) : (⟨2, ![4096, 1024]⟩ : Shape).Idx → EReal) = H3 (kX m c) (kHp m c) (kCp m c) (kWi m c) (kWh m c) (kBi m c) (kBh m c) := kh3 m ρ c
theorem B8_c0 : (B8 m ρ c (Proc.devRef .tc main_v16_1) : (⟨2, ![4096, 1024]⟩ : Shape).Idx → EReal) = C0 (kX m c) (kHp m c) (kCp m c) (kWi m c) (kWh m c) (kBi m c) (kBh m c) := (B8_of_ne m ρ c main_v16_1 (by decide)).trans <| (B7_of m ρ c main_v16_1 (by decide)).trans <| (B6_of_ne m ρ c main_v16_1 (by decide)).trans <| (B5_of m ρ c main_v16_1 (by decide)).trans <| (B4_of_ne m ρ c main_v16_1 (by decide)).trans <| (B3_of m ρ c main_v16_1 (by decide)).trans <| kc0 m ρ c
theorem B8_c1 : (B8 m ρ c (Proc.devRef .tc main_v33_1) : (⟨2, ![4096, 1024]⟩ : Shape).Idx → EReal) = C1 (kX m c) (kHp m c) (kCp m c) (kWi m c) (kWh m c) (kBi m c) (kBh m c) := (B8_of_ne m ρ c main_v33_1 (by decide)).trans <| (B7_of m ρ c main_v33_1 (by decide)).trans <| (B6_of_ne m ρ c main_v33_1 (by decide)).trans <| (B5_of m ρ c main_v33_1 (by decide)).trans <| kc1 m ρ c
theorem B8_c2 : (B8 m ρ c (Proc.devRef .tc main_v50_1) : (⟨2, ![4096, 1024]⟩ : Shape).Idx → EReal) = C2 (kX m c) (kHp m c) (kCp m c) (kWi m c) (kWh m c) (kBi m c) (kBh m c) := (B8_of_ne m ρ c main_v50_1 (by decide)).trans <| (B7_of m ρ c main_v50_1 (by decide)).trans <| kc2 m ρ c
theorem B8_c3 : (B8 m ρ c (Proc.devRef .tc main_v69_1) : (⟨2, ![4096, 1024]⟩ : Shape).Idx → EReal) = C3 (kX m c) (kHp m c) (kCp m c) (kWi m c) (kWh m c) (kBi m c) (kBh m c) := kc3 m ρ c

/-- The stacked hidden states at the return. -/
theorem res_h : (B9 m ρ c (Proc.devRef .tc main_v74) : (⟨3, ![4, 4096, 1024]⟩ : Shape).Idx → EReal)
    = cat4 bcast_S4096x1024_S1x4096x1024_1_2 concatenates_S1x4096x1024_S1x4096x1024_S1x4096x1024_S1x4096x1024_S4x4096x1024_d0 (H0 (kX m c) (kHp m c) (kCp m c) (kWi m c) (kWh m c) (kBi m c) (kBh m c)) (H1 (kX m c) (kHp m c) (kCp m c) (kWi m c) (kWh m c) (kBi m c) (kBh m c)) (H2 (kX m c) (kHp m c) (kCp m c) (kWi m c) (kWh m c) (kBi m c) (kBh m c)) (H3 (kX m c) (kHp m c) (kCp m c) (kWi m c) (kWh m c) (kBi m c) (kBh m c)) := by
  have e : (B9 m ρ c (Proc.devRef .tc main_v74) : S4x4096x1024.Idx → EReal) = cat4 bcast_S4096x1024_S1x4096x1024_1_2 concatenates_S1x4096x1024_S1x4096x1024_S1x4096x1024_S1x4096x1024_S4x4096x1024_d0
      (B8 m ρ c (Proc.devRef .tc main_v16_0)) (B8 m ρ c (Proc.devRef .tc main_v33_0)) (B8 m ρ c (Proc.devRef .tc main_v50_0)) (B8 m ρ c (Proc.devRef .tc main_v69_0)) := by
    dsimp only [B9, hostOps4]; after_results; rfl
  rw [e, B8_h0 m ρ c, B8_h1 m ρ c, B8_h2 m ρ c, B8_h3 m ρ c]

/-- The stacked cell states at the return. -/
theorem res_c : (B9 m ρ c (Proc.devRef .tc main_v79) : (⟨3, ![4, 4096, 1024]⟩ : Shape).Idx → EReal)
    = cat4 bcast_S4096x1024_S1x4096x1024_1_2 concatenates_S1x4096x1024_S1x4096x1024_S1x4096x1024_S1x4096x1024_S4x4096x1024_d0 (C0 (kX m c) (kHp m c) (kCp m c) (kWi m c) (kWh m c) (kBi m c) (kBh m c)) (C1 (kX m c) (kHp m c) (kCp m c) (kWi m c) (kWh m c) (kBi m c) (kBh m c)) (C2 (kX m c) (kHp m c) (kCp m c) (kWi m c) (kWh m c) (kBi m c) (kBh m c)) (C3 (kX m c) (kHp m c) (kCp m c) (kWi m c) (kWh m c) (kBi m c) (kBh m c)) := by
  have e : (B9 m ρ c (Proc.devRef .tc main_v79) : S4x4096x1024.Idx → EReal) = cat4 bcast_S4096x1024_S1x4096x1024_1_2 concatenates_S1x4096x1024_S1x4096x1024_S1x4096x1024_S1x4096x1024_S4x4096x1024_d0
      (B8 m ρ c (Proc.devRef .tc main_v16_1)) (B8 m ρ c (Proc.devRef .tc main_v33_1)) (B8 m ρ c (Proc.devRef .tc main_v50_1)) (B8 m ρ c (Proc.devRef .tc main_v69_1)) := by
    dsimp only [B9, hostOps4]; after_results; rfl
  rw [e, B8_c0 m ρ c, B8_c1 m ρ c, B8_c2 m ρ c, B8_c3 m ρ c]

end Cert.KernelIdeal.Hand

end
-- ==== Proof.RefFrame.lean ====
import proofs.«125291_j75917841924156_2_alg».proof.Defs
import proofs.«125291_j75917841924156_2_alg».proof.Proof.Gen.ReferenceIdeal.Run
import proofs.«125291_j75917841924156_2_alg».proof.Proof.Gen.Pre_finite_inputs

/-!
# The reference terminates and leaves its arguments alone

The reference is a straight line of host operations: four layers of two matrix products, two bias additions, the
gate functions and the state update, then the stacking of the states and the output projection. Its run ends with
every argument as launched.
-/

noncomputable section

namespace Cert.Proof.RefClaims

open Idealize.ShloMosaic Idealize.ShloMosaic.TcCoe Idealize.SL.Sem

theorem frame_ri : Cert.frame_ReferenceIdeal := fun m ρ _ =>
  (θ_run Cert.ReferenceIdeal.defs _ _).mono (fun _ h c => (h c).2.2.2) (Cert.ReferenceIdeal.Value.run (F := Ideal) m ρ)

end Cert.Proof.RefClaims

end
-- ==== Proof.RefValue.lean ====
import proofs.«125291_j75917841924156_2_alg».proof.Proof.Gen.ReferenceIdeal.Run
import proofs.«125291_j75917841924156_2_alg».proof.Proof.LayerSpec
import Idealize.ShloMosaic.Lib.ValueIdx
import Idealize.ShloMosaic.Lib.Pipeline.Value
import Idealize.ShloMosaic.PureOps.Ideal.Laws

/-!
# The reference, layer by layer, one row at a time

The reference computes a layer on whole arrays: two matrix products, each bias broadcast along the batch axis and
added, the four column groups sliced out, `1 / (1 + e^(−u))` spelt with its four operations, the cell and hidden
updates. Read at a batch row `r` and a column, each of these is the row function of the specification applied to row
`r` of the operands; the gate sum is regrouped once.
-/

noncomputable section

open scoped BigOperators

namespace Cert.ReferenceIdeal.RefValue

open Cert.ReferenceIdeal Cert.ReferenceIdeal.Gen Cert.ReferenceIdeal.Value Cert.LayerSpec
open Idealize.ShloMosaic Idealize.ShloMosaic.ValueIdx Idealize.ShloMosaic.TcCoe

local notation "dH" => dot_S4096x1024_S1024x4096_S4096x4096_1_0_0_1_n_n
local notation "dF" => dot_S4096x1024_S1024x1024_S4096x1024_1_0_0_1_n_n

/-! ## The operations at an index -/

/-- A whole-array product with the weights, at row `r` and column `j`: the sum over the contracted axis. -/
theorem dotH_apply (x : FVec Ideal S4096x1024 .f32) (w : FVec Ideal S1024x4096 .f32) (r : Fin 4096) (j : Fin 4096) :
    Host.dotGeneral dH none x w (ix2 r j) = ∑ k : Fin 1024, x (ix2 r k) * w (ix2 k j) := by
  refine (Ideal.dotGeneral_apply dH none .single x w (ix2 r j)).trans ?_
  rw [← Equiv.sum_comp (contrEquiv1 dH 1024 rfl rfl).symm]
  refine Finset.sum_congr rfl fun k _ => ?_
  have hl : (dH).lhsIdx (ix2 r j) ((contrEquiv1 dH 1024 rfl rfl).symm k) = ix2 r k := by
    funext a; apply Fin.ext
    match a with
    | ⟨0, _⟩ => rfl
    | ⟨1, _⟩ => exact ((dH).lhsIdx_val_of_single (cl := (1 : Fin 2)) rfl (ix2 r j) _).trans (contrEquiv1_symm_val dH 1024 rfl rfl k)
  have hr : (dH).rhsIdx (ix2 r j) ((contrEquiv1 dH 1024 rfl rfl).symm k) = ix2 k j := by
    funext a; apply Fin.ext
    match a with
    | ⟨0, _⟩ => exact ((dH).rhsIdx_val_of_single (cr := (0 : Fin 2)) rfl (ix2 r j) _).trans (contrEquiv1_symm_val dH 1024 rfl rfl k)
    | ⟨1, _⟩ => rfl
  rw [hl, hr]

/-- The output projection's product likewise. -/
theorem dotF_apply (x : FVec Ideal S4096x1024 .f32) (w : FVec Ideal S1024x1024 .f32) (r : Fin 4096) (o : Fin 1024) :
    Host.dotGeneral dF none x w (ix2 r o) = ∑ k : Fin 1024, x (ix2 r k) * w (ix2 k o) := by
  refine (Ideal.dotGeneral_apply dF none .single x w (ix2 r o)).trans ?_
  rw [← Equiv.sum_comp (contrEquiv1 dF 1024 rfl rfl).symm]
  refine Finset.sum_congr rfl fun k _ => ?_
  have hl : (dF).lhsIdx (ix2 r o) ((contrEquiv1 dF 1024 rfl rfl).symm k) = ix2 r k := by
    funext a; apply Fin.ext
    match a with
    | ⟨0, _⟩ => rfl
    | ⟨1, _⟩ => exact ((dF).lhsIdx_val_of_single (cl := (1 : Fin 2)) rfl (ix2 r o) _).trans (contrEquiv1_symm_val dF 1024 rfl rfl k)
  have hr : (dF).rhsIdx (ix2 r o) ((contrEquiv1 dF 1024 rfl rfl).symm k) = ix2 k o := by
    funext a; apply Fin.ext
    match a with
    | ⟨0, _⟩ => exact ((dF).rhsIdx_val_of_single (cr := (0 : Fin 2)) rfl (ix2 r o) _).trans (contrEquiv1_symm_val dF 1024 rfl rfl k)
    | ⟨1, _⟩ => rfl
  rw [hl, hr]

/-- A bias vector broadcast along the batch axis, at row `r` and column `j`, is its entry `j`. -/
theorem bias_apply (b : FVec Ideal S4096 .f32) (r : Fin 4096) (j : Fin 4096) :
    broadcastInDim S4096x4096 ![0, 1] bcast_S1x4096_S4096x4096_0_1 (broadcastInDim S1x4096 ![1] bcast_S4096_S1x4096_1 b) (ix2 r j) = b (ix1 j) :=
  (broadcastInDim_apply _ _ _ (ix2 r j) (ix2 (0 : Fin 1) j) (fun a => by match a with | ⟨0, _⟩ => rfl | ⟨1, _⟩ => rfl)).trans
    (broadcastInDim_apply _ _ _ (ix2 (0 : Fin 1) j) (ix1 j) (fun a => by match a with | ⟨0, _⟩ => rfl))

theorem fcb_apply (b : FVec Ideal S1024 .f32) (r : Fin 4096) (o : Fin 1024) :
    broadcastInDim S4096x1024 ![0, 1] bcast_S1x1024_S4096x1024_0_1 (broadcastInDim S1x1024 ![1] bcast_S1024_S1x1024_1 b) (ix2 r o) = b (ix1 o) :=
  (broadcastInDim_apply _ _ _ (ix2 r o) (ix2 (0 : Fin 1) o) (fun a => by match a with | ⟨0, _⟩ => rfl | ⟨1, _⟩ => rfl)).trans
    (broadcastInDim_apply _ _ _ (ix2 (0 : Fin 1) o) (ix1 o) (fun a => by match a with | ⟨0, _⟩ => rfl))

/-! ## A layer on whole arrays -/

/-- The gate pre-activations as the reference forms them. -/
def gatesR (x h : FVec Ideal S4096x1024 .f32) (wi wh : FVec Ideal S1024x4096 .f32) (bi bh : FVec Ideal S4096 .f32) : FVec Ideal S4096x4096 .f32 :=
  addf (addf (addf (Host.dotGeneral dH none x wi) (broadcastInDim S4096x4096 ![0, 1] bcast_S1x4096_S4096x4096_0_1 (broadcastInDim S1x4096 ![1] bcast_S4096_S1x4096_1 bi))) (Host.dotGeneral dH none h wh)) (broadcastInDim S4096x4096 ![0, 1] bcast_S1x4096_S4096x4096_0_1 (broadcastInDim S1x4096 ![1] bcast_S4096_S1x4096_1 bh))

/-- `1 / (1 + e^(−u))` spelt with its four operations. -/
def sigR (u : FVec Ideal S4096x1024 .f32) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf u)))

/-- The new cell state as the reference forms it. -/
def cellR (g : FVec Ideal S4096x4096 .f32) (c : FVec Ideal S4096x1024 .f32) : FVec Ideal S4096x1024 .f32 :=
  addf (mulf (sigR (extractStridedSlice S4096x1024 ![0, 1024] g slices_S4096x4096_S4096x1024_0_1024)) c) (mulf (sigR (extractStridedSlice S4096x1024 ![0, 0] g slices_S4096x4096_S4096x1024_0_0)) (Host.tanh (extractStridedSlice S4096x1024 ![0, 2048] g slices_S4096x4096_S4096x1024_0_2048)))

/-- The new hidden state as the reference forms it. -/
def hidR (g : FVec Ideal S4096x4096 .f32) (c' : FVec Ideal S4096x1024 .f32) : FVec Ideal S4096x1024 .f32 :=
  mulf (sigR (extractStridedSlice S4096x1024 ![0, 3072] g slices_S4096x4096_S4096x1024_0_3072)) (Host.tanh c')

theorem gatesR_apply (x h : FVec Ideal S4096x1024 .f32) (wi wh : FVec Ideal S1024x4096 .f32) (bi bh : FVec Ideal S4096 .f32) (r : Fin 4096) (j : Fin 4096) :
    gatesR x h wi wh bi bh (ix2 r j) = gateRow (fun k => x (ix2 r k)) (fun k => h (ix2 r k)) (fun k j => wi (ix2 k j)) (fun k j => wh (ix2 k j)) (fun j => bi (ix1 j) + bh (ix1 j)) j := by
  unfold gatesR gateRow
  simp only [addf_apply]
  rw [dotH_apply, dotH_apply, bias_apply, bias_apply]
  exact gate_regroup _ _ _ _

theorem sigR_apply (u : FVec Ideal S4096x1024 .f32) (i : S4096x1024.Idx) : sigR u i = Ideal.logistic (u i) := by
  show Ideal.div (Ideal.ofBits .f32 0x3F800000#32) (Ideal.ofBits .f32 0x3F800000#32 + Ideal.exp (-(u i))) = _
  rw [ofBits_one]; rfl

/-- A column group of the gates, at row `r` and column `q` of the group. -/
theorem group_apply (o : Nat) (ho : o + 1024 ≤ 4096) (g : FVec Ideal S4096x4096 .f32) (h : S4096x4096.Slices ![0, o] S4096x1024) (r : Fin 4096) (q : Fin 1024) :
    extractStridedSlice S4096x1024 ![0, o] g h (ix2 r q) = g (ix2 r (col o ho q)) :=
  extractStridedSlice_apply _ g h (ix2 r q) (ix2 r (col o ho q)) (fun a => by
    match a with | ⟨0, _⟩ => exact (Nat.zero_add _).symm | ⟨1, _⟩ => rfl)

theorem cellR_apply (g : FVec Ideal S4096x4096 .f32) (c : FVec Ideal S4096x1024 .f32) (r : Fin 4096) (q : Fin 1024) :
    cellR g c (ix2 r q) = Ideal.logistic (g (ix2 r (col 1024 (by norm_num) q))) * c (ix2 r q)
      + Ideal.logistic (g (ix2 r (col 0 (by norm_num) q))) * Ideal.tanh (g (ix2 r (col 2048 (by norm_num) q))) := by
  unfold cellR
  simp only [addf_apply, mulf_apply, sigR_apply]
  rw [group_apply 1024 (by norm_num), group_apply 0 (by norm_num)]
  show _ + _ * Ideal.tanh (extractStridedSlice S4096x1024 ![0, 2048] g slices_S4096x4096_S4096x1024_0_2048 (ix2 r q)) = _
  rw [group_apply 2048 (by norm_num)]

theorem hidR_apply (g : FVec Ideal S4096x4096 .f32) (c' : FVec Ideal S4096x1024 .f32) (r : Fin 4096) (q : Fin 1024) :
    hidR g c' (ix2 r q) = Ideal.logistic (g (ix2 r (col 3072 (by norm_num) q))) * Ideal.tanh (c' (ix2 r q)) := by
  unfold hidR
  simp only [mulf_apply, sigR_apply]
  rw [group_apply 3072 (by norm_num)]
  rfl

/-- A whole layer of the reference, read at a row: the specification's row functions of the operands' rows. -/
theorem cell_layer (x h c : FVec Ideal S4096x1024 .f32) (wi wh : FVec Ideal S1024x4096 .f32) (bi bh : FVec Ideal S4096 .f32) (r : Fin 4096) (q : Fin 1024) :
    cellR (gatesR x h wi wh bi bh) c (ix2 r q) = cellRow (fun k => x (ix2 r k)) (fun k => h (ix2 r k)) (fun k => c (ix2 r k)) (fun k j => wi (ix2 k j)) (fun k j => wh (ix2 k j)) (fun j => bi (ix1 j) + bh (ix1 j)) q := by
  rw [cellR_apply, gatesR_apply, gatesR_apply, gatesR_apply]; rfl

theorem hid_layer (x h c : FVec Ideal S4096x1024 .f32) (wi wh : FVec Ideal S1024x4096 .f32) (bi bh : FVec Ideal S4096 .f32) (r : Fin 4096) (q : Fin 1024) :
    hidR (gatesR x h wi wh bi bh) (cellR (gatesR x h wi wh bi bh) c) (ix2 r q) = hidRow (fun k => x (ix2 r k)) (fun k => h (ix2 r k)) (fun k => c (ix2 r k)) (fun k j => wi (ix2 k j)) (fun k j => wh (ix2 k j)) (fun j => bi (ix1 j) + bh (ix1 j)) q := by
  rw [hidR_apply, gatesR_apply, cell_layer]; rfl

/-! ## The reference's results as the specification's functions of the arguments -/

section Results

variable (V0 : Valuation τ sig (Elt Ideal))

abbrev aX : (⟨2, ![4096, 1024]⟩ : Shape).Idx → EReal := V0 (Proc.devRef .tc main_arg0)
abbrev aHp : (⟨3, ![4, 4096, 1024]⟩ : Shape).Idx → EReal := V0 (Proc.devRef .tc main_arg1)
abbrev aCp : (⟨3, ![4, 4096, 1024]⟩ : Shape).Idx → EReal := V0 (Proc.devRef .tc main_arg2)
abbrev aWi : (⟨3, ![4, 1024, 4096]⟩ : Shape).Idx → EReal := V0 (Proc.devRef .tc main_arg3)
abbrev aWh : (⟨3, ![4, 1024, 4096]⟩ : Shape).Idx → EReal := V0 (Proc.devRef .tc main_arg4)
abbrev aBi : (⟨2, ![4, 4096]⟩ : Shape).Idx → EReal := V0 (Proc.devRef .tc main_arg5)
abbrev aBh : (⟨2, ![4, 4096]⟩ : Shape).Idx → EReal := V0 (Proc.devRef .tc main_arg6)
abbrev aFw : (⟨2, ![1024, 1024]⟩ : Shape).Idx → EReal := V0 (Proc.devRef .tc main_arg7)
abbrev aFb : (⟨1, ![1024]⟩ : Shape).Idx → EReal := V0 (Proc.devRef .tc main_arg8)

/-- One layer of the reference on the stacked arguments: the specification's layer `l` of its input. -/
theorem ref_hid (l : Fin 4) (inp : FVec Ideal S4096x1024 .f32) (Hp Cp : FVec Ideal S4x4096x1024 .f32) (Wi Wh : FVec Ideal S4x1024x4096 .f32) (bi bh : FVec Ideal S4x4096 .f32)
    (hs : S4x4096x1024.Slices ![l.val, 0, 0] S1x4096x1024) (hw : S4x1024x4096.Slices ![l.val, 0, 0] S1x1024x4096) (hb : S4x4096.Slices ![l.val, 0] S1x4096) :
    hidR (gatesR inp (shapeCast _ (extractStridedSlice S1x4096x1024 ![l.val, 0, 0] Hp hs) shapeCasts_S1x4096x1024_S4096x1024)
          (shapeCast _ (extractStridedSlice S1x1024x4096 ![l.val, 0, 0] Wi hw) shapeCasts_S1x1024x4096_S1024x4096)
          (shapeCast _ (extractStridedSlice S1x1024x4096 ![l.val, 0, 0] Wh hw) shapeCasts_S1x1024x4096_S1024x4096)
          (shapeCast _ (extractStridedSlice S1x4096 ![l.val, 0] bi hb) shapeCasts_S1x4096_S4096)
          (shapeCast _ (extractStridedSlice S1x4096 ![l.val, 0] bh hb) shapeCasts_S1x4096_S4096))
        (cellR (gatesR inp (shapeCast _ (extractStridedSlice S1x4096x1024 ![l.val, 0, 0] Hp hs) shapeCasts_S1x4096x1024_S4096x1024)
          (shapeCast _ (extractStridedSlice S1x1024x4096 ![l.val, 0, 0] Wi hw) shapeCasts_S1x1024x4096_S1024x4096)
          (shapeCast _ (extractStridedSlice S1x1024x4096 ![l.val, 0, 0] Wh hw) shapeCasts_S1x1024x4096_S1024x4096)
          (shapeCast _ (extractStridedSlice S1x4096 ![l.val, 0] bi hb) shapeCasts_S1x4096_S4096)
          (shapeCast _ (extractStridedSlice S1x4096 ![l.val, 0] bh hb) shapeCasts_S1x4096_S4096))
          (shapeCast _ (extractStridedSlice S1x4096x1024 ![l.val, 0, 0] Cp hs) shapeCasts_S1x4096x1024_S4096x1024))
      = hidL Hp Cp Wi Wh bi bh inp l := by
  funext i
  obtain ⟨r, q, rfl⟩ : ∃ (r : Fin 4096) (q : Fin 1024), i = ix2 r q := ⟨i 0, i 1, eq_ix2 i⟩
  rw [hid_layer, hidL_apply]
  simp only [layer_state l, layer_weight l, layer_bias l]
  rfl

theorem ref_cell (l : Fin 4) (inp : FVec Ideal S4096x1024 .f32) (Hp Cp : FVec Ideal S4x4096x1024 .f32) (Wi Wh : FVec Ideal S4x1024x4096 .f32) (bi bh : FVec Ideal S4x4096 .f32)
    (hs : S4x4096x1024.Slices ![l.val, 0, 0] S1x4096x1024) (hw : S4x1024x4096.Slices ![l.val, 0, 0] S1x1024x4096) (hb : S4x4096.Slices ![l.val, 0] S1x4096) :
    cellR (gatesR inp (shapeCast _ (extractStridedSlice S1x4096x1024 ![l.val, 0, 0] Hp hs) shapeCasts_S1x4096x1024_S4096x1024)
          (shapeCast _ (extractStridedSlice S1x1024x4096 ![l.val, 0, 0] Wi hw) shapeCasts_S1x1024x4096_S1024x4096)
          (shapeCast _ (extractStridedSlice S1x1024x4096 ![l.val, 0, 0] Wh hw) shapeCasts_S1x1024x4096_S1024x4096)
          (shapeCast _ (extractStridedSlice S1x4096 ![l.val, 0] bi hb) shapeCasts_S1x4096_S4096)
          (shapeCast _ (extractStridedSlice S1x4096 ![l.val, 0] bh hb) shapeCasts_S1x4096_S4096))
          (shapeCast _ (extractStridedSlice S1x4096x1024 ![l.val, 0, 0] Cp hs) shapeCasts_S1x4096x1024_S4096x1024)
      = cellL Hp Cp Wi Wh bi bh inp l := by
  funext i
  obtain ⟨r, q, rfl⟩ : ∃ (r : Fin 4096) (q : Fin 1024), i = ix2 r q := ⟨i 0, i 1, eq_ix2 i⟩
  rw [cell_layer, cellL_apply]
  simp only [layer_state l, layer_weight l, layer_bias l]
  rfl

theorem h0_eq : res_main_v48 V0 = H0 (aX V0) (aHp V0) (aCp V0) (aWi V0) (aWh V0) (aBi V0) (aBh V0) :=
  ref_hid 0 (aX V0) (aHp V0) (aCp V0) (aWi V0) (aWh V0) (aBi V0) (aBh V0) _ _ _
theorem c0_eq : res_main_v46 V0 = C0 (aX V0) (aHp V0) (aCp V0) (aWi V0) (aWh V0) (aBi V0) (aBh V0) :=
  ref_cell 0 (aX V0) (aHp V0) (aCp V0) (aWi V0) (aWh V0) (aBi V0) (aBh V0) _ _ _
theorem h1_eq : res_main_v97 V0 = H1 (aX V0) (aHp V0) (aCp V0) (aWi V0) (aWh V0) (aBi V0) (aBh V0) :=
  (ref_hid 1 (res_main_v48 V0) (aHp V0) (aCp V0) (aWi V0) (aWh V0) (aBi V0) (aBh V0) _ _ _).trans (by rw [h0_eq]; rfl)
theorem c1_eq : res_main_v95 V0 = C1 (aX V0) (aHp V0) (aCp V0) (aWi V0) (aWh V0) (aBi V0) (aBh V0) :=
  (ref_cell 1 (res_main_v48 V0) (aHp V0) (aCp V0) (aWi V0) (aWh V0) (aBi V0) (aBh V0) _ _ _).trans (by rw [h0_eq]; rfl)
theorem h2_eq : res_main_v146 V0 = H2 (aX V0) (aHp V0) (aCp V0) (aWi V0) (aWh V0) (aBi V0) (aBh V0) :=
  (ref_hid 2 (res_main_v97 V0) (aHp V0) (aCp V0) (aWi V0) (aWh V0) (aBi V0) (aBh V0) _ _ _).trans (by rw [h1_eq]; rfl)
theorem c2_eq : res_main_v144 V0 = C2 (aX V0) (aHp V0) (aCp V0) (aWi V0) (aWh V0) (aBi V0) (aBh V0) :=
  (ref_cell 2 (res_main_v97 V0) (aHp V0) (aCp V0) (aWi V0) (aWh V0) (aBi V0) (aBh V0) _ _ _).trans (by rw [h1_eq]; rfl)
theorem c3_eq : res_main_v193 V0 = C3 (aX V0) (aHp V0) (aCp V0) (aWi V0) (aWh V0) (aBi V0) (aBh V0) :=
  (ref_cell 3 (res_main_v146 V0) (aHp V0) (aCp V0) (aWi V0) (aWh V0) (aBi V0) (aBh V0) _ _ _).trans (by rw [h2_eq]; rfl)
/-- The last layer's hidden state, which the reference's run spells inline. -/
theorem h3_eq : hidR (res_main_v167 V0) (res_main_v193 V0) = H3 (aX V0) (aHp V0) (aCp V0) (aWi V0) (aWh V0) (aBi V0) (aBh V0) :=
  (ref_hid 3 (res_main_v146 V0) (aHp V0) (aCp V0) (aWi V0) (aWh V0) (aBi V0) (aBh V0) _ _ _).trans (by rw [h2_eq]; rfl)

/-- The output projection of the reference, at a row and a column: it reads the last layer's hidden state back out of
    the stack of the four. -/
theorem y_layer (a0 a1 a2 a3 : FVec Ideal S4096x1024 .f32) (fw : FVec Ideal S1024x1024 .f32) (fb : FVec Ideal S1024 .f32) (r : Fin 4096) (o : Fin 1024) :
    addf (Host.dotGeneral dF none (shapeCast S4096x1024 (extractStridedSlice S1x4096x1024 ![3, 0, 0] (concatenate S4x4096x1024 0 [⟨S1x4096x1024, (broadcastInDim S1x4096x1024 ![1, 2] bcast_S4096x1024_S1x4096x1024_1_2 (a0))⟩, ⟨S1x4096x1024, (broadcastInDim S1x4096x1024 ![1, 2] bcast_S4096x1024_S1x4096x1024_1_2 (a1))⟩, ⟨S1x4096x1024, (broadcastInDim S1x4096x1024 ![1, 2] bcast_S4096x1024_S1x4096x1024_1_2 (a2))⟩, ⟨S1x4096x1024, (broadcastInDim S1x4096x1024 ![1, 2] bcast_S4096x1024_S1x4096x1024_1_2 (a3))⟩] concatenates_S1x4096x1024_S1x4096x1024_S1x4096x1024_S1x4096x1024_S4x4096x1024_d0) slices_S4x4096x1024_S1x4096x1024_3_0_0) shapeCasts_S1x4096x1024_S4096x1024) fw)
        (broadcastInDim S4096x1024 ![0, 1] bcast_S1x1024_S4096x1024_0_1 (broadcastInDim S1x1024 ![1] bcast_S1024_S1x1024_1 fb)) (ix2 r o)
      = outRow (row (B := 4096) a3 r) (mat (N := 1024) fw) (fun o => fb (ix1 o)) o := by
  refine (addf_apply _ _ _).trans ?_
  refine congrArg₂ (· + ·) ((dotF_apply _ fw r o).trans (Finset.sum_congr rfl fun k _ => ?_)) (fcb_apply fb r o)
  refine congrArg (· * fw (ix2 k o)) ?_
  exact (layer_state (3 : Fin 4) _ _ _ r k).trans (stack4_last a0 a1 a2 a3 _ _ r k)

/-- The reference's output projection is the specification's. -/
theorem y_eq :
    addf (Host.dotGeneral (φ₁ := .f32) (φ₂ := .f32) dF none (shapeCast S4096x1024 (extractStridedSlice S1x4096x1024 ![3, 0, 0] (concatenate S4x4096x1024 0 [⟨S1x4096x1024, (broadcastInDim S1x4096x1024 ![1, 2] bcast_S4096x1024_S1x4096x1024_1_2 (res_main_v48 V0))⟩, ⟨S1x4096x1024, (broadcastInDim S1x4096x1024 ![1, 2] bcast_S4096x1024_S1x4096x1024_1_2 (res_main_v97 V0))⟩, ⟨S1x4096x1024, (broadcastInDim S1x4096x1024 ![1, 2] bcast_S4096x1024_S1x4096x1024_1_2 (res_main_v146 V0))⟩, ⟨S1x4096x1024, (broadcastInDim S1x4096x1024 ![1, 2] bcast_S4096x1024_S1x4096x1024_1_2 (hidR (res_main_v167 V0) (res_main_v193 V0)))⟩] concatenates_S1x4096x1024_S1x4096x1024_S1x4096x1024_S1x4096x1024_S4x4096x1024_d0) slices_S4x4096x1024_S1x4096x1024_3_0_0) shapeCasts_S1x4096x1024_S4096x1024) (V0 (Proc.devRef .tc main_arg7)))
        (broadcastInDim S4096x1024 ![0, 1] bcast_S1x1024_S4096x1024_0_1 (broadcastInDim S1x1024 ![1] bcast_S1024_S1x1024_1 (V0 (Proc.devRef .tc main_arg8))))
      = Y (aX V0) (aHp V0) (aCp V0) (aWi V0) (aWh V0) (aBi V0) (aBh V0) (aFw V0) (aFb V0) := by
  funext i
  obtain ⟨r, o, rfl⟩ : ∃ (r : Fin 4096) (o : Fin 1024), i = ix2 r o := ⟨i 0, i 1, eq_ix2 i⟩
  refine (y_layer _ _ _ _ _ _ r o).trans ?_
  rw [h3_eq]
  rfl

/-- The reference's stacked hidden states are the specification's. -/
theorem hout_eq :
    concatenate S4x4096x1024 0 [⟨S1x4096x1024, (broadcastInDim S1x4096x1024 ![1, 2] bcast_S4096x1024_S1x4096x1024_1_2 (res_main_v48 V0))⟩, ⟨S1x4096x1024, (broadcastInDim S1x4096x1024 ![1, 2] bcast_S4096x1024_S1x4096x1024_1_2 (res_main_v97 V0))⟩, ⟨S1x4096x1024, (broadcastInDim S1x4096x1024 ![1, 2] bcast_S4096x1024_S1x4096x1024_1_2 (res_main_v146 V0))⟩, ⟨S1x4096x1024, (broadcastInDim S1x4096x1024 ![1, 2] bcast_S4096x1024_S1x4096x1024_1_2 (hidR (res_main_v167 V0) (res_main_v193 V0)))⟩] concatenates_S1x4096x1024_S1x4096x1024_S1x4096x1024_S1x4096x1024_S4x4096x1024_d0
      = cat4 bcast_S4096x1024_S1x4096x1024_1_2 concatenates_S1x4096x1024_S1x4096x1024_S1x4096x1024_S1x4096x1024_S4x4096x1024_d0 (H0 (aX V0) (aHp V0) (aCp V0) (aWi V0) (aWh V0) (aBi V0) (aBh V0)) (H1 (aX V0) (aHp V0) (aCp V0) (aWi V0) (aWh V0) (aBi V0) (aBh V0)) (H2 (aX V0) (aHp V0) (aCp V0) (aWi V0) (aWh V0) (aBi V0) (aBh V0)) (H3 (aX V0) (aHp V0) (aCp V0) (aWi V0) (aWh V0) (aBi V0) (aBh V0)) := by
  show cat4 _ _ (res_main_v48 V0) (res_main_v97 V0) (res_main_v146 V0) (hidR (res_main_v167 V0) (res_main_v193 V0)) = _
  rw [h0_eq, h1_eq, h2_eq, h3_eq]

/-- The reference's stacked cell states are the specification's. -/
theorem cout_eq :
    concatenate S4x4096x1024 0 [⟨S1x4096x1024, (broadcastInDim S1x4096x1024 ![1, 2] bcast_S4096x1024_S1x4096x1024_1_2 (res_main_v46 V0))⟩, ⟨S1x4096x1024, (broadcastInDim S1x4096x1024 ![1, 2] bcast_S4096x1024_S1x4096x1024_1_2 (res_main_v95 V0))⟩, ⟨S1x4096x1024, (broadcastInDim S1x4096x1024 ![1, 2] bcast_S4096x1024_S1x4096x1024_1_2 (res_main_v144 V0))⟩, ⟨S1x4096x1024, (broadcastInDim S1x4096x1024 ![1, 2] bcast_S4096x1024_S1x4096x1024_1_2 (res_main_v193 V0))⟩] concatenates_S1x4096x1024_S1x4096x1024_S1x4096x1024_S1x4096x1024_S4x4096x1024_d0
      = cat4 bcast_S4096x1024_S1x4096x1024_1_2 concatenates_S1x4096x1024_S1x4096x1024_S1x4096x1024_S1x4096x1024_S4x4096x1024_d0 (C0 (aX V0) (aHp V0) (aCp V0) (aWi V0) (aWh V0) (aBi V0) (aBh V0)) (C1 (aX V0) (aHp V0) (aCp V0) (aWi V0) (aWh V0) (aBi V0) (aBh V0)) (C2 (aX V0) (aHp V0) (aCp V0) (aWi V0) (aWh V0) (aBi V0) (aBh V0)) (C3 (aX V0) (aHp V0) (aCp V0) (aWi V0) (aWh V0) (aBi V0) (aBh V0)) := by
  show cat4 _ _ (res_main_v46 V0) (res_main_v95 V0) (res_main_v144 V0) (res_main_v193 V0) = _
  rw [c0_eq, c1_eq, c2_eq, c3_eq]

end Results

end Cert.ReferenceIdeal.RefValue

end
-- ==== Proof.lean ====
import proofs.«125291_j75917841924156_2_alg».proof.Defs
import proofs.«125291_j75917841924156_2_alg».proof.Proof.Gen.Kernel
import proofs.«125291_j75917841924156_2_alg».proof.Proof.Gen.KernelIdeal
import proofs.«125291_j75917841924156_2_alg».proof.Proof.Gen.ReferenceIdeal
import proofs.«125291_j75917841924156_2_alg».proof.Proof.Gen.Pre_finite_inputs
import proofs.«125291_j75917841924156_2_alg».proof.Proof.KRun
import proofs.«125291_j75917841924156_2_alg».proof.Proof.KIChain
import proofs.«125291_j75917841924156_2_alg».proof.Proof.RefFrame
import proofs.«125291_j75917841924156_2_alg».proof.Proof.RefValue
import Idealize.ShloMosaic.Adequacy
import Idealize.ShloMosaic.Init

/-!
# A four-layer LSTM with an output projection: the tiled kernel program against the whole-array reference

Both programs compute, for each of four layers, the gate pre-activations `x·Wi + h·Wh + bi + bh`, the logistic
function of three column groups and the hyperbolic tangent of the fourth, the new cell state `f·c + i·g` and the
new hidden state `o·tanh(c')`; the last hidden state goes through `h'·fc_W + fc_b`. The kernel program tiles the
batch axis, keeps the weights in a narrower float format (the identity on the extended reals) and adds the two
biases before the products; the reference works on whole arrays and adds each bias after its product. A row of
the result depends only on the same row of the inputs, and the two groupings of the gate sum are one extended
real, so every result array is the same function of the arguments in both programs.

The three frames: each program terminates from any memory and leaves its arguments as launched. The kernel
program's idealization changes nothing that needs a statement. The value claim joins both runs at the
specification's stack of layers.
-/

noncomputable section

namespace Cert.Proof

open Idealize.ShloMosaic Idealize.ShloMosaic.TcCoe Idealize.ShloMosaic.StableHlo Idealize.SL.Sem Cert.LayerSpec

theorem frame_k : Cert.frame_Kernel := fun m ρ _ => Cert.Kernel.Hand.frame (F := Bits) m ρ

theorem frame_ki : Cert.frame_KernelIdeal := fun m ρ _ => Cert.KernelIdeal.Hand.frame (F := Ideal) m ρ

theorem preserves : Cert.preserves_Kernel_KernelIdeal := trivial

/-- From memories that agree on the arguments both programs end with the output projection, the stacked hidden
    states and the stacked cell states at the specification's functions of the arguments. -/
theorem algebraic : Cert.algebraic_KernelIdeal_ReferenceIdeal := by
  intro m ρ m' ρ' _ hagree
  refine ⟨fun c => Cert.KernelIdeal.Hand.B9 m ρ c (Proc.devRef .tc Cert.KernelIdeal.main_v69_2), fun c => Cert.KernelIdeal.Hand.B9 m ρ c (Proc.devRef .tc Cert.KernelIdeal.main_v74),
    fun c => Cert.KernelIdeal.Hand.B9 m ρ c (Proc.devRef .tc Cert.KernelIdeal.main_v79), ?_, ?_⟩
  · exact (θ_run Cert.KernelIdeal.defs _ _).mono (fun _ h c =>
      ⟨h c _ (Cert.KernelIdeal.Hand.mem_ucH Cert.KernelIdeal.main_v69_2 (by decide)), h c _ (Cert.KernelIdeal.Hand.mem_ucH Cert.KernelIdeal.main_v74 (by decide)),
        h c _ (Cert.KernelIdeal.Hand.mem_ucH Cert.KernelIdeal.main_v79 (by decide)),
        (h c _ (Cert.KernelIdeal.Hand.mem_ucH Cert.KernelIdeal.main_arg0 (by decide))).trans (Cert.KernelIdeal.Hand.B9_main_arg0 m ρ c),
        (h c _ (Cert.KernelIdeal.Hand.mem_ucH Cert.KernelIdeal.main_arg1 (by decide))).trans (Cert.KernelIdeal.Hand.B9_main_arg1 m ρ c),
        (h c _ (Cert.KernelIdeal.Hand.mem_ucH Cert.KernelIdeal.main_arg2 (by decide))).trans (Cert.KernelIdeal.Hand.B9_main_arg2 m ρ c),
        (h c _ (Cert.KernelIdeal.Hand.mem_ucH Cert.KernelIdeal.main_arg3 (by decide))).trans (Cert.KernelIdeal.Hand.B9_main_arg3 m ρ c),
        (h c _ (Cert.KernelIdeal.Hand.mem_ucH Cert.KernelIdeal.main_arg4 (by decide))).trans (Cert.KernelIdeal.Hand.B9_main_arg4 m ρ c),
        (h c _ (Cert.KernelIdeal.Hand.mem_ucH Cert.KernelIdeal.main_arg5 (by decide))).trans (Cert.KernelIdeal.Hand.B9_main_arg5 m ρ c),
        (h c _ (Cert.KernelIdeal.Hand.mem_ucH Cert.KernelIdeal.main_arg6 (by decide))).trans (Cert.KernelIdeal.Hand.B9_main_arg6 m ρ c),
        (h c _ (Cert.KernelIdeal.Hand.mem_ucH Cert.KernelIdeal.main_arg7 (by decide))).trans (Cert.KernelIdeal.Hand.B9_main_arg7 m ρ c),
        (h c _ (Cert.KernelIdeal.Hand.mem_ucH Cert.KernelIdeal.main_arg8 (by decide))).trans (Cert.KernelIdeal.Hand.B9_main_arg8 m ρ c)⟩)
      (Cert.KernelIdeal.Hand.run_all (F := Ideal) m ρ)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    all_goals
      have e0 : Cert.ReferenceIdeal.RefValue.aX (launchContents m' c) = Cert.KernelIdeal.Hand.kX m c := (hagree c).1
      have e1 : Cert.ReferenceIdeal.RefValue.aHp (launchContents m' c) = Cert.KernelIdeal.Hand.kHp m c := (hagree c).2.1
      have e2 : Cert.ReferenceIdeal.RefValue.aCp (launchContents m' c) = Cert.KernelIdeal.Hand.kCp m c := (hagree c).2.2.1
      have e3 : Cert.ReferenceIdeal.RefValue.aWi (launchContents m' c) = Cert.KernelIdeal.Hand.kWi m c := (hagree c).2.2.2.1
      have e4 : Cert.ReferenceIdeal.RefValue.aWh (launchContents m' c) = Cert.KernelIdeal.Hand.kWh m c := (hagree c).2.2.2.2.1
      have e5 : Cert.ReferenceIdeal.RefValue.aBi (launchContents m' c) = Cert.KernelIdeal.Hand.kBi m c := (hagree c).2.2.2.2.2.1
      have e6 : Cert.ReferenceIdeal.RefValue.aBh (launchContents m' c) = Cert.KernelIdeal.Hand.kBh m c := (hagree c).2.2.2.2.2.2.1
      have e7 : Cert.ReferenceIdeal.RefValue.aFw (launchContents m' c) = Cert.KernelIdeal.Hand.kFw m c := (hagree c).2.2.2.2.2.2.2.1
      have e8 : Cert.ReferenceIdeal.RefValue.aFb (launchContents m' c) = Cert.KernelIdeal.Hand.kFb m c := (hagree c).2.2.2.2.2.2.2.2
    · refine (Cert.ReferenceIdeal.RefValue.y_eq (launchContents m' c)).trans ?_
      rw [e0, e1, e2, e3, e4, e5, e6, e7, e8]
      exact (Cert.KernelIdeal.Hand.res_y m ρ c).symm
    · refine (Cert.ReferenceIdeal.RefValue.hout_eq (launchContents m' c)).trans ?_
      rw [e0, e1, e2, e3, e4, e5, e6]
      exact (Cert.KernelIdeal.Hand.res_h m ρ c).symm
    · refine (Cert.ReferenceIdeal.RefValue.cout_eq (launchContents m' c)).trans ?_
      rw [e0, e1, e2, e3, e4, e5, e6]
      exact (Cert.KernelIdeal.Hand.res_c m ρ c).symm

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, preserves, algebraic⟩

end Cert.Proof

end
